-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel

variable [Facts]

def fn {F : FTy → Type} [FloatOps F] (main_arg0 : FVec F S4096x3 .f32) (main_arg1 : IVec S4096 32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  main_v3
-- ==== Kernel.lean ====
abbrev S4096x3 : Shape := ⟨2, ![4096, 3]⟩
abbrev S4096 : Shape := ⟨1, ![4096]⟩
abbrev S4096x1 : Shape := ⟨2, ![4096, 1]⟩
abbrev S1x4096 : Shape := ⟨2, ![1, 4096]⟩
abbrev S3x4096x4096 : Shape := ⟨3, ![3, 4096, 4096]⟩
abbrev S4096x4096 : Shape := ⟨2, ![4096, 4096]⟩
abbrev S512x3 : Shape := ⟨2, ![512, 3]⟩
abbrev S512x1 : Shape := ⟨2, ![512, 1]⟩
abbrev S1x512 : Shape := ⟨2, ![1, 512]⟩
abbrev S3x512x512 : Shape := ⟨3, ![3, 512, 512]⟩
abbrev S512x512 : Shape := ⟨2, ![512, 512]⟩
abbrev S512 : Shape := ⟨1, ![512]⟩
abbrev S1x512x512 : Shape := ⟨3, ![1, 512, 512]⟩
abbrev S16777216 : Shape := ⟨1, ![16777216]⟩
abbrev S_ : Shape := ⟨0, ![]⟩
abbrev S524288 : Shape := ⟨1, ![524288]⟩
abbrev S16777216x1 : Shape := ⟨2, ![16777216, 1]⟩
abbrev S1x524288 : Shape := ⟨2, ![1, 524288]⟩
abbrev S2x524288 : Shape := ⟨2, ![2, 524288]⟩
abbrev S1x4096x4096 : Shape := ⟨3, ![1, 4096, 4096]⟩
abbrev S524288x1 : Shape := ⟨2, ![524288, 1]⟩
abbrev S524288x3 : Shape := ⟨2, ![524288, 3]⟩

abbrev nBuf : Space → Nat
  | .hbm => 117
  | .vmem => 14
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S3x4096x4096, .f32⟩
  | .hbm, ⟨5, _⟩ => ⟨S4096x4096, .f32⟩
  | .hbm, ⟨6, _⟩ => ⟨S4096x4096, .i32⟩
  | .hbm, ⟨7, _⟩ => ⟨S16777216, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S16777216, .i32⟩
  | .hbm, ⟨12, _⟩ => ⟨S_, .i32⟩
  | .hbm, ⟨13, _⟩ => ⟨S_, .i32⟩
  | .hbm, ⟨14, _⟩ => ⟨S16777216, .i32⟩
  | .hbm, ⟨15, _⟩ => ⟨S_, .i32⟩
  | .hbm, ⟨16, _⟩ => ⟨S16777216, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S16777216, .i1⟩
  | .hbm, ⟨22, _⟩ => ⟨S_, .i32⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S16777216, .i32⟩
  | .hbm, ⟨30, _⟩ => ⟨S4096, .i32⟩
  | .hbm, ⟨31, _⟩ => ⟨S1x4096, .i32⟩
  | .hbm, ⟨32, _⟩ => ⟨S4096x4096, .i32⟩
  | .hbm, ⟨33, _⟩ => ⟨S16777216, .i32⟩
  | .hbm, ⟨34, _⟩ => ⟨S_, .i32⟩
  | .hbm, ⟨35, _⟩ => ⟨S524288, .i32⟩
  | .hbm, ⟨36, _⟩ => ⟨S_, .i32⟩
  | .hbm, ⟨37, _⟩ => ⟨S16777216, .i32⟩
  | .hbm, ⟨38, _⟩ => ⟨S16777216, .i1⟩
  | .hbm, ⟨39, _⟩ => ⟨S_, .i32⟩
  | .hbm, ⟨40, _⟩ => ⟨S16777216, .i32⟩
  | .hbm, ⟨41, _⟩ => ⟨S16777216, .i32⟩
  | .hbm, ⟨42, _⟩ => ⟨S16777216, .i32⟩
  | .hbm, ⟨43, _⟩ => ⟨S16777216x1, .i32⟩
  | .hbm, ⟨44, _⟩ => ⟨S524288, .i32⟩
  | .hbm, ⟨45, _⟩ => ⟨S_, .i32⟩
  | .hbm, ⟨46, _⟩ => ⟨S524288, .i32⟩
  | .hbm, ⟨47, _⟩ => ⟨S_, .i32⟩
  | .hbm, ⟨48, _⟩ => ⟨S16777216, .i32⟩
  | .hbm, ⟨49, _⟩ => ⟨S16777216, .i1⟩
  | .hbm, ⟨50, _⟩ => ⟨S_, .i32⟩
  | .hbm, ⟨51, _⟩ => ⟨S16777216, .i32⟩
  | .hbm, ⟨52, _⟩ => ⟨S16777216, .i32⟩
  | .hbm, ⟨53, _⟩ => ⟨S16777216, .i32⟩
  | .hbm, ⟨54, _⟩ => ⟨S16777216x1, .i32⟩
  | .hbm, ⟨55, _⟩ => ⟨S524288, .i32⟩
  | .hbm, ⟨56, _⟩ => ⟨S1x524288, .i32⟩
  | .hbm, ⟨57, _⟩ => ⟨S1x524288, .i32⟩
  | .hbm, ⟨58, _⟩ => ⟨S2x524288, .i32⟩
  | .hbm, ⟨59, _⟩ => ⟨S_, .f32⟩
  | .hbm, ⟨60, _⟩ => ⟨S524288, .f32⟩
  | .hbm, ⟨61, _⟩ => ⟨S16777216, .f32⟩
  | .hbm, ⟨62, _⟩ => ⟨S_, .i32⟩
  | .hbm, ⟨63, _⟩ => ⟨S16777216, .i32⟩
  | .hbm, ⟨64, _⟩ => ⟨S16777216, .i1⟩
  | .hbm, ⟨65, _⟩ => ⟨S_, .i32⟩
  | .hbm, ⟨66, _⟩ => ⟨S16777216, .i32⟩
  | .hbm, ⟨67, _⟩ => ⟨S16777216, .i32⟩
  | .hbm, ⟨68, _⟩ => ⟨S16777216, .i32⟩
  | .hbm, ⟨69, _⟩ => ⟨S16777216x1, .i32⟩
  | .hbm, ⟨70, _⟩ => ⟨S524288, .f32⟩
  | .hbm, ⟨71, _⟩ => ⟨S_, .f32⟩
  | .hbm, ⟨72, _⟩ => ⟨S524288, .f32⟩
  | .hbm, ⟨73, _⟩ => ⟨S1x4096x4096, .f32⟩
  | .hbm, ⟨74, _⟩ => ⟨S4096x4096, .f32⟩
  | .hbm, ⟨75, _⟩ => ⟨S16777216, .f32⟩
  | .hbm, ⟨76, _⟩ => ⟨S_, .i32⟩
  | .hbm, ⟨77, _⟩ => ⟨S16777216, .i32⟩
  | .hbm, ⟨78, _⟩ => ⟨S16777216, .i1⟩
  | .hbm, ⟨79, _⟩ => ⟨S_, .i32⟩
  | .hbm, ⟨80, _⟩ => ⟨S16777216, .i32⟩
  | .hbm, ⟨81, _⟩ => ⟨S16777216, .i32⟩
  | .hbm, ⟨82, _⟩ => ⟨S16777216, .i32⟩
  | .hbm, ⟨83, _⟩ => ⟨S16777216x1, .i32⟩
  | .hbm, ⟨84, _⟩ => ⟨S524288, .f32⟩
  | .hbm, ⟨85, _⟩ => ⟨S_, .f32⟩
  | .hbm, ⟨86, _⟩ => ⟨S524288, .f32⟩
  | .hbm, ⟨87, _⟩ => ⟨S1x4096x4096, .f32⟩
  | .hbm, ⟨88, _⟩ => ⟨S4096x4096, .f32⟩
  | .hbm, ⟨89, _⟩ => ⟨S16777216, .f32⟩
  | .hbm, ⟨90, _⟩ => ⟨S_, .i32⟩
  | .hbm, ⟨91, _⟩ => ⟨S16777216, .i32⟩
  | .hbm, ⟨92, _⟩ => ⟨S16777216, .i1⟩
  | .hbm, ⟨93, _⟩ => ⟨S_, .i32⟩
  | .hbm, ⟨94, _⟩ => ⟨S16777216, .i32⟩
  | .hbm, ⟨95, _⟩ => ⟨S16777216, .i32⟩
  | .hbm, ⟨96, _⟩ => ⟨S16777216, .i32⟩
  | .hbm, ⟨97, _⟩ => ⟨S16777216x1, .i32⟩
  | .hbm, ⟨98, _⟩ => ⟨S524288, .f32⟩
  | .hbm, ⟨99, _⟩ => ⟨S_, .f32⟩
  | .hbm, ⟨100, _⟩ => ⟨S524288, .f32⟩
  | .hbm, ⟨101, _⟩ => ⟨S1x4096x4096, .f32⟩
  | .hbm, ⟨102, _⟩ => ⟨S4096x4096, .f32⟩
  | .hbm, ⟨103, _⟩ => ⟨S16777216, .f32⟩
  | .hbm, ⟨104, _⟩ => ⟨S_, .i32⟩
  | .hbm, ⟨105, _⟩ => ⟨S16777216, .i32⟩
  | .hbm, ⟨106, _⟩ => ⟨S16777216, .i1⟩
  | .hbm, ⟨107, _⟩ => ⟨S_, .i32⟩
  | .hbm, ⟨108, _⟩ => ⟨S16777216, .i32⟩
  | .hbm, ⟨109, _⟩ => ⟨S16777216, .i32⟩
  | .hbm, ⟨110, _⟩ => ⟨S16777216, .i32⟩
  | .hbm, ⟨111, _⟩ => ⟨S16777216x1, .i32⟩
  | .hbm, ⟨112, _⟩ => ⟨S524288, .f32⟩
  | .hbm, ⟨113, _⟩ => ⟨S524288x1, .f32⟩
  | .hbm, ⟨114, _⟩ => ⟨S524288x1, .f32⟩
  | .hbm, ⟨115, _⟩ => ⟨S524288x1, .f32⟩
  | .hbm, ⟨116, _⟩ => ⟨S524288x3, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S3x512x512, .f32⟩
  | .local _ .vmem, ⟨9, _⟩ => ⟨S3x512x512, .f32⟩
  | .local _ .vmem, ⟨10, _⟩ => ⟨S512x512, .f32⟩
  | .local _ .vmem, ⟨11, _⟩ => ⟨S512x512, .f32⟩
  | .local _ .vmem, ⟨12, _⟩ => ⟨S512x512, .i32⟩
  | .local _ .vmem, ⟨13, _⟩ => ⟨S512x512, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_c : Ref sig .tc := ⟨.hbm, 12, rfl⟩
abbrev main_call0_call0_v0 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_c_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4096_S4096x1 : S4096.ShapeCasts S4096x1
  shapeCasts_S4096_S1x4096 : S4096.ShapeCasts S1x4096
  inb_S512x3_S512x3_0_0 : ∀ a, (![0, 0] : Fin 2 → Nat) a + S512x3.size a ≤ S512x3.size a
  h_S512x3 : 0 < S512x3.numel
  slices_S512x3_o0_0_S512x1 : S512x3.Slices ![0, 0] S512x1
  shapeCasts_S512x1_S512 : S512x1.ShapeCasts S512
  shapeCasts_S512_S1x512 : S512.ShapeCasts S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  shapeCasts_S512x512_S1x512x512 : S512x512.ShapeCasts S1x512x512
  inb_S3x512x512_S1x512x512_1_0_0 : ∀ a, (![1, 0, 0] : Fin 3 → Nat) a + S1x512x512.size a ≤ S3x512x512.size a
  inb_S3x512x512_S1x512x512_2_0_0 : ∀ a, (![2, 0, 0] : Fin 3 → Nat) a + S1x512x512.size a ≤ S3x512x512.size a
  inb_S512x512_S512x512_0_0 : ∀ a, (![0, 0] : Fin 2 → Nat) a + S512x512.size a ≤ S512x512.size a
  h_S512x512 : 0 < S512x512.numel
  natLt_1_32 : 1 < 32
  shapeCasts_S4096x4096_S16777216 : S4096x4096.ShapeCasts S16777216
  bcast_S_S16777216 : S_.BroadcastsInDim S16777216 (![] : Fin 0 → Fin S16777216.rank)
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S524288 : S_.BroadcastsInDim S524288 (![] : Fin 0 → Fin S524288.rank)
  bcast_S16777216_S16777216x1_0 : S16777216.BroadcastsInDim S16777216x1 (![0] : Fin 1 → Fin S16777216x1.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  slices_S3x4096x4096_S1x4096x4096_0_0_0 : S3x4096x4096.Slices ![0, 0, 0] S1x4096x4096
  shapeCasts_S1x4096x4096_S4096x4096 : S1x4096x4096.ShapeCasts S4096x4096
  slices_S3x4096x4096_S1x4096x4096_1_0_0 : S3x4096x4096.Slices ![1, 0, 0] S1x4096x4096
  slices_S3x4096x4096_S1x4096x4096_2_0_0 : S3x4096x4096.Slices ![2, 0, 0] S1x4096x4096
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  scatter_S524288_S16777216x1_S16777216_n_0_0_1_wf : ScatterDims.WF S524288 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S4096x3.size a
  hwx0_1 : ∀ i : grid0.Coords, EltTy.bits .f32 = 32 ∨ (Rect.block (s := S4096x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x512x512.size a ≤ S3x4096x4096.size a
  hwx0_4 : ∀ i : grid0.Coords, EltTy.bits .f32 = 32 ∨ (Rect.block (s := S3x4096x4096) S3x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .i32 = 32 ∨ (Rect.block (s := S4096x4096) S512x512.size (cc0_transform_6 i) (hinb0_6 i)).WholeWords (EltTy.packing .i32)

variable [Facts₀]

def scatter_S524288_S16777216x1_S16777216_n_0_0_1 : ScatterDims S524288 S16777216x1 S16777216 where
  updateWindowDims := []
  insertedWindowDims := [0]
  scatterDimsToOperandDims := [0]
  indexVectorDim := 1
  wf := scatter_S524288_S16777216x1_S16777216_n_0_0_1_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S3x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x3 : Shape := ⟨2, ![4096, 3]⟩
abbrev S4096 : Shape := ⟨1, ![4096]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩
abbrev S16777216 : Shape := ⟨1, ![16777216]⟩
abbrev S524288 : Shape := ⟨1, ![524288]⟩
abbrev S16777216x1 : Shape := ⟨2, ![16777216, 1]⟩
abbrev S1x524288 : Shape := ⟨2, ![1, 524288]⟩
abbrev S2x524288 : Shape := ⟨2, ![2, 524288]⟩
abbrev S524288x3 : Shape := ⟨2, ![524288, 3]⟩
abbrev S16777216x3 : Shape := ⟨2, ![16777216, 3]⟩

abbrev nBuf : Space → Nat
  | .hbm => 116
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S4096x1x3, .f32⟩
  | .hbm, ⟨3, _⟩ => ⟨S1x4096x3, .f32⟩
  | .hbm, ⟨4, _⟩ => ⟨S4096x4096x3, .f32⟩
  | .hbm, ⟨5, _⟩ => ⟨S4096x4096x3, .f32⟩
  | .hbm, ⟨6, _⟩ => ⟨S4096x4096x3, .f32⟩
  | .hbm, ⟨7, _⟩ => ⟨S4096x4096x3, .f32⟩
  | .hbm, ⟨8, _⟩ => ⟨S_, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .i1⟩
  | .hbm, ⟨38, _⟩ => ⟨S4096x4096, .i1⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S4096x4096, .i1⟩
  | .hbm, ⟨43, _⟩ => ⟨S16777216, .i1⟩
  | .hbm, ⟨44, _⟩ => ⟨S16777216, .i32⟩
  | .hbm, ⟨45, _⟩ => ⟨S_, .i32⟩
  | .hbm, ⟨46, _⟩ => ⟨S_, .i32⟩
  | .hbm, ⟨47, _⟩ => ⟨S16777216, .i32⟩
  | .hbm, ⟨48, _⟩ => ⟨S_, .i32⟩
  | .hbm, ⟨49, _⟩ => ⟨S16777216, .i32⟩
  | .hbm, ⟨50, _⟩ => ⟨S16777216, .i32⟩
  | .hbm, ⟨51, _⟩ => ⟨S_, .i32⟩
  | .hbm, ⟨52, _⟩ => ⟨S16777216, .i32⟩
  | .hbm, ⟨53, _⟩ => ⟨S16777216, .i1⟩
  | .hbm, ⟨54, _⟩ => ⟨S16777216, .i1⟩
  | .hbm, ⟨55, _⟩ => ⟨S_, .i32⟩
  | .hbm, ⟨56, _⟩ => ⟨S_, .i32⟩
  | .hbm, ⟨57, _⟩ => ⟨S16777216, .i32⟩
  | .hbm, ⟨58, _⟩ => ⟨S16777216, .i32⟩
  | .hbm, ⟨59, _⟩ => ⟨S4096, .i32⟩
  | .hbm, ⟨60, _⟩ => ⟨S4096x1, .i32⟩
  | .hbm, ⟨61, _⟩ => ⟨S4096x4096, .i32⟩
  | .hbm, ⟨62, _⟩ => ⟨S16777216, .i32⟩
  | .hbm, ⟨63, _⟩ => ⟨S4096, .i32⟩
  | .hbm, ⟨64, _⟩ => ⟨S1x4096, .i32⟩
  | .hbm, ⟨65, _⟩ => ⟨S4096x4096, .i32⟩
  | .hbm, ⟨66, _⟩ => ⟨S16777216, .i32⟩
  | .hbm, ⟨67, _⟩ => ⟨S_, .i32⟩
  | .hbm, ⟨68, _⟩ => ⟨S524288, .i32⟩
  | .hbm, ⟨69, _⟩ => ⟨S_, .i32⟩
  | .hbm, ⟨70, _⟩ => ⟨S16777216, .i32⟩
  | .hbm, ⟨71, _⟩ => ⟨S16777216, .i1⟩
  | .hbm, ⟨72, _⟩ => ⟨S_, .i32⟩
  | .hbm, ⟨73, _⟩ => ⟨S16777216, .i32⟩
  | .hbm, ⟨74, _⟩ => ⟨S16777216, .i32⟩
  | .hbm, ⟨75, _⟩ => ⟨S16777216, .i32⟩
  | .hbm, ⟨76, _⟩ => ⟨S16777216x1, .i32⟩
  | .hbm, ⟨77, _⟩ => ⟨S524288, .i32⟩
  | .hbm, ⟨78, _⟩ => ⟨S_, .i32⟩
  | .hbm, ⟨79, _⟩ => ⟨S524288, .i32⟩
  | .hbm, ⟨80, _⟩ => ⟨S_, .i32⟩
  | .hbm, ⟨81, _⟩ => ⟨S16777216, .i32⟩
  | .hbm, ⟨82, _⟩ => ⟨S16777216, .i1⟩
  | .hbm, ⟨83, _⟩ => ⟨S_, .i32⟩
  | .hbm, ⟨84, _⟩ => ⟨S16777216, .i32⟩
  | .hbm, ⟨85, _⟩ => ⟨S16777216, .i32⟩
  | .hbm, ⟨86, _⟩ => ⟨S16777216, .i32⟩
  | .hbm, ⟨87, _⟩ => ⟨S16777216x1, .i32⟩
  | .hbm, ⟨88, _⟩ => ⟨S524288, .i32⟩
  | .hbm, ⟨89, _⟩ => ⟨S1x524288, .i32⟩
  | .hbm, ⟨90, _⟩ => ⟨S1x524288, .i32⟩
  | .hbm, ⟨91, _⟩ => ⟨S2x524288, .i32⟩
  | .hbm, ⟨92, _⟩ => ⟨S_, .f32⟩
  | .hbm, ⟨93, _⟩ => ⟨S524288, .f32⟩
  | .hbm, ⟨94, _⟩ => ⟨S16777216, .f32⟩
  | .hbm, ⟨95, _⟩ => ⟨S_, .i32⟩
  | .hbm, ⟨96, _⟩ => ⟨S16777216, .i32⟩
  | .hbm, ⟨97, _⟩ => ⟨S16777216, .i1⟩
  | .hbm, ⟨98, _⟩ => ⟨S_, .i32⟩
  | .hbm, ⟨99, _⟩ => ⟨S16777216, .i32⟩
  | .hbm, ⟨100, _⟩ => ⟨S16777216, .i32⟩
  | .hbm, ⟨101, _⟩ => ⟨S16777216, .i32⟩
  | .hbm, ⟨102, _⟩ => ⟨S16777216x1, .i32⟩
  | .hbm, ⟨103, _⟩ => ⟨S524288, .f32⟩
  | .hbm, ⟨104, _⟩ => ⟨S_, .f32⟩
  | .hbm, ⟨105, _⟩ => ⟨S524288x3, .f32⟩
  | .hbm, ⟨106, _⟩ => ⟨S16777216x3, .f32⟩
  | .hbm, ⟨107, _⟩ => ⟨S_, .i32⟩
  | .hbm, ⟨108, _⟩ => ⟨S16777216, .i32⟩
  | .hbm, ⟨109, _⟩ => ⟨S16777216, .i1⟩
  | .hbm, ⟨110, _⟩ => ⟨S_, .i32⟩
  | .hbm, ⟨111, _⟩ => ⟨S16777216, .i32⟩
  | .hbm, ⟨112, _⟩ => ⟨S16777216, .i32⟩
  | .hbm, ⟨113, _⟩ => ⟨S16777216, .i32⟩
  | .hbm, ⟨114, _⟩ => ⟨S16777216x1, .i32⟩
  | .hbm, ⟨115, _⟩ => ⟨S524288x3, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call2_call0_c : Ref sig .tc := ⟨.hbm, 45, rfl⟩
abbrev main_call2_call0_v0 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_call3_v0 : Ref sig .tc := ⟨.hbm, 56, rfl⟩
abbrev main_call3_v1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S16777216 : S_.BroadcastsInDim S16777216 (![] : Fin 0 → Fin S16777216.rank)
  bcast_S_S524288 : S_.BroadcastsInDim S524288 (![] : Fin 0 → Fin S524288.rank)
  bcast_S16777216_S16777216x1_0 : S16777216.BroadcastsInDim S16777216x1 (![0] : Fin 1 → Fin S16777216x1.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  bcast_S_S524288x3 : S_.BroadcastsInDim S524288x3 (![] : Fin 0 → Fin S524288x3.rank)
  shapeCasts_S4096x4096x3_S16777216x3 : S4096x4096x3.ShapeCasts S16777216x3
  scatter_S524288_S16777216x1_S16777216_n_0_0_1_wf : ScatterDims.WF S524288 S16777216x1 S16777216 [] [0] [0] 1
  scatter_S524288x3_S16777216x1_S16777216x3_1_0_0_1_wf : ScatterDims.WF S524288x3 S16777216x1 S16777216x3 [1] [0] [0] 1

variable [Facts₀]

def scatter_S524288_S16777216x1_S16777216_n_0_0_1 : ScatterDims S524288 S16777216x1 S16777216 where
  updateWindowDims := []
  insertedWindowDims := [0]
  scatterDimsToOperandDims := [0]
  indexVectorDim := 1
  wf := scatter_S524288_S16777216x1_S16777216_n_0_0_1_wf
def scatter_S524288x3_S16777216x1_S16777216x3_1_0_0_1 : ScatterDims S524288x3 S16777216x1 S16777216x3 where
  updateWindowDims := [1]
  insertedWindowDims := [0]
  scatterDimsToOperandDims := [0]
  indexVectorDim := 1
  wf := scatter_S524288x3_S16777216x1_S16777216x3_1_0_0_1_wf

class Facts : Prop extends Facts₀ where

variable [Facts]
-- ==== Proof.KBBody.lean ====
/-
  The pairwise kernel's body at one grid point. On whole staging buffers holding a block of positions for the
  rows, a block of positions for the columns, a column and a row of batch words, the body leaves in the three
  output buffers: the three planes of coordinate differences, the distances, and the neighbour mask as 0/1
  words; it reads nothing else and keeps nothing between points. Stated for any float instance.
-/
import proofs.«123107_j75376676045589_2_alg».proof.Proof.Gen.Kernel.Launch
import proofs.«123107_j75376676045589_2_alg».proof.Proof.Gen.Kernel.Skeleton
import proofs.«123107_j75376676045589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses -/

abbrev rA : Rect S512x3 := Rect.unit (s := S512x3) ![0, 0] S512x3.size inb_S512x3_S512x3_0_0
abbrev rB : Rect S512x1 := Rect.unit (s := S512x1) ![0, 0] S512x1.size inb_S512x1_S512x1_0_0
abbrev rC : Rect S1x512 := Rect.unit (s := S1x512) ![0, 0] S1x512.size inb_S1x512_S1x512_0_0
abbrev rV0 : Rect S3x512x512 := Rect.unit (s := S3x512x512) ![0, 0, 0] S1x512x512.size inb_S3x512x512_S1x512x512_0_0_0
abbrev rV1 : Rect S3x512x512 := Rect.unit (s := S3x512x512) ![1, 0, 0] S1x512x512.size inb_S3x512x512_S1x512x512_1_0_0
abbrev rV2 : Rect S3x512x512 := Rect.unit (s := S3x512x512) ![2, 0, 0] S1x512x512.size inb_S3x512x512_S1x512x512_2_0_0
abbrev rD : Rect S512x512 := Rect.unit (s := S512x512) ![0, 0] S512x512.size inb_S512x512_S512x512_0_0

/-! ## What the body leaves in each output buffer -/

/-- The difference planes: plane k holds x_i[k] - x_j[k] over the tile (the three stores, last first). -/
def outVec (x0 x1 : Vec F S512x3 .f32) : Vec F S3x512x512 .f32 :=
  View.canon [⟨rV2, k0_pay3 (k0_pay7 (View.ld x0 rA) (View.ld x1 rA))⟩,
    ⟨rV1, k0_pay2 (k0_pay6 (View.ld x0 rA) (View.ld x1 rA))⟩,
    ⟨rV0, k0_pay1 (k0_pay5 (View.ld x0 rA) (View.ld x1 rA))⟩]

/-- The distances over the tile. -/
def outDist (x0 x1 : Vec F S512x3 .f32) : Vec F S512x512 .f32 :=
  View.canon [⟨rD, k0_pay8 (View.ld x0 rA) (View.ld x1 rA)⟩]

/-- The mask words over the tile at grid coordinates i: the global row and column numbers enter through i. -/
def outMask (i : grid0.Coords) (x0 x1 : Vec F S512x3 .f32) (x2 : Vec F S512x1 .i32) (x3 : Vec F S1x512 .i32) : Vec F S512x512 .i32 :=
  View.canon [⟨rD, k0_pay4 (BitVec.ofNat 32 (i 1).val) (k0_pay8 (View.ld x0 rA) (View.ld x1 rA)) (k0_pay9 (View.ld x2 rB) (View.ld x3 rC))
    (Scalar.muli (BitVec.ofNat 32 (i 0).val) 512#32) 512#32⟩]

theorem coverVec (p0 p1 p2 : Vec F S1x512x512 .f32) (y : S3x512x512.Idx) :
    ∃ pc ∈ ([⟨rV2, p2⟩, ⟨rV1, p1⟩, ⟨rV0, p0⟩] : List (View.Piece (Elt F) S3x512x512 .f32)), y ∈ pc.1.set :=
  View.cover_of_tiled [⟨rV2, p2⟩, ⟨rV1, p1⟩, ⟨rV0, p0⟩] S1x512x512.size (by rfl) y

theorem coverD {e : EltTy} (p0 : Vec F S512x512 e) (y : S512x512.Idx) :
    ∃ pc ∈ ([⟨rD, p0⟩] : List (View.Piece (Elt F) S512x512 e)), y ∈ pc.1.set :=
  View.cover_of_tiled [⟨rD, p0⟩] S512x512.size (by rfl) y

/-! ## The body's triple -/

set_option maxHeartbeats 4000000 in
theorem sound_kernel (c : Dev nD) (E : Set ℕ) (i : grid0.Coords)
    (arg2 : Memref sig .tc .vmem S512x3 .f32) (harg2 : arg2.IsWhole) (arg3 : Memref sig .tc .vmem S512x3 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S3x512x512 .f32) (harg6 : arg6.IsWhole) (arg7 : Memref sig .tc .vmem S512x512 .f32) (harg7 : arg7.IsWhole)
    (arg8 : Memref sig .tc .vmem S512x512 .i32) (harg8 : arg8.IsWhole)
    (x0 x1 : Vec F S512x3 .f32) (x2 : Vec F S512x1 .i32) (x3 : Vec F S1x512 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outVec x0 x1) ∗ owns (c : Thread nD τ) arg7 fullShare (outDist x0 x1)
            ∗ owns (c : Thread nD τ) arg8 fullShare (outMask i x0 x1 x2 x3)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverVec _ _ _)
  isplitl [H5]
  · iexists _; isplitr
    swap; · iexact H5
    ipureintro
    exact View.read_writes_eq_canon _ _ _ (coverD _)
  iexists _; isplitr
  swap; · iexact H6
  ipureintro
  exact View.read_writes_eq_canon _ _ _ (coverD _)

end Cert.Kernel.Hand

end
-- ==== Proof.KBRegion.lean ====
/-
  The kernel region at given entry contents: each window's block at a grid point, the proof data of the pipeline
  (what every staging buffer holds after the body at each point; the positions array held half by each of its two
  input windows), and the body obligation at every point from the body's triple. Stated for any float instance.
-/
import proofs.«123107_j75376676045589_2_alg».proof.Proof.Gen.Kernel.Launch
import proofs.«123107_j75376676045589_2_alg».proof.Proof.Gen.Kernel.Skeleton
import proofs.«123107_j75376676045589_2_alg».proof.Proof.Gen.Kernel.Points
import proofs.«123107_j75376676045589_2_alg».proof.Proof.KBBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the pipeline on core c: the arrays as the region finds them; after the body each input's buffer
    at its block, each output's at the body's result on the input blocks; the positions array held half by each of
    its two windows. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outVec (iblk V c 0 t) (iblk V c 1 t)
    | ⟨5, _⟩ => outDist (iblk V c 0 t) (iblk V c 1 t)
    | ⟨6, _⟩ => outMask (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outVec (iblk V c 0 t) (iblk V c 1 t) := by dsimp only [dat0]
theorem after_5 (c : Dev nD) (t : Fin cfg0.N) : (dat0 V c).after 5 t = outDist (iblk V c 0 t) (iblk V c 1 t) := by dsimp only [dat0]
theorem after_6 (c : Dev nD) (t : Fin cfg0.N) : (dat0 V c).after 6 t = outMask (grid0.coords t) (iblk V c 0 t) (iblk V c 1 t) (iblk V c 2 t) (iblk V c 3 t) := by dsimp only [dat0]

theorem before_0 (c : Dev nD) (t : Fin cfg0.N) (d) : (dat0 V c).before 0 t d = iblk V c 0 t := before0_of V (dat0 V c) (A_eq V c 0) (after_0 V c) t d
theorem before_1 (c : Dev nD) (t : Fin cfg0.N) (d) : (dat0 V c).before 1 t d = iblk V c 1 t := before1_of V (dat0 V c) (A_eq V c 1) (after_1 V c) t d
theorem before_2 (c : Dev nD) (t : Fin cfg0.N) (d) : (dat0 V c).before 2 t d = iblk V c 2 t := before2_of V (dat0 V c) (A_eq V c 2) (after_2 V c) t d
theorem before_3 (c : Dev nD) (t : Fin cfg0.N) (d) : (dat0 V c).before 3 t d = iblk V c 3 t := before3_of V (dat0 V c) (A_eq V c 3) (after_3 V c) t d

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat0 (F := F) V c) (defs₀ (F := F)) Variants.none () Set.univ := fun t => by
  rw [bigSep_W0, bigSep_W0]
  exact sound_body V c t

end Region

end Cert.Kernel.Hand

end
-- ==== Proof.KBRun.lean ====
/-
  The run of the whole program around its one kernel region: the host lines before it, the region, the host lines
  after it. The thread state between segments is every unscoped buffer at that boundary's contents. The positions
  array feeds two input windows, so at the region's entry its ownership is split in two halves, one per window, and
  joined again at the exit; the three result arrays come back at what the write-backs leave. Stated for any float
  instance; the post names every unscoped buffer's final contents.
-/
import proofs.«123107_j75376676045589_2_alg».proof.Proof.Gen.Kernel.Launch
import proofs.«123107_j75376676045589_2_alg».proof.Proof.Gen.Kernel.Skeleton
import proofs.«123107_j75376676045589_2_alg».proof.Proof.Gen.Kernel.Points
import proofs.«123107_j75376676045589_2_alg».proof.Proof.KBRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run -/

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the three result arrays at what the write-backs leave, every other buffer as entered. -/
def W2 (c : Dev nD) : Valuation τ sig (Elt F) :=
  Function.update (Function.update (Function.update (W1 m ρ c)
    (Proc.devRef .tc main_v2_0) ((dat0 (V1 m ρ) c).arrAt 4 cfg0.N))
    (Proc.devRef .tc main_v2_1) ((dat0 (V1 m ρ) c).arrAt 5 cfg0.N))
    (Proc.devRef .tc main_v2_2) ((dat0 (V1 m ρ) c).arrAt 6 cfg0.N)
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)

theorem W2_v2_0 (c : Dev nD) : W2 m ρ c (Proc.devRef .tc main_v2_0) = (dat0 (V1 m ρ) c).arrAt 4 cfg0.N := by
  unfold W2
  rw [Function.update_of_ne (StableHlo.devRef_ne_of_ne (by decide)), Function.update_of_ne (StableHlo.devRef_ne_of_ne (by decide)), Function.update_self]
theorem W2_v2_1 (c : Dev nD) : W2 m ρ c (Proc.devRef .tc main_v2_1) = (dat0 (V1 m ρ) c).arrAt 5 cfg0.N := by
  unfold W2
  rw [Function.update_of_ne (StableHlo.devRef_ne_of_ne (by decide)), Function.update_self]
theorem W2_v2_2 (c : Dev nD) : W2 m ρ c (Proc.devRef .tc main_v2_2) = (dat0 (V1 m ρ) c).arrAt 6 cfg0.N := by
  unfold W2
  rw [Function.update_self]
theorem W2_of_ne (c : Dev nD) (b : Ref sig .tc) (h0 : b ≠ main_v2_0) (h1 : b ≠ main_v2_1) (h2 : b ≠ main_v2_2) :
    W2 m ρ c (Proc.devRef .tc b) = W1 m ρ c (Proc.devRef .tc b) := by
  unfold W2
  rw [Function.update_of_ne (StableHlo.devRef_ne_of_ne h2), Function.update_of_ne (StableHlo.devRef_ne_of_ne h1), Function.update_of_ne (StableHlo.devRef_ne_of_ne h0)]

theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans (W2_of_ne m ρ c main_arg0 (by decide) (by decide) (by decide)).symm
  | ⟨1, _⟩ => exact ((dat0 (V1 m ρ) c).arrAt_in 1 rfl _).trans (W2_of_ne m ρ c main_arg0 (by decide) (by decide) (by decide)).symm
  | ⟨2, _⟩ => exact ((dat0 (V1 m ρ) c).arrAt_in 2 rfl _).trans (W2_of_ne m ρ c main_v0 (by decide) (by decide) (by decide)).symm
  | ⟨3, _⟩ => exact ((dat0 (V1 m ρ) c).arrAt_in 3 rfl _).trans (W2_of_ne m ρ c main_v1 (by decide) (by decide) (by decide)).symm
  | ⟨4, _⟩ => exact (W2_v2_0 m ρ c).symm
  | ⟨5, _⟩ => exact (W2_v2_1 m ρ c).symm
  | ⟨6, _⟩ => exact (W2_v2_2 m ρ c).symm

theorem hrest0 (c : Dev nD) : ∀ b, b ∉ Finset.univ.image (Pipeline.arrRef spec0) → V2 m ρ c b = V1 m ρ c b := fun b hb =>
  W2_of_ne m ρ c b (fun e => hb (Finset.mem_image.mpr ⟨4, Finset.mem_univ _, e.symm⟩))
    (fun e => hb (Finset.mem_image.mpr ⟨5, Finset.mem_univ _, e.symm⟩)) (fun e => hb (Finset.mem_image.mpr ⟨6, Finset.mem_univ _, e.symm⟩))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The positions array split between its two windows, and joined again -/

theorem img_eq : Finset.univ.image (Pipeline.arrRef spec0) = [main_arg0, main_v0, main_v1, main_v2_0, main_v2_1, main_v2_2].toFinset := by decide

theorem whole_set (b : Ref sig .tc) : (View.whole b).set = Finset.univ := (Memref.isWhole_whole b).set_eq_univ

/-- The distinct buffers behind the windows' arrays, one by one. -/
theorem bigSep_img {M : Type} [URA M] (Φ : Ref sig .tc → sProp M) :
    bigSep (Finset.univ.image (Pipeline.arrRef spec0)) Φ
      = iprop(Φ main_arg0 ∗ Φ main_v0 ∗ Φ main_v1 ∗ Φ main_v2_0 ∗ Φ main_v2_1 ∗ Φ main_v2_2) :=
  BI.bigSep_eq_bigSepL_of_eq [main_arg0, main_v0, main_v1, main_v2_0, main_v2_1, main_v2_2] img_eq (by decide) Φ

set_option maxHeartbeats 4000000 in
variable (V : (c : Dev nD) → (b : Ref sig .tc) → Buf (Elt F) ((c : Thread nD τ).loc b)) in
/-- The buffers behind the arrays, each whole, against the pipeline's arrays at the same contents: the positions
    array's ownership is halved, one half per window that reads it (and the halves join again). -/
theorem arr_iff (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dat0 V c).arrays (fun w => V' (Pipeline.arrRef spec0 w)) := by
  unfold Pipeline.arrBufs Dat.arrays
  rw [bigSep_W0, bigSep_img]
  simp only [whole_set]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl, show (dat0 V c).share 5 = fullShare from rfl,
    show (dat0 V c).share 6 = fullShare from rfl]
  constructor
  · iintro ⟨Ha, Hv0, Hv1, Ho0, Ho1, Ho2⟩
    ihave Hs := (pointsTo_share (PosShare.mem_left_op_right fullShare)).1 $$ Ha
    icases Hs with ⟨Hl, Hr⟩
    isplitl [Hl]; · iexact Hl
    isplitl [Hr]; · iexact Hr
    isplitl [Hv0]; · iexact Hv0
    isplitl [Hv1]; · iexact Hv1
    isplitl [Ho0]; · iexact Ho0
    isplitl [Ho1]; · iexact Ho1
    iexact Ho2
  · iintro ⟨Hl, Hr, Hv0, Hv1, Ho0, Ho1, Ho2⟩
    isplitl [Hl Hr]
    · iapply (pointsTo_share (PosShare.mem_left_op_right fullShare)).2
      isplitl [Hl]; · iexact Hl
      iexact Hr
    isplitl [Hv0]; · iexact Hv0
    isplitl [Hv1]; · iexact Hv1
    isplitl [Ho0]; · iexact Ho0
    isplitl [Ho1]; · iexact Ho1
    iexact Ho2

/-- ENTRY: the core's unscoped buffers at the entry contents are the pipeline's arrays there and the buffers no
    window stages. -/
theorem entry_split (c : Dev nD) (Fa : (w : Fin cfg0.W) → Buf (Elt F) (((cfg0.win w).arr).view.loc (c : Thread nD τ)))
    (hFa : ∀ w, Fa w = V1 m ρ c (Pipeline.arrRef spec0 w)) :
    (unscopedBufs c (V1 m ρ c) : sProp 𝕄)
      ⊢ iprop((dat0 (V1 m ρ) c).arrays Fa ∗ Pipeline.unscopedRest spec0 c (V1 m ρ c)) := by
  obtain rfl : Fa = fun w => V1 m ρ c (Pipeline.arrRef spec0 w) := funext hFa
  rw [Pipeline.unscopedBufs_split₀ cfgs 0 winFacts₀0.arr_unscoped c (V1 m ρ c)]
  exact sep_mono (arr_iff (V1 m ρ) c (V1 m ρ c)).1 .rfl

/-- EXIT: the pipeline's arrays at the exit contents and the buffers no window stages, as entered, are the core's
    unscoped buffers at the exit contents. -/
theorem exit_join (c : Dev nD) (Fa : (w : Fin cfg0.W) → Buf (Elt F) (((cfg0.win w).arr).view.loc (c : Thread nD τ)))
    (hFa : ∀ w, Fa w = V2 m ρ c (Pipeline.arrRef spec0 w)) :
    iprop((dat0 (V1 m ρ) c).arrays Fa ∗ Pipeline.unscopedRest spec0 c (V1 m ρ c))
      ⊢ (unscopedBufs c (V2 m ρ c) : sProp 𝕄) := by
  obtain rfl : Fa = fun w => V2 m ρ c (Pipeline.arrRef spec0 w) := funext hFa
  rw [Pipeline.unscopedBufs_split₀ cfgs 0 winFacts₀0.arr_unscoped c (V2 m ρ c)]
  refine sep_mono (arr_iff (V1 m ρ) c (V2 m ρ c)).2 (Entails.of_eq ?_)
  unfold Pipeline.unscopedRest
  exact bigSep_congr fun b hb => by rw [hrest0 m ρ c b (Finset.mem_sdiff.mp hb).2]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c ((dat0 (V1 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c ((dat0 (V1 m ρ) c).arrAt · cfg0.N) (hF0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched: no host line and no write-back touches them -/

theorem keeps (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) ops W (List.forall_iff_forall_mem.mp h)

theorem hostOps0_keeps (b : Ref sig .tc) (hb : b = main_arg0 ∨ b = main_arg1) :
    (hostOps0 : List (HloOp τ sig (Elt F))).Forall fun op => Proc.devRef .tc b ∉ op.writes := by
  rcases hb with rfl | rfl <;>
  · simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_keeps (b : Ref sig .tc) (hb : b = main_arg0 ∨ b = main_arg1) :
    (hostOps1 : List (HloOp τ sig (Elt F))).Forall fun op => Proc.devRef .tc b ∉ op.writes := by
  rcases hb with rfl | rfl <;>
  · simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_1_keeps (b : Ref sig .tc) (hb : b = main_arg0 ∨ b = main_arg1) :
    (hostOps1_1 : List (HloOp τ sig (Elt F))).Forall fun op => Proc.devRef .tc b ∉ op.writes := by
  rcases hb with rfl | rfl <;>
  · simp only [hostOps1_1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_2_keeps (b : Ref sig .tc) (hb : b = main_arg0 ∨ b = main_arg1) :
    (hostOps1_2 : List (HloOp τ sig (Elt F))).Forall fun op => Proc.devRef .tc b ∉ op.writes := by
  rcases hb with rfl | rfl <;>
  · simp only [hostOps1_2, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_3_keeps (b : Ref sig .tc) (hb : b = main_arg0 ∨ b = main_arg1) :
    (hostOps1_3 : List (HloOp τ sig (Elt F))).Forall fun op => Proc.devRef .tc b ∉ op.writes := by
  rcases hb with rfl | rfl <;>
  · simp only [hostOps1_3, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
set_option maxHeartbeats 8000000 in
theorem hostOps1_4_keeps (b : Ref sig .tc) (hb : b = main_arg0 ∨ b = main_arg1) :
    (hostOps1_4 : List (HloOp τ sig (Elt F))).Forall fun op => Proc.devRef .tc b ∉ op.writes := by
  rcases hb with rfl | rfl <;>
  · simp only [hostOps1_4, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

/-- An argument array is, at the last boundary, what the launch memory holds. -/
theorem W7_arg (c : Dev nD) (b : Ref sig .tc) (hb : b = main_arg0 ∨ b = main_arg1) :
    W7 m ρ c (Proc.devRef .tc b) = m ((c : Thread nD τ).loc b) := by
  show StableHlo.after hostOps1_4 (W6 m ρ c) _ = _
  rw [keeps _ _ b (hostOps1_4_keeps b hb)]
  show StableHlo.after hostOps1_3 (W5 m ρ c) _ = _
  rw [keeps _ _ b (hostOps1_3_keeps b hb)]
  show StableHlo.after hostOps1_2 (W4 m ρ c) _ = _
  rw [keeps _ _ b (hostOps1_2_keeps b hb)]
  show StableHlo.after hostOps1_1 (W3 m ρ c) _ = _
  rw [keeps _ _ b (hostOps1_1_keeps b hb)]
  show StableHlo.after hostOps1 (W2 m ρ c) _ = _
  rw [keeps _ _ b (hostOps1_keeps b hb),
    W2_of_ne m ρ c b (by rcases hb with rfl | rfl <;> decide) (by rcases hb with rfl | rfl <;> decide) (by rcases hb with rfl | rfl <;> decide)]
  show StableHlo.after hostOps0 (W0 m ρ c) _ = _
  rw [keeps _ _ b (hostOps0_keeps b hb)]

/-- THE FRAME: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W7_arg m ρ c main_arg0 (.inl rfl)),
     (h c _ (mem_uc main_arg1 (by decide))).trans (W7_arg m ρ c main_arg1 (.inr rfl))⟩) (run_main m ρ)

end Cert.Kernel.Hand

end
-- ==== Proof.KIBody.lean ====
/-
  The pairwise kernel's body at one grid point. On whole staging buffers holding a block of positions for the
  rows, a block of positions for the columns, a column and a row of batch words, the body leaves in the three
  output buffers: the three planes of coordinate differences, the distances, and the neighbour mask as 0/1
  words; it reads nothing else and keeps nothing between points. Stated for any float instance.
-/
import proofs.«123107_j75376676045589_2_alg».proof.Proof.Gen.KernelIdeal.Launch
import proofs.«123107_j75376676045589_2_alg».proof.Proof.Gen.KernelIdeal.Skeleton
import proofs.«123107_j75376676045589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses -/

abbrev rA : Rect S512x3 := Rect.unit (s := S512x3) ![0, 0] S512x3.size inb_S512x3_S512x3_0_0
abbrev rB : Rect S512x1 := Rect.unit (s := S512x1) ![0, 0] S512x1.size inb_S512x1_S512x1_0_0
abbrev rC : Rect S1x512 := Rect.unit (s := S1x512) ![0, 0] S1x512.size inb_S1x512_S1x512_0_0
abbrev rV0 : Rect S3x512x512 := Rect.unit (s := S3x512x512) ![0, 0, 0] S1x512x512.size inb_S3x512x512_S1x512x512_0_0_0
abbrev rV1 : Rect S3x512x512 := Rect.unit (s := S3x512x512) ![1, 0, 0] S1x512x512.size inb_S3x512x512_S1x512x512_1_0_0
abbrev rV2 : Rect S3x512x512 := Rect.unit (s := S3x512x512) ![2, 0, 0] S1x512x512.size inb_S3x512x512_S1x512x512_2_0_0
abbrev rD : Rect S512x512 := Rect.unit (s := S512x512) ![0, 0] S512x512.size inb_S512x512_S512x512_0_0

/-! ## What the body leaves in each output buffer -/

/-- The difference planes: plane k holds x_i[k] - x_j[k] over the tile (the three stores, last first). -/
def outVec (x0 x1 : Vec F S512x3 .f32) : Vec F S3x512x512 .f32 :=
  View.canon [⟨rV2, k0_pay3 (k0_pay7 (View.ld x0 rA) (View.ld x1 rA))⟩,
    ⟨rV1, k0_pay2 (k0_pay6 (View.ld x0 rA) (View.ld x1 rA))⟩,
    ⟨rV0, k0_pay1 (k0_pay5 (View.ld x0 rA) (View.ld x1 rA))⟩]

/-- The distances over the tile. -/
def outDist (x0 x1 : Vec F S512x3 .f32) : Vec F S512x512 .f32 :=
  View.canon [⟨rD, k0_pay8 (View.ld x0 rA) (View.ld x1 rA)⟩]

/-- The mask words over the tile at grid coordinates i: the global row and column numbers enter through i. -/
def outMask (i : grid0.Coords) (x0 x1 : Vec F S512x3 .f32) (x2 : Vec F S512x1 .i32) (x3 : Vec F S1x512 .i32) : Vec F S512x512 .i32 :=
  View.canon [⟨rD, k0_pay4 (BitVec.ofNat 32 (i 1).val) (k0_pay8 (View.ld x0 rA) (View.ld x1 rA)) (k0_pay9 (View.ld x2 rB) (View.ld x3 rC))
    (Scalar.muli (BitVec.ofNat 32 (i 0).val) 512#32) 512#32⟩]

theorem coverVec (p0 p1 p2 : Vec F S1x512x512 .f32) (y : S3x512x512.Idx) :
    ∃ pc ∈ ([⟨rV2, p2⟩, ⟨rV1, p1⟩, ⟨rV0, p0⟩] : List (View.Piece (Elt F) S3x512x512 .f32)), y ∈ pc.1.set :=
  View.cover_of_tiled [⟨rV2, p2⟩, ⟨rV1, p1⟩, ⟨rV0, p0⟩] S1x512x512.size (by rfl) y

theorem coverD {e : EltTy} (p0 : Vec F S512x512 e) (y : S512x512.Idx) :
    ∃ pc ∈ ([⟨rD, p0⟩] : List (View.Piece (Elt F) S512x512 e)), y ∈ pc.1.set :=
  View.cover_of_tiled [⟨rD, p0⟩] S512x512.size (by rfl) y

/-! ## The body's triple -/

set_option maxHeartbeats 4000000 in
theorem sound_kernel (c : Dev nD) (E : Set ℕ) (i : grid0.Coords)
    (arg2 : Memref sig .tc .vmem S512x3 .f32) (harg2 : arg2.IsWhole) (arg3 : Memref sig .tc .vmem S512x3 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S3x512x512 .f32) (harg6 : arg6.IsWhole) (arg7 : Memref sig .tc .vmem S512x512 .f32) (harg7 : arg7.IsWhole)
    (arg8 : Memref sig .tc .vmem S512x512 .i32) (harg8 : arg8.IsWhole)
    (x0 x1 : Vec F S512x3 .f32) (x2 : Vec F S512x1 .i32) (x3 : Vec F S1x512 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outVec x0 x1) ∗ owns (c : Thread nD τ) arg7 fullShare (outDist x0 x1)
            ∗ owns (c : Thread nD τ) arg8 fullShare (outMask i x0 x1 x2 x3)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverVec _ _ _)
  isplitl [H5]
  · iexists _; isplitr
    swap; · iexact H5
    ipureintro
    exact View.read_writes_eq_canon _ _ _ (coverD _)
  iexists _; isplitr
  swap; · iexact H6
  ipureintro
  exact View.read_writes_eq_canon _ _ _ (coverD _)

end Cert.KernelIdeal.Hand

end
-- ==== Proof.KIRegion.lean ====
/-
  The kernel region at given entry contents: each window's block at a grid point, the proof data of the pipeline
  (what every staging buffer holds after the body at each point; the positions array held half by each of its two
  input windows), and the body obligation at every point from the body's triple. Stated for any float instance.
-/
import proofs.«123107_j75376676045589_2_alg».proof.Proof.Gen.KernelIdeal.Launch
import proofs.«123107_j75376676045589_2_alg».proof.Proof.Gen.KernelIdeal.Skeleton
import proofs.«123107_j75376676045589_2_alg».proof.Proof.Gen.KernelIdeal.Points
import proofs.«123107_j75376676045589_2_alg».proof.Proof.KIBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the pipeline on core c: the arrays as the region finds them; after the body each input's buffer
    at its block, each output's at the body's result on the input blocks; the positions array held half by each of
    its two windows. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outVec (iblk V c 0 t) (iblk V c 1 t)
    | ⟨5, _⟩ => outDist (iblk V c 0 t) (iblk V c 1 t)
    | ⟨6, _⟩ => outMask (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outVec (iblk V c 0 t) (iblk V c 1 t) := by dsimp only [dat0]
theorem after_5 (c : Dev nD) (t : Fin cfg0.N) : (dat0 V c).after 5 t = outDist (iblk V c 0 t) (iblk V c 1 t) := by dsimp only [dat0]
theorem after_6 (c : Dev nD) (t : Fin cfg0.N) : (dat0 V c).after 6 t = outMask (grid0.coords t) (iblk V c 0 t) (iblk V c 1 t) (iblk V c 2 t) (iblk V c 3 t) := by dsimp only [dat0]

theorem before_0 (c : Dev nD) (t : Fin cfg0.N) (d) : (dat0 V c).before 0 t d = iblk V c 0 t := before0_of V (dat0 V c) (A_eq V c 0) (after_0 V c) t d
theorem before_1 (c : Dev nD) (t : Fin cfg0.N) (d) : (dat0 V c).before 1 t d = iblk V c 1 t := before1_of V (dat0 V c) (A_eq V c 1) (after_1 V c) t d
theorem before_2 (c : Dev nD) (t : Fin cfg0.N) (d) : (dat0 V c).before 2 t d = iblk V c 2 t := before2_of V (dat0 V c) (A_eq V c 2) (after_2 V c) t d
theorem before_3 (c : Dev nD) (t : Fin cfg0.N) (d) : (dat0 V c).before 3 t d = iblk V c 3 t := before3_of V (dat0 V c) (A_eq V c 3) (after_3 V c) t d

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat0 (F := F) V c) (defs₀ (F := F)) Variants.none () Set.univ := fun t => by
  rw [bigSep_W0, bigSep_W0]
  exact sound_body V c t

end Region

end Cert.KernelIdeal.Hand

end
-- ==== Proof.KIRun.lean ====
/-
  The run of the whole program around its one kernel region: the host lines before it, the region, the host lines
  after it. The thread state between segments is every unscoped buffer at that boundary's contents. The positions
  array feeds two input windows, so at the region's entry its ownership is split in two halves, one per window, and
  joined again at the exit; the three result arrays come back at what the write-backs leave. Stated for any float
  instance; the post names every unscoped buffer's final contents.
-/
import proofs.«123107_j75376676045589_2_alg».proof.Proof.Gen.KernelIdeal.Launch
import proofs.«123107_j75376676045589_2_alg».proof.Proof.Gen.KernelIdeal.Skeleton
import proofs.«123107_j75376676045589_2_alg».proof.Proof.Gen.KernelIdeal.Points
import proofs.«123107_j75376676045589_2_alg».proof.Proof.KIRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run -/

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the three result arrays at what the write-backs leave, every other buffer as entered. -/
def W2 (c : Dev nD) : Valuation τ sig (Elt F) :=
  Function.update (Function.update (Function.update (W1 m ρ c)
    (Proc.devRef .tc main_v2_0) ((dat0 (V1 m ρ) c).arrAt 4 cfg0.N))
    (Proc.devRef .tc main_v2_1) ((dat0 (V1 m ρ) c).arrAt 5 cfg0.N))
    (Proc.devRef .tc main_v2_2) ((dat0 (V1 m ρ) c).arrAt 6 cfg0.N)
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)

theorem W2_v2_0 (c : Dev nD) : W2 m ρ c (Proc.devRef .tc main_v2_0) = (dat0 (V1 m ρ) c).arrAt 4 cfg0.N := by
  unfold W2
  rw [Function.update_of_ne (StableHlo.devRef_ne_of_ne (by decide)), Function.update_of_ne (StableHlo.devRef_ne_of_ne (by decide)), Function.update_self]
theorem W2_v2_1 (c : Dev nD) : W2 m ρ c (Proc.devRef .tc main_v2_1) = (dat0 (V1 m ρ) c).arrAt 5 cfg0.N := by
  unfold W2
  rw [Function.update_of_ne (StableHlo.devRef_ne_of_ne (by decide)), Function.update_self]
theorem W2_v2_2 (c : Dev nD) : W2 m ρ c (Proc.devRef .tc main_v2_2) = (dat0 (V1 m ρ) c).arrAt 6 cfg0.N := by
  unfold W2
  rw [Function.update_self]
theorem W2_of_ne (c : Dev nD) (b : Ref sig .tc) (h0 : b ≠ main_v2_0) (h1 : b ≠ main_v2_1) (h2 : b ≠ main_v2_2) :
    W2 m ρ c (Proc.devRef .tc b) = W1 m ρ c (Proc.devRef .tc b) := by
  unfold W2
  rw [Function.update_of_ne (StableHlo.devRef_ne_of_ne h2), Function.update_of_ne (StableHlo.devRef_ne_of_ne h1), Function.update_of_ne (StableHlo.devRef_ne_of_ne h0)]

theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans (W2_of_ne m ρ c main_arg0 (by decide) (by decide) (by decide)).symm
  | ⟨1, _⟩ => exact ((dat0 (V1 m ρ) c).arrAt_in 1 rfl _).trans (W2_of_ne m ρ c main_arg0 (by decide) (by decide) (by decide)).symm
  | ⟨2, _⟩ => exact ((dat0 (V1 m ρ) c).arrAt_in 2 rfl _).trans (W2_of_ne m ρ c main_v0 (by decide) (by decide) (by decide)).symm
  | ⟨3, _⟩ => exact ((dat0 (V1 m ρ) c).arrAt_in 3 rfl _).trans (W2_of_ne m ρ c main_v1 (by decide) (by decide) (by decide)).symm
  | ⟨4, _⟩ => exact (W2_v2_0 m ρ c).symm
  | ⟨5, _⟩ => exact (W2_v2_1 m ρ c).symm
  | ⟨6, _⟩ => exact (W2_v2_2 m ρ c).symm

theorem hrest0 (c : Dev nD) : ∀ b, b ∉ Finset.univ.image (Pipeline.arrRef spec0) → V2 m ρ c b = V1 m ρ c b := fun b hb =>
  W2_of_ne m ρ c b (fun e => hb (Finset.mem_image.mpr ⟨4, Finset.mem_univ _, e.symm⟩))
    (fun e => hb (Finset.mem_image.mpr ⟨5, Finset.mem_univ _, e.symm⟩)) (fun e => hb (Finset.mem_image.mpr ⟨6, Finset.mem_univ _, e.symm⟩))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The positions array split between its two windows, and joined again -/

theorem img_eq : Finset.univ.image (Pipeline.arrRef spec0) = [main_arg0, main_v0, main_v1, main_v2_0, main_v2_1, main_v2_2].toFinset := by decide

theorem whole_set (b : Ref sig .tc) : (View.whole b).set = Finset.univ := (Memref.isWhole_whole b).set_eq_univ

/-- The distinct buffers behind the windows' arrays, one by one. -/
theorem bigSep_img {M : Type} [URA M] (Φ : Ref sig .tc → sProp M) :
    bigSep (Finset.univ.image (Pipeline.arrRef spec0)) Φ
      = iprop(Φ main_arg0 ∗ Φ main_v0 ∗ Φ main_v1 ∗ Φ main_v2_0 ∗ Φ main_v2_1 ∗ Φ main_v2_2) :=
  BI.bigSep_eq_bigSepL_of_eq [main_arg0, main_v0, main_v1, main_v2_0, main_v2_1, main_v2_2] img_eq (by decide) Φ

set_option maxHeartbeats 4000000 in
variable (V : (c : Dev nD) → (b : Ref sig .tc) → Buf (Elt F) ((c : Thread nD τ).loc b)) in
/-- The buffers behind the arrays, each whole, against the pipeline's arrays at the same contents: the positions
    array's ownership is halved, one half per window that reads it (and the halves join again). -/
theorem arr_iff (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dat0 V c).arrays (fun w => V' (Pipeline.arrRef spec0 w)) := by
  unfold Pipeline.arrBufs Dat.arrays
  rw [bigSep_W0, bigSep_img]
  simp only [whole_set]
  rw [show (dat0 V c).share 0 = fullShare.left from rfl, show (dat0 V c).share 1 = fullShare.right from rfl,
    show (dat0 V c).share 2 = fullShare from rfl, show (dat0 V c).share 3 = fullShare from rfl,
    show (dat0 V c).share 4 = fullShare from rfl, show (dat0 V c).share 5 = fullShare from rfl,
    show (dat0 V c).share 6 = fullShare from rfl]
  constructor
  · iintro ⟨Ha, Hv0, Hv1, Ho0, Ho1, Ho2⟩
    ihave Hs := (pointsTo_share (PosShare.mem_left_op_right fullShare)).1 $$ Ha
    icases Hs with ⟨Hl, Hr⟩
    isplitl [Hl]; · iexact Hl
    isplitl [Hr]; · iexact Hr
    isplitl [Hv0]; · iexact Hv0
    isplitl [Hv1]; · iexact Hv1
    isplitl [Ho0]; · iexact Ho0
    isplitl [Ho1]; · iexact Ho1
    iexact Ho2
  · iintro ⟨Hl, Hr, Hv0, Hv1, Ho0, Ho1, Ho2⟩
    isplitl [Hl Hr]
    · iapply (pointsTo_share (PosShare.mem_left_op_right fullShare)).2
      isplitl [Hl]; · iexact Hl
      iexact Hr
    isplitl [Hv0]; · iexact Hv0
    isplitl [Hv1]; · iexact Hv1
    isplitl [Ho0]; · iexact Ho0
    isplitl [Ho1]; · iexact Ho1
    iexact Ho2

/-- ENTRY: the core's unscoped buffers at the entry contents are the pipeline's arrays there and the buffers no
    window stages. -/
theorem entry_split (c : Dev nD) (Fa : (w : Fin cfg0.W) → Buf (Elt F) (((cfg0.win w).arr).view.loc (c : Thread nD τ)))
    (hFa : ∀ w, Fa w = V1 m ρ c (Pipeline.arrRef spec0 w)) :
    (unscopedBufs c (V1 m ρ c) : sProp 𝕄)
      ⊢ iprop((dat0 (V1 m ρ) c).arrays Fa ∗ Pipeline.unscopedRest spec0 c (V1 m ρ c)) := by
  obtain rfl : Fa = fun w => V1 m ρ c (Pipeline.arrRef spec0 w) := funext hFa
  rw [Pipeline.unscopedBufs_split₀ cfgs 0 winFacts₀0.arr_unscoped c (V1 m ρ c)]
  exact sep_mono (arr_iff (V1 m ρ) c (V1 m ρ c)).1 .rfl

/-- EXIT: the pipeline's arrays at the exit contents and the buffers no window stages, as entered, are the core's
    unscoped buffers at the exit contents. -/
theorem exit_join (c : Dev nD) (Fa : (w : Fin cfg0.W) → Buf (Elt F) (((cfg0.win w).arr).view.loc (c : Thread nD τ)))
    (hFa : ∀ w, Fa w = V2 m ρ c (Pipeline.arrRef spec0 w)) :
    iprop((dat0 (V1 m ρ) c).arrays Fa ∗ Pipeline.unscopedRest spec0 c (V1 m ρ c))
      ⊢ (unscopedBufs c (V2 m ρ c) : sProp 𝕄) := by
  obtain rfl : Fa = fun w => V2 m ρ c (Pipeline.arrRef spec0 w) := funext hFa
  rw [Pipeline.unscopedBufs_split₀ cfgs 0 winFacts₀0.arr_unscoped c (V2 m ρ c)]
  refine sep_mono (arr_iff (V1 m ρ) c (V2 m ρ c)).2 (Entails.of_eq ?_)
  unfold Pipeline.unscopedRest
  exact bigSep_congr fun b hb => by rw [hrest0 m ρ c b (Finset.mem_sdiff.mp hb).2]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c ((dat0 (V1 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c ((dat0 (V1 m ρ) c).arrAt · cfg0.N) (hF0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched: no host line and no write-back touches them -/

theorem keeps (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) ops W (List.forall_iff_forall_mem.mp h)

theorem hostOps0_keeps (b : Ref sig .tc) (hb : b = main_arg0 ∨ b = main_arg1) :
    (hostOps0 : List (HloOp τ sig (Elt F))).Forall fun op => Proc.devRef .tc b ∉ op.writes := by
  rcases hb with rfl | rfl <;>
  · simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_keeps (b : Ref sig .tc) (hb : b = main_arg0 ∨ b = main_arg1) :
    (hostOps1 : List (HloOp τ sig (Elt F))).Forall fun op => Proc.devRef .tc b ∉ op.writes := by
  rcases hb with rfl | rfl <;>
  · simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_1_keeps (b : Ref sig .tc) (hb : b = main_arg0 ∨ b = main_arg1) :
    (hostOps1_1 : List (HloOp τ sig (Elt F))).Forall fun op => Proc.devRef .tc b ∉ op.writes := by
  rcases hb with rfl | rfl <;>
  · simp only [hostOps1_1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_2_keeps (b : Ref sig .tc) (hb : b = main_arg0 ∨ b = main_arg1) :
    (hostOps1_2 : List (HloOp τ sig (Elt F))).Forall fun op => Proc.devRef .tc b ∉ op.writes := by
  rcases hb with rfl | rfl <;>
  · simp only [hostOps1_2, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
theorem hostOps1_3_keeps (b : Ref sig .tc) (hb : b = main_arg0 ∨ b = main_arg1) :
    (hostOps1_3 : List (HloOp τ sig (Elt F))).Forall fun op => Proc.devRef .tc b ∉ op.writes := by
  rcases hb with rfl | rfl <;>
  · simp only [hostOps1_3, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
set_option maxHeartbeats 8000000 in
theorem hostOps1_4_keeps (b : Ref sig .tc) (hb : b = main_arg0 ∨ b = main_arg1) :
    (hostOps1_4 : List (HloOp τ sig (Elt F))).Forall fun op => Proc.devRef .tc b ∉ op.writes := by
  rcases hb with rfl | rfl <;>
  · simp only [hostOps1_4, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

/-- An argument array is, at the last boundary, what the launch memory holds. -/
theorem W7_arg (c : Dev nD) (b : Ref sig .tc) (hb : b = main_arg0 ∨ b = main_arg1) :
    W7 m ρ c (Proc.devRef .tc b) = m ((c : Thread nD τ).loc b) := by
  show StableHlo.after hostOps1_4 (W6 m ρ c) _ = _
  rw [keeps _ _ b (hostOps1_4_keeps b hb)]
  show StableHlo.after hostOps1_3 (W5 m ρ c) _ = _
  rw [keeps _ _ b (hostOps1_3_keeps b hb)]
  show StableHlo.after hostOps1_2 (W4 m ρ c) _ = _
  rw [keeps _ _ b (hostOps1_2_keeps b hb)]
  show StableHlo.after hostOps1_1 (W3 m ρ c) _ = _
  rw [keeps _ _ b (hostOps1_1_keeps b hb)]
  show StableHlo.after hostOps1 (W2 m ρ c) _ = _
  rw [keeps _ _ b (hostOps1_keeps b hb),
    W2_of_ne m ρ c b (by rcases hb with rfl | rfl <;> decide) (by rcases hb with rfl | rfl <;> decide) (by rcases hb with rfl | rfl <;> decide)]
  show StableHlo.after hostOps0 (W0 m ρ c) _ = _
  rw [keeps _ _ b (hostOps0_keeps b hb)]

/-- THE FRAME: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W7_arg m ρ c main_arg0 (.inl rfl)),
     (h c _ (mem_uc main_arg1 (by decide))).trans (W7_arg m ρ c main_arg1 (.inr rfl))⟩) (run_main m ρ)

end Cert.KernelIdeal.Hand

end
-- ==== Proof.Spec.lean ====
/-
  The pairwise-geometry specification both programs are read against: for positions
  `x : [4096, 3]` (extended reals) and batch words `b : [4096]`, the displacement
  `x[i, c] - x[j, c]`, the squared distance `(dx*dx + dy*dy) + dz*dz`, the guarded
  square root `select (d2 > 0) (sqrt (select (d2 > 0) d2 1)) 0`, and the neighbour
  bit `(b[i] = b[j]) & (i ≠ j) & (dist ≥ 0) & (dist < 5)`. Everything is a scalar
  expression in the operations the ideal float instance gives an element.
-/
import Idealize.ShloMosaic.PureOps.Ideal
import Idealize.ShloMosaic.Lib.ValueIdx

noncomputable section

namespace Cert.Hand.Spec

open Idealize.ShloMosaic Idealize.ShloMosaic.ValueIdx

/-- The positions: a `[4096, 3]` array of extended reals. -/
abbrev XArr : Type := (⟨2, ![4096, 3]⟩ : Shape).Idx → EReal
/-- The batch ids: a `[4096]` array of 32-bit words. -/
abbrev BArr : Type := (⟨1, ![4096]⟩ : Shape).Idx → BitVec 32

/-- Component `c` of the displacement from point `j` to point `i`. -/
def vecS (x : XArr) (c : Fin 3) (i j : Fin 4096) : EReal := x (ix2 i c) - x (ix2 j c)

/-- The squared distance, associated as `(dx*dx + dy*dy) + dz*dz`. -/
def d2S (x : XArr) (i j : Fin 4096) : EReal :=
  (vecS x 0 i j * vecS x 0 i j + vecS x 1 i j * vecS x 1 i j) + vecS x 2 i j * vecS x 2 i j

/-- The bit "the squared distance is above zero". -/
def posS (x : XArr) (i j : Fin 4096) : BitVec 1 := Ideal.cmp .ogt (d2S x i j) (Ideal.ofBits .f32 0x00000000#32)

/-- The distance: the square root where the squared distance is above zero (taken of `1`
    elsewhere, and then discarded), `0` elsewhere. -/
def distS (x : XArr) (i j : Fin 4096) : EReal :=
  Scalar.select (posS x i j)
    (Ideal.sqrt (Scalar.select (posS x i j) (d2S x i j) (Ideal.ofBits .f32 0x3F800000#32)))
    (Ideal.ofBits .f32 0x00000000#32)

/-- The bit "the two points are different points". -/
def neS (i j : Fin 4096) : BitVec 1 := BitVec.ofBool (decide (i ≠ j))

/-- The neighbour bit: same batch, different points, and the distance in `[0, 5)`. -/
def maskS (x : XArr) (b : BArr) (i j : Fin 4096) : BitVec 1 :=
  IntOp.andi
    (IntOp.andi
      (IntOp.andi (IntOp.cmpi .eq (b (ix1 i)) (b (ix1 j))) (neS i j))
      (Ideal.cmp .oge (distS x i j) (Ideal.ofBits .f32 0x00000000#32)))
    (Ideal.cmp .olt (distS x i j) (Ideal.ofBits .f32 0x40A00000#32))

end Cert.Hand.Spec

end
-- ==== Proof.KPay.lean ====
/-
  The kernel body's arithmetic at one element of a tile. Grid point `(bi, bj)` handles rows
  `bi * 512 …` and columns `bj * 512 …` of the pairwise arrays: its two position blocks are rows of
  the positions `x`, its batch column and batch row are entries of the batch ids `b`. Under those
  four hypotheses, each value the body stores is, at tile element `(p, q)`, the specification
  (`Spec.lean`) at the global pair `(bi * 512 + p, bj * 512 + q)`: the three displacement planes
  (`pay1_at`, `pay2_at`, `pay3_at`), the distance (`pay8_at`) and the neighbour bit widened to a
  32-bit word (`pay4_at`). The index is pushed through the pointwise operations by their
  definitional read lemmas and through the slices, shape casts and broadcasts by the layout read
  lemmas; the two coordinate words `offset + iota` do not wrap because a global coordinate is
  below `4096`, so they differ exactly when the coordinates do.
-/
import proofs.«123107_j75376676045589_2_alg».proof.Proof.Spec
import proofs.«123107_j75376676045589_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.Hand.Spec

/-- Row (or column) `r` of block `k` as a row (or column) of the whole array. -/
abbrev gidx (k : Fin 8) (r : Fin 512) : Fin 4096 := ⟨k.val * 512 + r.val, by omega⟩

/-! ## Column forms of the layout operations, read at an index -/

section Layout
variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column cast to `[a]` reads, at `i`, the column at row `i`. -/
theorem shapeCast_a1_a_apply {a : ℕ} (v : (⟨2, ![a, 1]⟩ : Shape).Idx → α)
    (h : (⟨2, ![a, 1]⟩ : Shape).ShapeCasts ⟨1, ![a]⟩) (i : Fin a) :
    shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Layout

/-! ## One displacement component of a tile -/

/-- Column `c` of the row block against column `c` of the column block: the column of the first
    broadcast along the rows minus the column of the second, turned into a row and broadcast along
    the columns, is at `(p, q)` the difference of the two blocks' entries. -/
theorem diff_at (o : ℕ) (c : Fin 3) (hc : c.val = o) (v0 v1 : Vec Ideal S512x3 .f32)
    (hs : S512x3.Slices ![0, o] S512x1) (h1 : S512x1.ShapeCasts S512) (h2 : S512.ShapeCasts S1x512)
    (hb1 : S512x1.Broadcasts S512x512) (hb2 : S1x512.Broadcasts S512x512) (p q : Fin 512) :
    subf (F := Ideal) (φ := .f32) (broadcastTo S512x512 (extractStridedSlice S512x1 ![0, o] v0 hs) hb1)
        (broadcastTo S512x512 (shapeCast S1x512 (shapeCast S512 (extractStridedSlice S512x1 ![0, o] v1 hs) h1) h2) hb2)
        (ix2 p q)
      = v0 (ix2 p c) - v1 (ix2 q c) := by
  rw [subf_apply]
  have e0 : broadcastTo S512x512 (extractStridedSlice S512x1 ![0, o] v0 hs) hb1 (ix2 p q) = v0 (ix2 p c) :=
    (broadcastTo_a1_ab_apply _ hb1 p q).trans
      (slice2_axis1_apply o v0 hs p (0 : Fin 1) c (by rw [hc]; rfl))
  have e1 : broadcastTo S512x512 (shapeCast S1x512 (shapeCast S512 (extractStridedSlice S512x1 ![0, o] v1 hs) h1) h2) hb2
      (ix2 p q) = v1 (ix2 q c) :=
    (broadcastTo_1b_ab_apply _ hb2 p q).trans
      ((shapeCast_a_1a_apply _ h2 (0 : Fin 1) q).trans
        ((shapeCast_a1_a_apply _ h1 q).trans
          (slice2_axis1_apply o v1 hs q (0 : Fin 1) c (by rw [hc]; rfl))))
  rw [e0, e1]

variable (x : XArr) (b : BArr) (bi bj : Fin 8)
  (v0 v1 : Vec Ideal S512x3 .f32) (v35 : Vec Ideal S512x1 .i32) (v39 : Vec Ideal S1x512 .i32)

/-- The first displacement component of a tile at `(p, q)`. -/
theorem pay5_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay5 v0 v1 (ix2 p q) = vecS x 0 (gidx bi p) (gidx bj q) := by
  unfold Gen.k0_pay5 vecS
  refine (diff_at 0 0 rfl v0 v1 _ _ _ _ _ p q).trans ?_
  rw [h0, h1]

/-- The second displacement component of a tile at `(p, q)`. -/
theorem pay6_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay6 v0 v1 (ix2 p q) = vecS x 1 (gidx bi p) (gidx bj q) := by
  unfold Gen.k0_pay6 vecS
  refine (diff_at 1 1 rfl v0 v1 _ _ _ _ _ p q).trans ?_
  rw [h0, h1]

/-- The third displacement component of a tile at `(p, q)`. -/
theorem pay7_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay7 v0 v1 (ix2 p q) = vecS x 2 (gidx bi p) (gidx bj q) := by
  unfold Gen.k0_pay7 vecS
  refine (diff_at 2 2 rfl v0 v1 _ _ _ _ _ p q).trans ?_
  rw [h0, h1]

/-- The first stored plane: the first component under a leading unit axis. -/
theorem pay1_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay1 (Gen.k0_pay5 v0 v1) (ix3 (0 : Fin 1) p q) = vecS x 0 (gidx bi p) (gidx bj q) := by
  unfold Gen.k0_pay1
  exact (shapeCast_ab_1ab_apply _ _ (0 : Fin 1) p q).trans (pay5_at x bi bj v0 v1 h0 h1 p q)

/-- The second stored plane. -/
theorem pay2_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay2 (Gen.k0_pay6 v0 v1) (ix3 (0 : Fin 1) p q) = vecS x 1 (gidx bi p) (gidx bj q) := by
  unfold Gen.k0_pay2
  exact (shapeCast_ab_1ab_apply _ _ (0 : Fin 1) p q).trans (pay6_at x bi bj v0 v1 h0 h1 p q)

/-- The third stored plane. -/
theorem pay3_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay3 (Gen.k0_pay7 v0 v1) (ix3 (0 : Fin 1) p q) = vecS x 2 (gidx bi p) (gidx bj q) := by
  unfold Gen.k0_pay3
  exact (shapeCast_ab_1ab_apply _ _ (0 : Fin 1) p q).trans (pay7_at x bi bj v0 v1 h0 h1 p q)

/-! ## The distance of a tile -/

/-- A square root at an index takes the root of the element. -/
theorem sqrt_at {s : Shape} {φ : FTy} (a : FVec Ideal s φ) (i : s.Idx) :
    Idealize.ShloMosaic.sqrt a i = Ideal.sqrt (a i) := rfl

/-- The distance of a tile at `(p, q)` is the specification's distance of the global pair. -/
theorem pay8_at
    (h0 : ∀ (r : Fin 512) (c : Fin 3), v0 (ix2 r c) = x (ix2 (gidx bi r) c))
    (h1 : ∀ (r : Fin 512) (c : Fin 3), v1 (ix2 r c) = x (ix2 (gidx bj r) c)) (p q : Fin 512) :
    Gen.k0_pay8 v0 v1 (ix2 p q) = distS x (gidx bi p) (gidx bj q) := by
  have e5 := pay5_at x bi bj v0 v1 h0 h1 p q
  have e6 := pay6_at x bi bj v0 v1 h0 h1 p q
  have e7 := pay7_at x bi bj v0 v1 h0 h1 p q
  unfold Gen.k0_pay8 distS posS d2S
  simp only [select_apply, cmpf_apply, broadcast_apply, sqrt_at, addf_apply, mulf_apply, e5, e6, e7]
  rfl

/-! ## The neighbour bit of a tile -/

section Words

/-- An integer sum, conjunction and comparison at an index act on the elements. -/
theorem addi_at {s : Shape} {w : ℕ} (a c : IVec s w) (i : s.Idx) : addi a c i = IntOp.addi (a i) (c i) := rfl
theorem andi_at {s : Shape} {w : ℕ} (a c : IVec s w) (i : s.Idx) : andi a c i = IntOp.andi (a i) (c i) := rfl
theorem cmpi_at {s : Shape} {w : ℕ} (pr : CmpIPredicate) (a c : IVec s w) (i : s.Idx) :
    cmpi pr a c i = IntOp.cmpi pr (a i) (c i) := rfl

/-- The offset word of block `k` plus the coordinate word `r` is the word of the global coordinate:
    `k * 512 + r` is below `4096`, so nothing wraps. -/
theorem word_eq (k : Fin 8) (r : Fin 512) :
    IntOp.addi (Scalar.muli (BitVec.ofNat 32 k.val) 512#32) (BitVec.ofNat 32 r.val)
      = BitVec.ofNat 32 (gidx k r).val := by
  apply BitVec.eq_of_toNat_eq
  have hk := k.isLt
  have hr := r.isLt
  simp only [IntOp.addi, Scalar.muli, IntOp.muli, BitVec.toNat_add, BitVec.toNat_mul, BitVec.toNat_ofNat]
  omega

/-- Two global coordinates differ exactly when their words differ. -/
theorem ne_word (bi bj : Fin 8) (p q : Fin 512) :
    IntOp.cmpi .ne (IntOp.addi (Scalar.muli (BitVec.ofNat 32 bi.val) 512#32) (BitVec.ofNat 32 p.val))
        (IntOp.addi (Scalar.muli (BitVec.ofNat 32 bj.val) 512#32) (BitVec.ofNat 32 q.val))
      = neS (gidx bi p) (gidx bj q) := by
  rw [word_eq, word_eq]
  unfold neS IntOp.cmpi
  refine congrArg BitVec.ofBool ?_
  have hI := (gidx bi p).isLt
  have hJ := (gidx bj q).isLt
  by_cases h : gidx bi p = gidx bj q
  · rw [h]; simp
  · have hv : (gidx bi p).val ≠ (gidx bj q).val := fun e => h (Fin.ext e)
    have hw : BitVec.ofNat 32 (gidx bi p).val ≠ BitVec.ofNat 32 (gidx bj q).val := by
      intro e
      have e' := congrArg BitVec.toNat e
      simp only [BitVec.toNat_ofNat] at e'
      have hv' : bi.val * 512 + p.val ≠ bj.val * 512 + q.val := hv
      have hI' : bi.val * 512 + p.val < 4096 := hI
      have hJ' : bj.val * 512 + q.val < 4096 := hJ
      have e'' : (bi.val * 512 + p.val) % 2 ^ 32 = (bj.val * 512 + q.val) % 2 ^ 32 := e'
      omega
    simp [h, hw]

end Words

/-- The batch comparison of a tile at `(p, q)` compares the row block's entry `p` with the column
    block's entry `q`. -/
theorem pay9_at (p q : Fin 512) :
    Gen.k0_pay9 (F := Ideal) v35 v39 (ix2 p q)
      = IntOp.cmpi .eq (v35 (ix2 p (0 : Fin 1))) (v39 (ix2 (0 : Fin 1) q)) := by
  unfold Gen.k0_pay9
  rw [cmpi_at]
  refine congrArg₂ (IntOp.cmpi .eq) ?_ ?_
  · refine (broadcastTo_a1_ab_apply _ _ p q).trans ?_
    rw [shapeCast_self, shapeCast_self]
  · refine (broadcastTo_1b_ab_apply _ _ p q).trans ?_
    rw [shapeCast_self, shapeCast_self]

/-- The stored mask word of a tile at `(p, q)` is the specification's neighbour bit of the global pair,
    zero-extended to 32 bits. -/
theorem pay4_at
    (h0 : ∀ (r : Fin 512) (c : Fin 3), v0 (ix2 r c) = x (ix2 (gidx bi r) c))
    (h1 : ∀ (r : Fin 512) (c : Fin 3), v1 (ix2 r c) = x (ix2 (gidx bj r) c))
    (h35 : ∀ r : Fin 512, v35 (ix2 r (0 : Fin 1)) = b (ix1 (gidx bi r)))
    (h39 : ∀ r : Fin 512, v39 (ix2 (0 : Fin 1) r) = b (ix1 (gidx bj r))) (p q : Fin 512) :
    Gen.k0_pay4 (F := Ideal) (BitVec.ofNat 32 bj.val) (Gen.k0_pay8 v0 v1) (Gen.k0_pay9 (F := Ideal) v35 v39)
        (Scalar.muli (BitVec.ofNat 32 bi.val) 512#32) 512#32 (ix2 p q)
      = (maskS x b (gidx bi p) (gidx bj q)).setWidth 32 := by
  have e8 := pay8_at x bi bj v0 v1 h0 h1 p q
  have e9 : Gen.k0_pay9 (F := Ideal) v35 v39 (ix2 p q)
      = IntOp.cmpi .eq (b (ix1 (gidx bi p))) (b (ix1 (gidx bj q))) := by
    rw [pay9_at, h35, h39]
  have en := ne_word bi bj p q
  have i0 : iota .tc S512x512 32 [0] Gen.iota_S512x512_d0_w32 (ix2 p q) = BitVec.ofNat 32 p.val :=
    iota_single_apply .tc S512x512 32 0 _ (ix2 p q)
  have i1 : iota .tc S512x512 32 [1] Gen.iota_S512x512_d1_w32 (ix2 p q) = BitVec.ofNat 32 q.val :=
    iota_single_apply .tc S512x512 32 1 _ (ix2 p q)
  unfold Gen.k0_pay4 maskS
  simp only [extui_apply, andi_at, cmpi_at, addi_at, cmpf_apply, broadcast_apply, i0, i1, e8, e9, en]
  rfl

end Cert.KernelIdeal.Hand

end
-- ==== Proof.KIValue.lean ====
/-
  From the per-point blocks to the three whole pairwise arrays, at the ideal float values. The
  body's three output buffers at a tile element are the specification (`Spec.lean`) at the global
  pair (`outVec_at`, `outDist_at`, `outMask_at`, from the payload lemmas); the printed index maps,
  decided over the 8 × 8 grid, put each input block at rows `tile * 512 …` of its array and each output
  block at tile `(tileRow, tileCol)`; so what each point writes back is its block of ONE function of
  the array index, every index lies in the block of the point of its tile, and the arrays after the
  run are those functions: `final4`, `final5`, `final6`.
-/
import proofs.«123107_j75376676045589_2_alg».proof.Proof.KIRegion
import proofs.«123107_j75376676045589_2_alg».proof.Proof.KIBody
import proofs.«123107_j75376676045589_2_alg».proof.Proof.KPay
import proofs.«123107_j75376676045589_2_alg».proof.Proof.Spec
import Idealize.ShloMosaic.Lib.Pipeline.Value

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand Cert.Hand.Spec

theorem hz2 : (![0, 0] : Fin 2 → Nat) = fun _ => 0 := funext fun a => by fin_cases a <;> rfl

/-! ## What the body leaves in each output buffer, at an element -/

section PerPoint
variable (x : XArr) (b : BArr) (bi bj : Fin 8)
  (x0 x1 : Vec Ideal S512x3 .f32) (x2 : Vec Ideal S512x1 .i32) (x3 : Vec Ideal S1x512 .i32)

/-- The distance buffer at `(p, q)`. -/
theorem outDist_at
    (h0 : ∀ (r : Fin 512) (c : Fin 3), x0 (ix2 r c) = x (ix2 (gidx bi r) c))
    (h1 : ∀ (r : Fin 512) (c : Fin 3), x1 (ix2 r c) = x (ix2 (gidx bj r) c)) (p q : Fin 512) :
    outDist (F := Ideal) x0 x1 (ix2 p q) = distS x (gidx bi p) (gidx bj q) := by
  unfold outDist
  rw [View.canon_unit_zero hz2]
  simp only [View.ld_unit_zero (S := S512x3) hz2]
  exact pay8_at x bi bj x0 x1 h0 h1 p q

/-- The mask buffer at `(p, q)`, at a grid point whose coordinates are `(bi, bj)`. -/
theorem outMask_at (i : grid0.Coords) (hi0 : (i 0).val = bi.val) (hi1 : (i 1).val = bj.val)
    (h0 : ∀ (r : Fin 512) (c : Fin 3), x0 (ix2 r c) = x (ix2 (gidx bi r) c))
    (h1 : ∀ (r : Fin 512) (c : Fin 3), x1 (ix2 r c) = x (ix2 (gidx bj r) c))
    (h35 : ∀ r : Fin 512, x2 (ix2 r (0 : Fin 1)) = b (ix1 (gidx bi r)))
    (h39 : ∀ r : Fin 512, x3 (ix2 (0 : Fin 1) r) = b (ix1 (gidx bj r))) (p q : Fin 512) :
    outMask (F := Ideal) i x0 x1 x2 x3 (ix2 p q) = (maskS x b (gidx bi p) (gidx bj q)).setWidth 32 := by
  unfold outMask
  rw [View.canon_unit_zero hz2]
  simp only [View.ld_unit_zero (S := S512x3) hz2, View.ld_unit_zero (S := S512x1) hz2, View.ld_unit_zero (S := S1x512) hz2]
  rw [hi0, hi1]
  exact pay4_at x b bi bj x0 x1 x2 x3 h0 h1 h35 h39 p q

theorem vecS_congr (x : XArr) {c c' : Fin 3} {i i' j j' : Fin 4096} (hc : c = c') (hi : i = i') (hj : j = j') :
    vecS x c i j = vecS x c' i' j' := by subst hc hi hj; rfl

/-- The three displacement planes at `(k, p, q)`: each store's payload is its plane of one function
    of the buffer's index, and the three planes cover the buffer. -/
theorem outVec_at
    (h0 : ∀ (r : Fin 512) (c : Fin 3), x0 (ix2 r c) = x (ix2 (gidx bi r) c))
    (h1 : ∀ (r : Fin 512) (c : Fin 3), x1 (ix2 r c) = x (ix2 (gidx bj r) c)) (k : Fin 3) (p q : Fin 512) :
    outVec (F := Ideal) x0 x1 (ix3 k p q) = vecS x k (gidx bi p) (gidx bj q) := by
  unfold outVec
  simp only [View.ld_unit_zero (S := S512x3) hz2]
  refine View.canon_apply_of_pieces (Val := Elt Ideal)
    (fun y : S3x512x512.Idx => vecS x (y 0) (gidx bi (y 1)) (gidx bj (y 2))) _ ?_ (ix3 k p q) (coverVec _ _ _ _)
  intro pc hpc
  simp only [List.mem_cons, List.not_mem_nil, or_false] at hpc
  rcases hpc with rfl | rfl | rfl
  · intro xx
    obtain ⟨u, p', q', rfl⟩ : ∃ (u : Fin 1) (p' q' : Fin 512), xx = ix3 u p' q' := ⟨xx 0, xx 1, xx 2, eq_ix3 xx⟩
    obtain rfl : u = 0 := Subsingleton.elim _ _
    refine (pay3_at x bi bj x0 x1 h0 h1 p' q').trans ?_
    exact vecS_congr x (Fin.ext (show 2 = 2 + 1 * 0 from rfl))
      (congrArg (gidx bi) (Fin.ext (show p'.val = 0 + 1 * p'.val by omega)))
      (congrArg (gidx bj) (Fin.ext (show q'.val = 0 + 1 * q'.val by omega)))
  · intro xx
    obtain ⟨u, p', q', rfl⟩ : ∃ (u : Fin 1) (p' q' : Fin 512), xx = ix3 u p' q' := ⟨xx 0, xx 1, xx 2, eq_ix3 xx⟩
    obtain rfl : u = 0 := Subsingleton.elim _ _
    refine (pay2_at x bi bj x0 x1 h0 h1 p' q').trans ?_
    exact vecS_congr x (Fin.ext (show 1 = 1 + 1 * 0 from rfl))
      (congrArg (gidx bi) (Fin.ext (show p'.val = 0 + 1 * p'.val by omega)))
      (congrArg (gidx bj) (Fin.ext (show q'.val = 0 + 1 * q'.val by omega)))
  · intro xx
    obtain ⟨u, p', q', rfl⟩ : ∃ (u : Fin 1) (p' q' : Fin 512), xx = ix3 u p' q' := ⟨xx 0, xx 1, xx 2, eq_ix3 xx⟩
    obtain rfl : u = 0 := Subsingleton.elim _ _
    refine (pay1_at x bi bj x0 x1 h0 h1 p' q').trans ?_
    exact vecS_congr x (Fin.ext (show 0 = 0 + 1 * 0 from rfl))
      (congrArg (gidx bi) (Fin.ext (show p'.val = 0 + 1 * p'.val by omega)))
      (congrArg (gidx bj) (Fin.ext (show q'.val = 0 + 1 * q'.val by omega)))

end PerPoint

/-! ## The index maps, decided over the grid -/

/-- Each window's block index at a point is the point's tile row, its tile column, or zero, axis by
    axis; the tile coordinates are below eight. -/
theorem idx_facts : ∀ t : Fin cfg0.N,
    (grid0.coords t 0).val < 8 ∧ (grid0.coords t 1).val < 8
    ∧ win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ win0_4.index t (0 : Fin 3) = 0 ∧ win0_4.index t (1 : Fin 3) = (grid0.coords t 0).val
    ∧ win0_4.index t (2 : Fin 3) = (grid0.coords t 1).val
    ∧ win0_5.index t (0 : Fin 2) = (grid0.coords t 0).val ∧ win0_5.index t (1 : Fin 2) = (grid0.coords t 1).val
    ∧ win0_6.index t (0 : Fin 2) = (grid0.coords t 0).val ∧ win0_6.index t (1 : Fin 2) = (grid0.coords t 1).val :=
  (by decide +kernel : ∀ t : Fin grid0.N, _)

/-- Every tile is some point's. -/
theorem idx_onto : ∀ (q0 q1 : Fin 8), ∃ t : Fin cfg0.N, (grid0.coords t 0).val = q0.val ∧ (grid0.coords t 1).val = q1.val :=
  (by decide +kernel : ∀ (q0 q1 : Fin 8), ∃ t : Fin grid0.N, (grid0.coords t 0).val = q0.val ∧ (grid0.coords t 1).val = q1.val)

/-- The tile row and tile column of a grid point. -/
abbrev tileRow (t : Fin cfg0.N) : Fin 8 := ⟨(grid0.coords t 0).val, (idx_facts t).1⟩
abbrev tileCol (t : Fin cfg0.N) : Fin 8 := ⟨(grid0.coords t 1).val, (idx_facts t).2.1⟩

/-! ## The input blocks as entries of the arrays -/

section Blocks
variable (V : (c : Dev nD) → (b : Ref sig .tc) → Buf (Elt Ideal) ((c : Thread nD τ).loc b))

/-- The positions as the region finds them. -/
abbrev xOf (c : Dev nD) : XArr := (V c main_arg0 : S4096x3.Idx → EReal)

/-- The row block of positions at point `t` is rows `tileRow t * 512 …` of the positions. -/
theorem iblk0_apply (c : Dev nD) (t : Fin cfg0.N) (r : Fin 512) (k : Fin 3) :
    (iblk V c 0 t : Vec Ideal S512x3 .f32) (ix2 r k) = xOf V c (ix2 (gidx (tileRow t) r) k) := by
  obtain ⟨-, -, e0, e1, -⟩ := idx_facts t
  unfold iblk
  rw [View.read_apply]
  show V c main_arg0 _ = V c main_arg0 _
  congr 1
  funext a
  apply Fin.ext
  match a with
  | ⟨0, _⟩ => show win0_0.index t (0 : Fin 2) * 512 + 1 * r.val = (grid0.coords t 0).val * 512 + r.val; rw [e0]; omega
  | ⟨1, _⟩ => show win0_0.index t (1 : Fin 2) * 3 + 1 * k.val = k.val; rw [e1]; omega

/-- The column block of positions at point `t` is rows `tileCol t * 512 …` of the positions. -/
theorem iblk1_apply (c : Dev nD) (t : Fin cfg0.N) (r : Fin 512) (k : Fin 3) :
    (iblk V c 1 t : Vec Ideal S512x3 .f32) (ix2 r k) = xOf V c (ix2 (gidx (tileCol t) r) k) := by
  obtain ⟨-, -, -, -, e0, e1, -⟩ := idx_facts t
  unfold iblk
  rw [View.read_apply]
  show V c main_arg0 _ = V c main_arg0 _
  congr 1
  funext a
  apply Fin.ext
  match a with
  | ⟨0, _⟩ => show win0_1.index t (0 : Fin 2) * 512 + 1 * r.val = (grid0.coords t 1).val * 512 + r.val; rw [e0]; omega
  | ⟨1, _⟩ => show win0_1.index t (1 : Fin 2) * 3 + 1 * k.val = k.val; rw [e1]; omega

/-- The batch column block at point `t` is entries `tileRow t * 512 …` of the batch column. -/
theorem iblk2_apply (c : Dev nD) (t : Fin cfg0.N) (r : Fin 512) :
    (iblk V c 2 t : Vec Ideal S512x1 .i32) (ix2 r (0 : Fin 1))
      = (V c main_v0 : S4096x1.Idx → BitVec 32) (ix2 (gidx (tileRow t) r) (0 : Fin 1)) := by
  obtain ⟨-, -, -, -, -, -, e0, e1, -⟩ := idx_facts t
  unfold iblk
  rw [View.read_apply]
  show V c main_v0 _ = V c main_v0 _
  congr 1
  funext a
  apply Fin.ext
  match a with
  | ⟨0, _⟩ => show win0_2.index t (0 : Fin 2) * 512 + 1 * r.val = (grid0.coords t 0).val * 512 + r.val; rw [e0]; omega
  | ⟨1, _⟩ => show win0_2.index t (1 : Fin 2) * 1 + 1 * 0 = 0; rw [e1]

/-- The batch row block at point `t` is entries `tileCol t * 512 …` of the batch row. -/
theorem iblk3_apply (c : Dev nD) (t : Fin cfg0.N) (r : Fin 512) :
    (iblk V c 3 t : Vec Ideal S1x512 .i32) (ix2 (0 : Fin 1) r)
      = (V c main_v1 : S1x4096.Idx → BitVec 32) (ix2 (0 : Fin 1) (gidx (tileCol t) r)) := by
  obtain ⟨-, -, -, -, -, -, -, -, e0, e1, -⟩ := idx_facts t
  unfold iblk
  rw [View.read_apply]
  show V c main_v1 _ = V c main_v1 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * r.val = (grid0.coords t 1).val * 512 + r.val; rw [e1]; omega

end Blocks

/-! ## From the blocks to the whole arrays -/

theorem distS_congr (x : XArr) {i i' j j' : Fin 4096} (hi : i = i') (hj : j = j') : distS x i j = distS x i' j' := by
  subst hi hj; rfl
theorem maskS_congr (x : XArr) (b : BArr) {i i' j j' : Fin 4096} (hi : i = i') (hj : j = j') :
    maskS x b i j = maskS x b i' j' := by
  subst hi hj; rfl

section Final
variable (V : (c : Dev nD) → (b : Ref sig .tc) → Buf (Elt Ideal) ((c : Thread nD τ).loc b))

/-- The three whole arrays as functions of their index. -/
abbrev G4 (c : Dev nD) : S3x4096x4096.Idx → EReal := fun i => vecS (xOf V c) (i 0) (i 1) (i 2)
abbrev G5 (c : Dev nD) : S4096x4096.Idx → EReal := fun i => distS (xOf V c) (i 0) (i 1)
abbrev G6 (c : Dev nD) (bb : BArr) : S4096x4096.Idx → BitVec 32 := fun i => (maskS (xOf V c) bb (i 0) (i 1)).setWidth 32

/-- What point `t` writes back to the distance array is block `t` of the whole distance function. -/
theorem flushed5_eq (c : Dev nD) (t : Fin cfg0.N) :
    (dat0 (F := Ideal) V c).flushed 5 t = ((cfg0.win 5).blk t).view.read (Elt Ideal) (G5 V c) := by
  obtain ⟨-, -, -, -, -, -, -, -, -, -, -, -, -, e0, e1, -⟩ := idx_facts t
  show (cfg0.win 5).cut (grid0.coords t) ((dat0 V c).after 5 t) = _
  rw [after_5]
  funext y
  have hp : (y 0).val < 512 := (y 0).isLt
  have hq : (y 1).val < 512 := (y 1).isLt
  have hy : (cfg0.win 5).xinj (grid0.coords t) y = ix2 (⟨(y 0).val, hp⟩ : Fin 512) (⟨(y 1).val, hq⟩ : Fin 512) :=
    funext fun a => by
      match a with
      | ⟨0, _⟩ => rfl
      | ⟨1, _⟩ => rfl
  show outDist (iblk V c 0 t) (iblk V c 1 t) ((cfg0.win 5).xinj (grid0.coords t) y)
    = G5 V c (((cfg0.win 5).blk t).view.emb y)
  refine (congrArg (outDist (iblk V c 0 t) (iblk V c 1 t)) hy).trans ?_
  refine (outDist_at (xOf V c) (tileRow t) (tileCol t) (iblk V c 0 t) (iblk V c 1 t)
    (iblk0_apply V c t) (iblk1_apply V c t) ⟨(y 0).val, hp⟩ ⟨(y 1).val, hq⟩).trans ?_
  exact distS_congr _
    (Fin.ext (show (grid0.coords t 0).val * 512 + (y 0).val = win0_5.index t (0 : Fin 2) * 512 + 1 * (y 0).val by rw [e0]; omega))
    (Fin.ext (show (grid0.coords t 1).val * 512 + (y 1).val = win0_5.index t (1 : Fin 2) * 512 + 1 * (y 1).val by rw [e1]; omega))

/-- An index of the distance array is in point `t`'s block iff each coordinate is in the block's range. -/
theorem mem_blk5 (t : Fin cfg0.N) (i : S4096x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v2_1).slice (win0_5.rect t)).set ↔ _
  rw [View.set_slice_whole, Rect.mem_set_unit]
  exact Iff.rfl

/-- Every index of the distance array is in the block of the point of its tile. -/
theorem cover5 (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht0, ht1⟩ := idx_onto ⟨(i 0).val / 512, by omega⟩ ⟨(i 1).val / 512, by omega⟩
  have ht0' : (grid0.coords t 0).val = (i 0).val / 512 := ht0
  have ht1' : (grid0.coords t 1).val = (i 1).val / 512 := ht1
  obtain ⟨-, -, -, -, -, -, -, -, -, -, -, -, -, e0, e1, -⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    rw [e0, ht0']; omega
  | ⟨1, _⟩ =>
    show win0_5.index t (1 : Fin 2) * 512 ≤ (i 1).val ∧ (i 1).val < win0_5.index t (1 : Fin 2) * 512 + 512
    rw [e1, ht1']; omega

/-- The distance array after the run is the whole distance function. -/
theorem arr5_eq (c : Dev nD) : (dat0 (F := Ideal) V c).arrAt 5 cfg0.N = G5 V c :=
  (dat0 (F := Ideal) V c).arrAt_eq_of_cover 5 (G5 V c) (fun t _ => flushed5_eq V c t) cover5

theorem final5 (c : Dev nD) (i j : Fin 4096) :
    ((dat0 (F := Ideal) V c).arrAt 5 cfg0.N : S4096x4096.Idx → EReal) (ix2 i j) = distS (xOf V c) i j :=
  congrFun (arr5_eq V c) (ix2 i j)

end Final

section Final6
variable (V : (c : Dev nD) → (b : Ref sig .tc) → Buf (Elt Ideal) ((c : Thread nD τ).loc b))

/-- What point `t` writes back to the mask array is block `t` of the whole mask function. -/
theorem flushed6_eq (c : Dev nD) (bb : BArr)
    (hcol : ∀ i : Fin 4096, (V c main_v0 : S4096x1.Idx → BitVec 32) (ix2 i (0 : Fin 1)) = bb (ix1 i))
    (hrow : ∀ j : Fin 4096, (V c main_v1 : S1x4096.Idx → BitVec 32) (ix2 (0 : Fin 1) j) = bb (ix1 j))
    (t : Fin cfg0.N) :
    (dat0 (F := Ideal) V c).flushed 6 t = ((cfg0.win 6).blk t).view.read (Elt Ideal) (G6 V c bb) := by
  obtain ⟨-, -, -, -, -, -, -, -, -, -, -, -, -, -, -, e0, e1⟩ := idx_facts t
  show (cfg0.win 6).cut (grid0.coords t) ((dat0 V c).after 6 t) = _
  rw [after_6]
  funext y
  have hp : (y 0).val < 512 := (y 0).isLt
  have hq : (y 1).val < 512 := (y 1).isLt
  have hy : (cfg0.win 6).xinj (grid0.coords t) y = ix2 (⟨(y 0).val, hp⟩ : Fin 512) (⟨(y 1).val, hq⟩ : Fin 512) :=
    funext fun a => by
      match a with
      | ⟨0, _⟩ => rfl
      | ⟨1, _⟩ => rfl
  show outMask (grid0.coords t) (iblk V c 0 t) (iblk V c 1 t) (iblk V c 2 t) (iblk V c 3 t)
      ((cfg0.win 6).xinj (grid0.coords t) y)
    = G6 V c bb (((cfg0.win 6).blk t).view.emb y)
  refine (congrArg (outMask (grid0.coords t) (iblk V c 0 t) (iblk V c 1 t) (iblk V c 2 t) (iblk V c 3 t)) hy).trans ?_
  refine (outMask_at (xOf V c) bb (tileRow t) (tileCol t) (iblk V c 0 t) (iblk V c 1 t) (iblk V c 2 t) (iblk V c 3 t)
    (grid0.coords t) rfl rfl (iblk0_apply V c t) (iblk1_apply V c t)
    (fun r => (iblk2_apply V c t r).trans (hcol _)) (fun r => (iblk3_apply V c t r).trans (hrow _))
    ⟨(y 0).val, hp⟩ ⟨(y 1).val, hq⟩).trans ?_
  exact congrArg (fun m : BitVec 1 => m.setWidth 32) (maskS_congr _ _
    (Fin.ext (show (grid0.coords t 0).val * 512 + (y 0).val = win0_6.index t (0 : Fin 2) * 512 + 1 * (y 0).val by rw [e0]; omega))
    (Fin.ext (show (grid0.coords t 1).val * 512 + (y 1).val = win0_6.index t (1 : Fin 2) * 512 + 1 * (y 1).val by rw [e1]; omega)))

/-- An index of the mask array is in point `t`'s block iff each coordinate is in the block's range. -/
theorem mem_blk6 (t : Fin cfg0.N) (i : S4096x4096.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v2_2).slice (win0_6.rect t)).set ↔ _
  rw [View.set_slice_whole, Rect.mem_set_unit]
  exact Iff.rfl

/-- Every index of the mask array is in the block of the point of its tile. -/
theorem cover6 (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht0, ht1⟩ := idx_onto ⟨(i 0).val / 512, by omega⟩ ⟨(i 1).val / 512, by omega⟩
  have ht0' : (grid0.coords t 0).val = (i 0).val / 512 := ht0
  have ht1' : (grid0.coords t 1).val = (i 1).val / 512 := ht1
  obtain ⟨-, -, -, -, -, -, -, -, -, -, -, -, -, -, -, e0, e1⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e0, ht0']; omega
  | ⟨1, _⟩ =>
    show win0_6.index t (1 : Fin 2) * 512 ≤ (i 1).val ∧ (i 1).val < win0_6.index t (1 : Fin 2) * 512 + 512
    rw [e1, ht1']; omega

/-- The mask array after the run is the whole mask function. -/
theorem arr6_eq (c : Dev nD) (bb : BArr)
    (hcol : ∀ i : Fin 4096, (V c main_v0 : S4096x1.Idx → BitVec 32) (ix2 i (0 : Fin 1)) = bb (ix1 i))
    (hrow : ∀ j : Fin 4096, (V c main_v1 : S1x4096.Idx → BitVec 32) (ix2 (0 : Fin 1) j) = bb (ix1 j)) :
    (dat0 (F := Ideal) V c).arrAt 6 cfg0.N = G6 V c bb :=
  (dat0 (F := Ideal) V c).arrAt_eq_of_cover 6 (G6 V c bb) (fun t _ => flushed6_eq V c bb hcol hrow t) cover6

theorem final6 (c : Dev nD) (bb : BArr)
    (hcol : ∀ i : Fin 4096, (V c main_v0 : S4096x1.Idx → BitVec 32) (ix2 i (0 : Fin 1)) = bb (ix1 i))
    (hrow : ∀ j : Fin 4096, (V c main_v1 : S1x4096.Idx → BitVec 32) (ix2 (0 : Fin 1) j) = bb (ix1 j))
    (i j : Fin 4096) :
    ((dat0 (F := Ideal) V c).arrAt 6 cfg0.N : S4096x4096.Idx → BitVec 32) (ix2 i j)
      = (maskS (xOf V c) bb i j).setWidth 32 :=
  congrFun (arr6_eq V c bb hcol hrow) (ix2 i j)

end Final6

section Final4
variable (V : (c : Dev nD) → (b : Ref sig .tc) → Buf (Elt Ideal) ((c : Thread nD τ).loc b))

/-- What point `t` writes back to the displacement array is block `t` of the whole displacement function. -/
theorem flushed4_eq (c : Dev nD) (t : Fin cfg0.N) :
    (dat0 (F := Ideal) V c).flushed 4 t = ((cfg0.win 4).blk t).view.read (Elt Ideal) (G4 V c) := by
  obtain ⟨-, -, -, -, -, -, -, -, -, -, ek, e0, e1, -⟩ := idx_facts t
  show (cfg0.win 4).cut (grid0.coords t) ((dat0 V c).after 4 t) = _
  rw [after_4]
  funext y
  have hk : (y 0).val < 3 := (y 0).isLt
  have hp : (y 1).val < 512 := (y 1).isLt
  have hq : (y 2).val < 512 := (y 2).isLt
  have hy : (cfg0.win 4).xinj (grid0.coords t) y
      = ix3 (⟨(y 0).val, hk⟩ : Fin 3) (⟨(y 1).val, hp⟩ : Fin 512) (⟨(y 2).val, hq⟩ : Fin 512) :=
    funext fun a => by
      match a with
      | ⟨0, _⟩ => rfl
      | ⟨1, _⟩ => rfl
      | ⟨2, _⟩ => rfl
  show outVec (iblk V c 0 t) (iblk V c 1 t) ((cfg0.win 4).xinj (grid0.coords t) y)
    = G4 V c (((cfg0.win 4).blk t).view.emb y)
  refine (congrArg (outVec (iblk V c 0 t) (iblk V c 1 t)) hy).trans ?_
  refine (outVec_at (xOf V c) (tileRow t) (tileCol t) (iblk V c 0 t) (iblk V c 1 t)
    (iblk0_apply V c t) (iblk1_apply V c t) ⟨(y 0).val, hk⟩ ⟨(y 1).val, hp⟩ ⟨(y 2).val, hq⟩).trans ?_
  exact vecS_congr _
    (Fin.ext (show (y 0).val = win0_4.index t (0 : Fin 3) * 3 + 1 * (y 0).val by rw [ek]; omega))
    (Fin.ext (show (grid0.coords t 0).val * 512 + (y 1).val = win0_4.index t (1 : Fin 3) * 512 + 1 * (y 1).val by rw [e0]; omega))
    (Fin.ext (show (grid0.coords t 1).val * 512 + (y 2).val = win0_4.index t (2 : Fin 3) * 512 + 1 * (y 2).val by rw [e1]; omega))

/-- An index of the displacement array is in point `t`'s block iff each coordinate is in the block's range. -/
theorem mem_blk4 (t : Fin cfg0.N) (i : S3x4096x4096.Idx) :
    i ∈ ((cfg0.win 4).blk t).view.set ↔ ∀ a : Fin 3, win0_4.index t a * S3x512x512.size a ≤ (i a).val
      ∧ (i a).val < win0_4.index t a * S3x512x512.size a + S3x512x512.size a := by
  show i ∈ ((View.whole main_v2_0).slice (win0_4.rect t)).set ↔ _
  rw [View.set_slice_whole, Rect.mem_set_unit]
  exact Iff.rfl

/-- Every index of the displacement array is in the block of the point of its tile. -/
theorem cover4 (i : S3x4096x4096.Idx) :
    ∃ t : Fin cfg0.N, (cfg0.win 4).flush t = true ∧ i ∈ ((cfg0.win 4).blk t).view.set := by
  have hik : (i 0).val < 3 := (i 0).isLt
  have hi0 : (i 1).val < 4096 := (i 1).isLt
  have hi1 : (i 2).val < 4096 := (i 2).isLt
  obtain ⟨t, ht0, ht1⟩ := idx_onto ⟨(i 1).val / 512, by omega⟩ ⟨(i 2).val / 512, by omega⟩
  have ht0' : (grid0.coords t 0).val = (i 1).val / 512 := ht0
  have ht1' : (grid0.coords t 1).val = (i 2).val / 512 := ht1
  obtain ⟨-, -, -, -, -, -, -, -, -, -, ek, e0, e1, -⟩ := idx_facts t
  refine ⟨t, flush0_4 t, ?_⟩
  rw [mem_blk4]
  intro a
  match a with
  | ⟨0, _⟩ =>
    show win0_4.index t (0 : Fin 3) * 3 ≤ (i 0).val ∧ (i 0).val < win0_4.index t (0 : Fin 3) * 3 + 3
    rw [ek]; omega
  | ⟨1, _⟩ =>
    show win0_4.index t (1 : Fin 3) * 512 ≤ (i 1).val ∧ (i 1).val < win0_4.index t (1 : Fin 3) * 512 + 512
    rw [e0, ht0']; omega
  | ⟨2, _⟩ =>
    show win0_4.index t (2 : Fin 3) * 512 ≤ (i 2).val ∧ (i 2).val < win0_4.index t (2 : Fin 3) * 512 + 512
    rw [e1, ht1']; omega

/-- The displacement array after the run is the whole displacement function. -/
theorem arr4_eq (c : Dev nD) : (dat0 (F := Ideal) V c).arrAt 4 cfg0.N = G4 V c :=
  (dat0 (F := Ideal) V c).arrAt_eq_of_cover 4 (G4 V c) (fun t _ => flushed4_eq V c t) cover4

theorem final4 (c : Dev nD) (k : Fin 3) (i j : Fin 4096) :
    ((dat0 (F := Ideal) V c).arrAt 4 cfg0.N : S3x4096x4096.Idx → EReal) (ix3 k i j) = vecS (xOf V c) k i j :=
  congrFun (arr4_eq V c) (ix3 k i j)

end Final4

end Cert.KernelIdeal.HandValue

end
-- ==== Proof.KIPrefix.lean ====
import proofs.«123107_j75376676045589_2_alg».proof.Proof.Gen.KernelIdeal.Launch
import Idealize.ShloMosaic.Lib.StableHlo.Run
import Idealize.ShloMosaic.Lib.Pipeline.Value
import Idealize.ShloMosaic.Lib.ValueIdx

/-!
The kernel program's two host operations before its region — the batch labels `[4096]` reshaped to a column
`[4096, 1]` and to a row `[1, 4096]` — read over any contents of the buffers: the arguments are left alone, and
element `(i, 0)` of the column and element `(0, i)` of the row are label `i`.
-/

noncomputable section

namespace Cert.KernelIdeal.HandTail

open Cert.KernelIdeal Idealize.ShloMosaic Idealize.ShloMosaic.TcCoe Idealize.SL.Sem Idealize.ShloMosaic.StableHlo
open Idealize.ShloMosaic.ValueIdx
open Cert.KernelIdeal.Facts₀ Cert.KernelIdeal.Facts

variable [Cert.KernelIdeal.Facts]

/-- The two reshapes of the batch labels, read at an index, and the arguments they leave alone. -/
theorem prefix_reads (W : Valuation τ sig (Elt Ideal)) :
    after (Gen.hostOps0 (F := Ideal)) W (Proc.devRef .tc main_arg0) = W (Proc.devRef .tc main_arg0)
    ∧ after (Gen.hostOps0 (F := Ideal)) W (Proc.devRef .tc main_arg1) = W (Proc.devRef .tc main_arg1)
    ∧ (∀ i : Fin 4096, (after (Gen.hostOps0 (F := Ideal)) W (Proc.devRef .tc main_v0) : S4096x1.Idx → BitVec 32) (ix2 i (0 : Fin 1))
        = (W (Proc.devRef .tc main_arg1) : S4096.Idx → BitVec 32) (ix1 i))
    ∧ (∀ i : Fin 4096, (after (Gen.hostOps0 (F := Ideal)) W (Proc.devRef .tc main_v1) : S1x4096.Idx → BitVec 32) (ix2 (0 : Fin 1) i)
        = (W (Proc.devRef .tc main_arg1) : S4096.Idx → BitVec 32) (ix1 i)) := by
  have h0 : after (Gen.hostOps0 (F := Ideal)) W (Proc.devRef .tc main_v0)
      = shapeCast S4096x1 (W (Proc.devRef .tc main_arg1) : S4096.Idx → BitVec 32) Facts₀.shapeCasts_S4096_S4096x1 := by
    after_results_simp <;> rfl
  have h1 : after (Gen.hostOps0 (F := Ideal)) W (Proc.devRef .tc main_v1)
      = shapeCast S1x4096 (W (Proc.devRef .tc main_arg1) : S4096.Idx → BitVec 32) Facts₀.shapeCasts_S4096_S1x4096 := by
    after_results_simp <;> rfl
  refine ⟨by after_results_simp, by after_results_simp, fun i => ?_, fun i => ?_⟩
  · rw [h0]
    refine shapeCast_apply _ Facts₀.shapeCasts_S4096_S4096x1 (ix2 i (0 : Fin 1)) (ix1 i) ?_
    rw [Shape.rowMajor_val_one, Shape.rowMajor_val_two]
    show i.val = i.val * 1 + 0
    omega
  · rw [h1]
    refine shapeCast_apply _ Facts₀.shapeCasts_S4096_S1x4096 (ix2 (0 : Fin 1) i) (ix1 i) ?_
    rw [Shape.rowMajor_val_one, Shape.rowMajor_val_two]
    show i.val = 0 * 4096 + i.val
    omega

end Cert.KernelIdeal.HandTail

end
-- ==== Proof.RefTerms.lean ====
/-
  The reference program's values as terms of its two argument arrays: each definition below is the
  composition of the printed operations of `Cert.ReferenceIdeal.main` that produce one named value,
  written over the value(s) it is computed from.  The difference vectors, the distance and the pair
  mask are functions of the positions `x` (and the batch labels `b`); the three results are functions
  of the mask, the distance and the difference vectors only.
-/
import proofs.«123107_j75376676045589_2_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Cert.ReferenceIdeal.Facts]

/-! ## From the arguments to the difference vectors, the distance and the mask -/

/-- `%4`: the difference vectors, `vecR x [i, j, c] = x [i, c] - x [j, c]`. -/
def vecR (x : FVec F S4096x3 .f32) : FVec F S4096x4096x3 .f32 :=
  subf
    (broadcastInDim S4096x4096x3 ![0, 1, 2] bcast_S4096x1x3_S4096x4096x3_0_1_2
      (broadcastInDim S4096x1x3 ![0, 2] bcast_S4096x3_S4096x1x3_0_2 x))
    (broadcastInDim S4096x4096x3 ![0, 1, 2] bcast_S1x4096x3_S4096x4096x3_0_1_2
      (broadcastInDim S1x4096x3 ![1, 2] bcast_S4096x3_S1x4096x3_1_2 x))

/-- `%6`: the squared distance, the sum over the last axis of the squared differences. -/
def d2OfR (v : FVec F S4096x4096x3 .f32) : FVec F S4096x4096 .f32 :=
  Host.reduceAdd (mulf v v) (constant S_ .f32 0x00000000#32) reducesTo_S4096x4096x3_S4096x4096_d2 h_S_

/-- `%8`: where the squared distance is positive. -/
def safeOfR (d2 : FVec F S4096x4096 .f32) : IVec S4096x4096 1 :=
  cmpf .ogt d2 (broadcastInDim S4096x4096 ![] bcast_S_S4096x4096 (constant S_ .f32 0x00000000#32))

/-- `%11` from `%6`: the square root where the squared distance is positive (taken of `1` elsewhere), `0` elsewhere. -/
def distOfD2R (d2 : FVec F S4096x4096 .f32) : FVec F S4096x4096 .f32 :=
  select (safeOfR d2)
    (Host.sqrt (select (safeOfR d2) d2
      (broadcastInDim S4096x4096 ![] bcast_S_S4096x4096 (constant S_ .f32 0x3F800000#32))))
    (broadcastInDim S4096x4096 ![] bcast_S_S4096x4096 (constant S_ .f32 0x00000000#32))

/-- `%11` from `%4`: the distance of a pair from its difference vector. -/
def distOfVecR (v : FVec F S4096x4096x3 .f32) : FVec F S4096x4096 .f32 :=
  distOfD2R (d2OfR v)

/-- `%11`: the distance of every pair of positions. -/
def distR (x : FVec F S4096x3 .f32) : FVec F S4096x4096 .f32 :=
  distOfVecR (vecR x)

/-- `%16`: the two points carry the same batch label. -/
def sameBatchR (b : IVec S4096 32) : IVec S4096x4096 1 :=
  cmpi .eq
    (broadcastInDim S4096x4096 ![0, 1] bcast_S4096x1_S4096x4096_0_1 (broadcastInDim S4096x1 ![0] bcast_S4096_S4096x1_0 b))
    (broadcastInDim S4096x4096 ![0, 1] bcast_S1x4096_S4096x4096_0_1 (broadcastInDim S1x4096 ![1] bcast_S4096_S1x4096_1 b))

/-- `%22`: off the diagonal, `i ≠ j`. -/
def notSelfR : IVec S4096x4096 1 :=
  noti (cmpi .eq
    (addi (iotaInDim S4096x4096 32 0) (broadcastInDim S4096x4096 ![] bcast_S_S4096x4096 (constantI S_ 32 0#32)))
    (iotaInDim S4096x4096 32 1))

/-- `%29` from `%11` and the labels: same batch, not the same point, `0 ≤ dist`, `dist < 5`. -/
def maskOfDistR (d : FVec F S4096x4096 .f32) (b : IVec S4096 32) : IVec S4096x4096 1 :=
  andi
    (andi (andi (sameBatchR b) notSelfR)
      (cmpf .oge d (broadcastInDim S4096x4096 ![] bcast_S_S4096x4096 (constant S_ .f32 0x00000000#32))))
    (cmpf .olt d (broadcastInDim S4096x4096 ![] bcast_S_S4096x4096 (constant S_ .f32 0x40A00000#32)))

/-- `%29`: the mask of the pairs kept. -/
def maskR (x : FVec F S4096x3 .f32) (b : IVec S4096 32) : IVec S4096x4096 1 :=
  maskOfDistR (distR x) b

/-! ## From the mask to the slots -/

/-- `%30`: the mask in row-major order. -/
def flatMaskR (mk : IVec S4096x4096 1) : IVec S16777216 1 :=
  shapeCast S16777216 mk shapeCasts_S4096x4096_S16777216

/-- `%32`: the running count of kept pairs, the window sum over everything at or before a position. -/
def cumsumR (fm : IVec S16777216 1) : IVec S16777216 32 :=
  Host.reduceWindow IntOp.addi ![16777216] ![1] ![16777215] ![0] (extui 32 fm natLt_1_32)
    (broadcastInDim S_ ![] bcast_S_S_ (constantI S_ 32 0#32))
    reduceWindows_S16777216_S16777216_w16777216s1p16777215_0 h_S_

/-- `%34`: the running count less one. -/
def rankR (fm : IVec S16777216 1) : IVec S16777216 32 :=
  subi (cumsumR fm) (broadcastInDim S16777216 ![] bcast_S_S16777216 (constantI S_ 32 1#32))

/-- `%38` from `%30`: a kept pair's slot is its rank among the kept pairs while that is below `524288`;
    every other position's slot is `524288`, outside the results. -/
def slotR (fm : IVec S16777216 1) : IVec S16777216 32 :=
  select
    (andi fm (cmpi .slt (rankR fm) (broadcastInDim S16777216 ![] bcast_S_S16777216 (constantI S_ 32 524288#32))))
    (rankR fm)
    (broadcastInDim S16777216 ![] bcast_S_S16777216 (constantI S_ 32 524288#32))

/-- `%53` (and `%61`, `%73`, `%82`) from `%38`: the scatter's index column — a negative slot counted from the end,
    then one index per row. -/
def slotColR (sl : IVec S16777216 32) : IVec S16777216x1 32 :=
  broadcastInDim S16777216x1 ![0] bcast_S16777216_S16777216x1_0
    (select
      (cmpi .slt sl (broadcastInDim S16777216 ![] bcast_S_S16777216 (constantI S_ 32 0#32)))
      (addi sl (broadcastInDim S16777216 ![] bcast_S_S16777216 (constantI S_ 32 524288#32)))
      sl)

/-- `%42`: the first point's number of every pair, in row-major order. -/
def rowNumR : IVec S16777216 32 :=
  shapeCast S16777216
    (broadcastInDim S4096x4096 ![0, 1] bcast_S4096x1_S4096x4096_0_1
      (broadcastInDim S4096x1 ![0] bcast_S4096_S4096x1_0 (iotaInDim S4096 32 0)))
    shapeCasts_S4096x4096_S16777216

/-- `%46`: the second point's number of every pair, in row-major order. -/
def colNumR : IVec S16777216 32 :=
  shapeCast S16777216
    (broadcastInDim S4096x4096 ![0, 1] bcast_S1x4096_S4096x4096_0_1
      (broadcastInDim S1x4096 ![1] bcast_S4096_S1x4096_1 (iotaInDim S4096 32 0)))
    shapeCasts_S4096x4096_S16777216

/-! ## The three results from the mask, the distance and the difference vectors -/

/-- `%54` / `%62`: `-1` everywhere, then each pair's number written at its slot. -/
def scatterNumR (sl : IVec S16777216 32) (num : IVec S16777216 32) : IVec S524288 32 :=
  Host.scatter scatter_S524288_S16777216x1_S16777216_n_0_0_1 (fun _ b => b)
    (broadcastInDim S524288 ![] bcast_S_S524288 (constantI S_ 32 4294967295#32))
    (slotColR sl) num

/-- `%65` from `%38`: the two rows of point numbers. -/
def edgeIndexOfSlotR (sl : IVec S16777216 32) : IVec S2x524288 32 :=
  concatenate S2x524288 0
    [⟨S1x524288, broadcastInDim S1x524288 ![1] bcast_S524288_S1x524288_1 (scatterNumR sl rowNumR)⟩,
     ⟨S1x524288, broadcastInDim S1x524288 ![1] bcast_S524288_S1x524288_1 (scatterNumR sl colNumR)⟩]
    concatenates_S1x524288_S1x524288_S2x524288_d0

/-- `%74` from `%38` and `%11`: `0` everywhere, then each pair's distance written at its slot. -/
def edgeWeightOfSlotR (sl : IVec S16777216 32) (d : FVec F S4096x4096 .f32) : FVec F S524288 .f32 :=
  Host.scatter scatter_S524288_S16777216x1_S16777216_n_0_0_1 (fun _ b => b)
    (broadcastInDim S524288 ![] bcast_S_S524288 (constant S_ .f32 0x00000000#32))
    (slotColR sl) (shapeCast S16777216 d shapeCasts_S4096x4096_S16777216)

/-- `%83` from `%38` and `%4`: `0` everywhere, then each pair's difference vector written at its slot's row. -/
def edgeVecOfSlotR (sl : IVec S16777216 32) (v : FVec F S4096x4096x3 .f32) : FVec F S524288x3 .f32 :=
  Host.scatter scatter_S524288x3_S16777216x1_S16777216x3_1_0_0_1 (fun _ b => b)
    (broadcastInDim S524288x3 ![] bcast_S_S524288x3 (constant S_ .f32 0x00000000#32))
    (slotColR sl) (shapeCast S16777216x3 v shapeCasts_S4096x4096x3_S16777216x3)

/-- `%65` from `%29`: the kept pairs' point numbers, compacted in row-major order. -/
def edgeIndexR (mk : IVec S4096x4096 1) : IVec S2x524288 32 :=
  edgeIndexOfSlotR (slotR (flatMaskR mk))

/-- `%74` from `%29` and `%11`: the kept pairs' distances, compacted in row-major order. -/
def edgeWeightR (mk : IVec S4096x4096 1) (d : FVec F S4096x4096 .f32) : FVec F S524288 .f32 :=
  edgeWeightOfSlotR (slotR (flatMaskR mk)) d

/-- `%83` from `%29` and `%4`: the kept pairs' difference vectors, compacted in row-major order. -/
def edgeVecR (mk : IVec S4096x4096 1) (v : FVec F S4096x4096x3 .f32) : FVec F S524288x3 .f32 :=
  edgeVecOfSlotR (slotR (flatMaskR mk)) v

end Cert.ReferenceIdeal.Hand

end
-- ==== Proof.KITerms.lean ====
/-
  The kernel program's host lines after its region as terms of the values they read: each definition is the
  composition of the printed operations of `Cert.KernelIdeal.main` that produce one named value, over the
  value(s) it is computed from — the 32-bit mask `%2#2`, the distance `%2#1` and the component-major
  difference vectors `%2#0`.
-/
import proofs.«123107_j75376676045589_2_alg».proof.KernelIdeal

noncomputable section

namespace Cert.KernelIdeal.HandTail

open Cert.KernelIdeal Idealize.ShloMosaic
open Cert.KernelIdeal.Facts₀ Cert.KernelIdeal.Facts

variable {F : FTy → Type} [FloatOps F] [Cert.KernelIdeal.Facts]

/-! ## From the 32-bit mask to the slots -/

/-- `%5`: the 32-bit mask in row-major order, compared with zero. -/
def flatMaskK (m32 : IVec S4096x4096 32) : IVec S16777216 1 :=
  cmpi .ne (shapeCast S16777216 m32 shapeCasts_S4096x4096_S16777216)
    (broadcastInDim S16777216 ![] bcast_S_S16777216 (constantI S_ 32 0#32))

/-- `%7`: the running count of kept pairs, the window sum over everything at or before a position. -/
def cumsumK (fm : IVec S16777216 1) : IVec S16777216 32 :=
  Host.reduceWindow IntOp.addi ![16777216] ![1] ![16777215] ![0] (extui 32 fm natLt_1_32)
    (broadcastInDim S_ ![] bcast_S_S_ (constantI S_ 32 0#32))
    reduceWindows_S16777216_S16777216_w16777216s1p16777215_0 h_S_

/-- `%9`: the running count less one. -/
def rankK (fm : IVec S16777216 1) : IVec S16777216 32 :=
  subi (cumsumK fm) (broadcastInDim S16777216 ![] bcast_S_S16777216 (constantI S_ 32 1#32))

/-- `%13` from `%5`: a kept pair's slot is its rank among the kept pairs while that is below `524288`; every other
    position's slot is `524288`, outside the results. -/
def slotK (fm : IVec S16777216 1) : IVec S16777216 32 :=
  select
    (andi fm (cmpi .slt (rankK fm) (broadcastInDim S16777216 ![] bcast_S_S16777216 (constantI S_ 32 524288#32))))
    (rankK fm)
    (broadcastInDim S16777216 ![] bcast_S_S16777216 (constantI S_ 32 524288#32))

/-- `%28` (and `%36`, `%48`, `%59`, `%70`, `%81`) from `%13`: the scatter's index column — a negative slot counted
    from the end, then one index per row. -/
def slotColK (sl : IVec S16777216 32) : IVec S16777216x1 32 :=
  broadcastInDim S16777216x1 ![0] bcast_S16777216_S16777216x1_0
    (select
      (cmpi .slt sl (broadcastInDim S16777216 ![] bcast_S_S16777216 (constantI S_ 32 0#32)))
      (addi sl (broadcastInDim S16777216 ![] bcast_S_S16777216 (constantI S_ 32 524288#32)))
      sl)

/-- `%17`: the first point's number of every pair, in row-major order. -/
def rowNumK : IVec S16777216 32 :=
  shapeCast S16777216
    (broadcastInDim S4096x4096 ![0, 1] bcast_S4096x1_S4096x4096_0_1
      (broadcastInDim S4096x1 ![0] bcast_S4096_S4096x1_0 (iotaInDim S4096 32 0)))
    shapeCasts_S4096x4096_S16777216

/-- `%21`: the second point's number of every pair, in row-major order. -/
def colNumK : IVec S16777216 32 :=
  shapeCast S16777216
    (broadcastInDim S4096x4096 ![0, 1] bcast_S1x4096_S4096x4096_0_1
      (broadcastInDim S1x4096 ![1] bcast_S4096_S1x4096_1 (iotaInDim S4096 32 0)))
    shapeCasts_S4096x4096_S16777216

/-! ## The three results from the slots, the distance and the difference vectors -/

/-- `%29` / `%37`: `-1` everywhere, then each pair's number written at its slot. -/
def scatterNumK (sl : IVec S16777216 32) (num : IVec S16777216 32) : IVec S524288 32 :=
  Host.scatter scatter_S524288_S16777216x1_S16777216_n_0_0_1 (fun _ b => b)
    (broadcastInDim S524288 ![] bcast_S_S524288 (constantI S_ 32 4294967295#32))
    (slotColK sl) num

/-- `%40` from `%13`: the two rows of point numbers. -/
def edgeIndexOfSlotK (sl : IVec S16777216 32) : IVec S2x524288 32 :=
  concatenate S2x524288 0
    [⟨S1x524288, broadcastInDim S1x524288 ![1] bcast_S524288_S1x524288_1 (scatterNumK sl rowNumK)⟩,
     ⟨S1x524288, broadcastInDim S1x524288 ![1] bcast_S524288_S1x524288_1 (scatterNumK sl colNumK)⟩]
    concatenates_S1x524288_S1x524288_S2x524288_d0

/-- `%49` from `%13` and `%2#1`: `0` everywhere, then each pair's distance written at its slot. -/
def edgeWeightOfSlotK (sl : IVec S16777216 32) (d : FVec F S4096x4096 .f32) : FVec F S524288 .f32 :=
  Host.scatter scatter_S524288_S16777216x1_S16777216_n_0_0_1 (fun _ b => b)
    (broadcastInDim S524288 ![] bcast_S_S524288 (constant S_ .f32 0x00000000#32))
    (slotColK sl) (shapeCast S16777216 d shapeCasts_S4096x4096_S16777216)

/-- `%60` / `%71` / `%82` from `%13` and one component's slice `%51` / `%62` / `%73` of `%2#0`: `0` everywhere, then
    each pair's component written at its slot. -/
def scatterCompK (sl : IVec S16777216 32) (comp : FVec F S1x4096x4096 .f32) : FVec F S524288 .f32 :=
  Host.scatter scatter_S524288_S16777216x1_S16777216_n_0_0_1 (fun _ b => b)
    (broadcastInDim S524288 ![] bcast_S_S524288 (constant S_ .f32 0x00000000#32))
    (slotColK sl)
    (shapeCast S16777216 (shapeCast S4096x4096 comp shapeCasts_S1x4096x4096_S4096x4096) shapeCasts_S4096x4096_S16777216)

/-- `%86` from `%13` and `%2#0`: the three scattered components as the columns of one array. -/
def edgeVecOfSlotK (sl : IVec S16777216 32) (v : FVec F S3x4096x4096 .f32) : FVec F S524288x3 .f32 :=
  concatenate S524288x3 1
    [⟨S524288x1, broadcastInDim S524288x1 ![0] bcast_S524288_S524288x1_0
        (scatterCompK sl (extractStridedSlice S1x4096x4096 ![0, 0, 0] v slices_S3x4096x4096_S1x4096x4096_0_0_0))⟩,
     ⟨S524288x1, broadcastInDim S524288x1 ![0] bcast_S524288_S524288x1_0
        (scatterCompK sl (extractStridedSlice S1x4096x4096 ![1, 0, 0] v slices_S3x4096x4096_S1x4096x4096_1_0_0))⟩,
     ⟨S524288x1, broadcastInDim S524288x1 ![0] bcast_S524288_S524288x1_0
        (scatterCompK sl (extractStridedSlice S1x4096x4096 ![2, 0, 0] v slices_S3x4096x4096_S1x4096x4096_2_0_0))⟩]
    concatenates_S524288x1_S524288x1_S524288x1_S524288x3_d1

end Cert.KernelIdeal.HandTail

end
-- ==== Proof.KISlot.lean ====
/-
  The kernel program's host lines from the 32-bit mask to the slots, read over ANY contents `V` of the device's
  buffers: after the four stretches (the flat mask, the inlined running count, the rank and its bound, the inlined
  select) buffer `%13` holds `slotK (flatMaskK (V %2#2))`, and the kernel's other two results and the two arguments
  are as they were. The two inlined calls write and read their buffers through typed references; the transports
  these leave around a value are identities and are removed by rewriting, so that the two sides compared at the
  end are the same applications of the window sum.
-/
import proofs.«123107_j75376676045589_2_alg».proof.Proof.Gen.KernelIdeal.Launch
import proofs.«123107_j75376676045589_2_alg».proof.Proof.KITerms
import Idealize.ShloMosaic.Lib.StableHlo.Run

noncomputable section

namespace Cert.KernelIdeal.HandTail

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

-- the window sum is never opened: each side of an equation below holds the same applications of it
attribute [local irreducible] Host.scatter Host.reduceWindow

/-- Contents carried to a typed reference's buffer and back are the contents. -/
theorem ofBuf_toBuf {T : BufTy} (x : TRef sig T) (v : T.Contents (Elt F)) : x.ofBuf (x.toBuf v) = v := by
  obtain ⟨r, h, h2, h3⟩ := x
  subst h
  rfl

/-- The transport to `%7`'s buffer is the identity. -/
theorem toBuf_v7 (v : (⟨S16777216, .i32⟩ : BufTy).Contents (Elt F)) :
    (TRef.of main_v7 : TRef sig ⟨S16777216, .i32⟩).toBuf v = v := rfl
/-- The transport to `%13`'s buffer is the identity. -/
theorem toBuf_v13 (v : (⟨S16777216, .i32⟩ : BufTy).Contents (Elt F)) :
    (TRef.of main_v13 : TRef sig ⟨S16777216, .i32⟩).toBuf v = v := rfl
/-- The transport from `%6`'s buffer is the identity. -/
theorem ofBuf_v6 (v : (⟨S16777216, .i32⟩ : BufTy).Contents (Elt F)) :
    (TRef.of main_v6 : TRef sig ⟨S16777216, .i32⟩).ofBuf v = v := rfl
/-- The transport from `%9`'s buffer is the identity. -/
theorem ofBuf_v9 (v : (⟨S16777216, .i32⟩ : BufTy).Contents (Elt F)) :
    (TRef.of main_v9 : TRef sig ⟨S16777216, .i32⟩).ofBuf v = v := rfl
/-- The transport from `%12`'s buffer is the identity. -/
theorem ofBuf_v12 (v : (⟨S16777216, .i1⟩ : BufTy).Contents (Elt F)) :
    (TRef.of main_v12 : TRef sig ⟨S16777216, .i1⟩).ofBuf v = v := rfl
/-- The transport from `%c_2`'s buffer is the identity. -/
theorem ofBuf_c_2 (v : (⟨S_, .i32⟩ : BufTy).Contents (Elt F)) :
    (TRef.of main_c_2 : TRef sig ⟨S_, .i32⟩).ofBuf v = v := rfl

set_option maxRecDepth 8192 in
/-- `%3 … %13`: the slots from the 32-bit mask. -/
theorem after_slot_v13 (V : Valuation τ sig (Elt F)) :
    after (Gen.hostOps1_3 (F := F)) (after (Gen.hostOps1_2 (F := F)) (after (Gen.hostOps1_1 (F := F)) (after (Gen.hostOps1 (F := F)) V))) (main_v13 : DevRef τ sig)
        = slotK (flatMaskK (V (main_v2_2 : DevRef τ sig))) := by
  after_results_simp
  simp only [ofBuf_toBuf, toBuf_v7, toBuf_v13, ofBuf_v6, ofBuf_v9, ofBuf_v12, ofBuf_c_2, id]
  rfl

set_option maxRecDepth 8192 in
/-- `%3 … %13` leave the kernel's other results and the arguments alone. -/
theorem after_slot_keeps (V : Valuation τ sig (Elt F)) :
    after (Gen.hostOps1_3 (F := F)) (after (Gen.hostOps1_2 (F := F)) (after (Gen.hostOps1_1 (F := F)) (after (Gen.hostOps1 (F := F)) V))) (main_v2_1 : DevRef τ sig)
        = V (main_v2_1 : DevRef τ sig)
    ∧ after (Gen.hostOps1_3 (F := F)) (after (Gen.hostOps1_2 (F := F)) (after (Gen.hostOps1_1 (F := F)) (after (Gen.hostOps1 (F := F)) V))) (main_v2_0 : DevRef τ sig)
        = V (main_v2_0 : DevRef τ sig)
    ∧ after (Gen.hostOps1_3 (F := F)) (after (Gen.hostOps1_2 (F := F)) (after (Gen.hostOps1_1 (F := F)) (after (Gen.hostOps1 (F := F)) V))) (main_arg0 : DevRef τ sig)
        = V (main_arg0 : DevRef τ sig)
    ∧ after (Gen.hostOps1_3 (F := F)) (after (Gen.hostOps1_2 (F := F)) (after (Gen.hostOps1_1 (F := F)) (after (Gen.hostOps1 (F := F)) V))) (main_arg1 : DevRef τ sig)
        = V (main_arg1 : DevRef τ sig) := by
  refine ⟨?_, ?_, ?_, ?_⟩ <;> after_results_simp

end Cert.KernelIdeal.HandTail

end
-- ==== Proof.KIReads4.lean ====
/-
  The kernel program's last stretch of host operations, read part by part: over ANY contents `V` of the device's
  buffers, the fold of the stretch leaves the three results at the terms of KITerms.lean over the slots, the
  distance and the component-major difference vectors that `V` holds, and the arguments as they were.  The stretch
  is cut into ten consecutive parts; each part's fold gives the value it produces as a term over the values it
  reads and leaves the values later parts read untouched; the parts' equations then chain from the results back.
-/
import proofs.«123107_j75376676045589_2_alg».proof.Proof.KITerms
import proofs.«123107_j75376676045589_2_alg».proof.Proof.Gen.KernelIdeal.Launch
import Idealize.ShloMosaic.Lib.StableHlo.Run

noncomputable section

namespace Cert.KernelIdeal.HandTail

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F] [Cert.KernelIdeal.Facts]

-- the folds and searches inside these are never opened: each side of an equation below holds the same applications of them
attribute [local irreducible] Host.scatter

/-- The fold over a concatenation is the folds in turn. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The parts -/

/-- The pairs' point numbers. -/
abbrev tailNums : List (HloOp τ sig (Elt F)) :=
  [ StableHlo.nullary main_v14 (iotaInDim S4096 32 0),
    StableHlo.unary main_v14 main_v15 (broadcastInDim S4096x1 ![0] bcast_S4096_S4096x1_0 : (⟨S4096, .i32⟩ : BufTy).Contents (Elt F) → (⟨S4096x1, .i32⟩ : BufTy).Contents (Elt F)),
    StableHlo.unary main_v15 main_v16 (broadcastInDim S4096x4096 ![0, 1] bcast_S4096x1_S4096x4096_0_1 : (⟨S4096x1, .i32⟩ : BufTy).Contents (Elt F) → (⟨S4096x4096, .i32⟩ : BufTy).Contents (Elt F)),
    StableHlo.reshape main_v16 main_v17 rfl shapeCasts_S4096x4096_S16777216,
    StableHlo.nullary main_v18 (iotaInDim S4096 32 0),
    StableHlo.unary main_v18 main_v19 (broadcastInDim S1x4096 ![1] bcast_S4096_S1x4096_1 : (⟨S4096, .i32⟩ : BufTy).Contents (Elt F) → (⟨S1x4096, .i32⟩ : BufTy).Contents (Elt F)),
    StableHlo.unary main_v19 main_v20 (broadcastInDim S4096x4096 ![0, 1] bcast_S1x4096_S4096x4096_0_1 : (⟨S1x4096, .i32⟩ : BufTy).Contents (Elt F) → (⟨S4096x4096, .i32⟩ : BufTy).Contents (Elt F)),
    StableHlo.reshape main_v20 main_v21 rfl shapeCasts_S4096x4096_S16777216 ]

/-- The first points' numbers at their slots. -/
abbrev tailIndexA : List (HloOp τ sig (Elt F)) :=
  [ StableHlo.nullary main_c_3 (constantI S_ 32 4294967295#32),
    StableHlo.unary main_c_3 main_v22 (broadcastInDim S524288 ![] bcast_S_S524288 : (⟨S_, .i32⟩ : BufTy).Contents (Elt F) → (⟨S524288, .i32⟩ : BufTy).Contents (Elt F)),
    StableHlo.nullary main_c_4 (constantI S_ 32 0#32),
    StableHlo.unary main_c_4 main_v23 (broadcastInDim S16777216 ![] bcast_S_S16777216 : (⟨S_, .i32⟩ : BufTy).Contents (Elt F) → (⟨S16777216, .i32⟩ : BufTy).Contents (Elt F)),
    StableHlo.binary main_v13 main_v23 main_v24 (cmpi .slt : (⟨S16777216, .i32⟩ : BufTy).Contents (Elt F) → (⟨S16777216, .i32⟩ : BufTy).Contents (Elt F) → (⟨S16777216, .i1⟩ : BufTy).Contents (Elt F)),
    StableHlo.nullary main_c_5 (constantI S_ 32 524288#32),
    StableHlo.unary main_c_5 main_v25 (broadcastInDim S16777216 ![] bcast_S_S16777216 : (⟨S_, .i32⟩ : BufTy).Contents (Elt F) → (⟨S16777216, .i32⟩ : BufTy).Contents (Elt F)),
    StableHlo.binary main_v13 main_v25 main_v26 (addi : (⟨S16777216, .i32⟩ : BufTy).Contents (Elt F) → (⟨S16777216, .i32⟩ : BufTy).Contents (Elt F) → (⟨S16777216, .i32⟩ : BufTy).Contents (Elt F)),
    StableHlo.ternary main_v24 main_v26 main_v13 main_v27 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v27 main_v28 (broadcastInDim S16777216x1 ![0] bcast_S16777216_S16777216x1_0 : (⟨S16777216, .i32⟩ : BufTy).Contents (Elt F) → (⟨S16777216x1, .i32⟩ : BufTy).Contents (Elt F)),
    StableHlo.ternary main_v22 main_v28 main_v17 main_v29 ((fun x i u => Host.scatter scatter_S524288_S16777216x1_S16777216_n_0_0_1 (fun _ b => b) x i u) : (⟨S524288, .i32⟩ : BufTy).Contents (Elt F) → (⟨S16777216x1, .i32⟩ : BufTy).Contents (Elt F) → (⟨S16777216, .i32⟩ : BufTy).Contents (Elt F) → (⟨S524288, .i32⟩ : BufTy).Contents (Elt F)) ]

/-- The second points' numbers at their slots. -/
abbrev tailIndexB : List (HloOp τ sig (Elt F)) :=
  [ StableHlo.nullary main_c_6 (constantI S_ 32 4294967295#32),
    StableHlo.unary main_c_6 main_v30 (broadcastInDim S524288 ![] bcast_S_S524288 : (⟨S_, .i32⟩ : BufTy).Contents (Elt F) → (⟨S524288, .i32⟩ : BufTy).Contents (Elt F)),
    StableHlo.nullary main_c_7 (constantI S_ 32 0#32),
    StableHlo.unary main_c_7 main_v31 (broadcastInDim S16777216 ![] bcast_S_S16777216 : (⟨S_, .i32⟩ : BufTy).Contents (Elt F) → (⟨S16777216, .i32⟩ : BufTy).Contents (Elt F)),
    StableHlo.binary main_v13 main_v31 main_v32 (cmpi .slt : (⟨S16777216, .i32⟩ : BufTy).Contents (Elt F) → (⟨S16777216, .i32⟩ : BufTy).Contents (Elt F) → (⟨S16777216, .i1⟩ : BufTy).Contents (Elt F)),
    StableHlo.nullary main_c_8 (constantI S_ 32 524288#32),
    StableHlo.unary main_c_8 main_v33 (broadcastInDim S16777216 ![] bcast_S_S16777216 : (⟨S_, .i32⟩ : BufTy).Contents (Elt F) → (⟨S16777216, .i32⟩ : BufTy).Contents (Elt F)),
    StableHlo.binary main_v13 main_v33 main_v34 (addi : (⟨S16777216, .i32⟩ : BufTy).Contents (Elt F) → (⟨S16777216, .i32⟩ : BufTy).Contents (Elt F) → (⟨S16777216, .i32⟩ : BufTy).Contents (Elt F)),
    StableHlo.ternary main_v32 main_v34 main_v13 main_v35 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v35 main_v36 (broadcastInDim S16777216x1 ![0] bcast_S16777216_S16777216x1_0 : (⟨S16777216, .i32⟩ : BufTy).Contents (Elt F) → (⟨S16777216x1, .i32⟩ : BufTy).Contents (Elt F)),
    StableHlo.ternary main_v30 main_v36 main_v21 main_v37 ((fun x i u => Host.scatter scatter_S524288_S16777216x1_S16777216_n_0_0_1 (fun _ b => b) x i u) : (⟨S524288, .i32⟩ : BufTy).Contents (Elt F) → (⟨S16777216x1, .i32⟩ : BufTy).Contents (Elt F) → (⟨S16777216, .i32⟩ : BufTy).Contents (Elt F) → (⟨S524288, .i32⟩ : BufTy).Contents (Elt F)) ]

/-- The two rows stacked. -/
abbrev tailIndexC : List (HloOp τ sig (Elt F)) :=
  [ StableHlo.unary main_v29 main_v38 (broadcastInDim S1x524288 ![1] bcast_S524288_S1x524288_1 : (⟨S524288, .i32⟩ : BufTy).Contents (Elt F) → (⟨S1x524288, .i32⟩ : BufTy).Contents (Elt F)),
    StableHlo.unary main_v37 main_v39 (broadcastInDim S1x524288 ![1] bcast_S524288_S1x524288_1 : (⟨S524288, .i32⟩ : BufTy).Contents (Elt F) → (⟨S1x524288, .i32⟩ : BufTy).Contents (Elt F)),
    StableHlo.binary main_v38 main_v39 main_v40 ((fun a b => concatenate S2x524288 0 [⟨S1x524288, a⟩, ⟨S1x524288, b⟩] concatenates_S1x524288_S1x524288_S2x524288_d0) : (⟨S1x524288, .i32⟩ : BufTy).Contents (Elt F) → (⟨S1x524288, .i32⟩ : BufTy).Contents (Elt F) → (⟨S2x524288, .i32⟩ : BufTy).Contents (Elt F)) ]

/-- The distances at their slots. -/
abbrev tailWeight : List (HloOp τ sig (Elt F)) :=
  [ StableHlo.nullary main_cst (constant S_ .f32 0x00000000#32),
    StableHlo.unary main_cst main_v41 (broadcastInDim S524288 ![] bcast_S_S524288 : (⟨S_, .f32⟩ : BufTy).Contents (Elt F) → (⟨S524288, .f32⟩ : BufTy).Contents (Elt F)),
    StableHlo.reshape main_v2_1 main_v42 rfl shapeCasts_S4096x4096_S16777216,
    StableHlo.nullary main_c_9 (constantI S_ 32 0#32),
    StableHlo.unary main_c_9 main_v43 (broadcastInDim S16777216 ![] bcast_S_S16777216 : (⟨S_, .i32⟩ : BufTy).Contents (Elt F) → (⟨S16777216, .i32⟩ : BufTy).Contents (Elt F)),
    StableHlo.binary main_v13 main_v43 main_v44 (cmpi .slt : (⟨S16777216, .i32⟩ : BufTy).Contents (Elt F) → (⟨S16777216, .i32⟩ : BufTy).Contents (Elt F) → (⟨S16777216, .i1⟩ : BufTy).Contents (Elt F)),
    StableHlo.nullary main_c_10 (constantI S_ 32 524288#32),
    StableHlo.unary main_c_10 main_v45 (broadcastInDim S16777216 ![] bcast_S_S16777216 : (⟨S_, .i32⟩ : BufTy).Contents (Elt F) → (⟨S16777216, .i32⟩ : BufTy).Contents (Elt F)),
    StableHlo.binary main_v13 main_v45 main_v46 (addi : (⟨S16777216, .i32⟩ : BufTy).Contents (Elt F) → (⟨S16777216, .i32⟩ : BufTy).Contents (Elt F) → (⟨S16777216, .i32⟩ : BufTy).Contents (Elt F)),
    StableHlo.ternary main_v44 main_v46 main_v13 main_v47 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v47 main_v48 (broadcastInDim S16777216x1 ![0] bcast_S16777216_S16777216x1_0 : (⟨S16777216, .i32⟩ : BufTy).Contents (Elt F) → (⟨S16777216x1, .i32⟩ : BufTy).Contents (Elt F)),
    StableHlo.ternary main_v41 main_v48 main_v42 main_v49 ((fun x i u => Host.scatter scatter_S524288_S16777216x1_S16777216_n_0_0_1 (fun _ b => b) x i u) : (⟨S524288, .f32⟩ : BufTy).Contents (Elt F) → (⟨S16777216x1, .i32⟩ : BufTy).Contents (Elt F) → (⟨S16777216, .f32⟩ : BufTy).Contents (Elt F) → (⟨S524288, .f32⟩ : BufTy).Contents (Elt F)) ]

/-- The first components at their slots. -/
abbrev tailComp0 : List (HloOp τ sig (Elt F)) :=
  [ StableHlo.nullary main_cst_11 (constant S_ .f32 0x00000000#32),
    StableHlo.unary main_cst_11 main_v50 (broadcastInDim S524288 ![] bcast_S_S524288 : (⟨S_, .f32⟩ : BufTy).Contents (Elt F) → (⟨S524288, .f32⟩ : BufTy).Contents (Elt F)),
    StableHlo.unary main_v2_0 main_v51 ((extractStridedSlice S1x4096x4096 ![0, 0, 0] · slices_S3x4096x4096_S1x4096x4096_0_0_0) : (⟨S3x4096x4096, .f32⟩ : BufTy).Contents (Elt F) → (⟨S1x4096x4096, .f32⟩ : BufTy).Contents (Elt F)),
    StableHlo.reshape main_v51 main_v52 rfl shapeCasts_S1x4096x4096_S4096x4096,
    StableHlo.reshape main_v52 main_v53 rfl shapeCasts_S4096x4096_S16777216,
    StableHlo.nullary main_c_12 (constantI S_ 32 0#32),
    StableHlo.unary main_c_12 main_v54 (broadcastInDim S16777216 ![] bcast_S_S16777216 : (⟨S_, .i32⟩ : BufTy).Contents (Elt F) → (⟨S16777216, .i32⟩ : BufTy).Contents (Elt F)),
    StableHlo.binary main_v13 main_v54 main_v55 (cmpi .slt : (⟨S16777216, .i32⟩ : BufTy).Contents (Elt F) → (⟨S16777216, .i32⟩ : BufTy).Contents (Elt F) → (⟨S16777216, .i1⟩ : BufTy).Contents (Elt F)),
    StableHlo.nullary main_c_13 (constantI S_ 32 524288#32),
    StableHlo.unary main_c_13 main_v56 (broadcastInDim S16777216 ![] bcast_S_S16777216 : (⟨S_, .i32⟩ : BufTy).Contents (Elt F) → (⟨S16777216, .i32⟩ : BufTy).Contents (Elt F)),
    StableHlo.binary main_v13 main_v56 main_v57 (addi : (⟨S16777216, .i32⟩ : BufTy).Contents (Elt F) → (⟨S16777216, .i32⟩ : BufTy).Contents (Elt F) → (⟨S16777216, .i32⟩ : BufTy).Contents (Elt F)),
    StableHlo.ternary main_v55 main_v57 main_v13 main_v58 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v58 main_v59 (broadcastInDim S16777216x1 ![0] bcast_S16777216_S16777216x1_0 : (⟨S16777216, .i32⟩ : BufTy).Contents (Elt F) → (⟨S16777216x1, .i32⟩ : BufTy).Contents (Elt F)),
    StableHlo.ternary main_v50 main_v59 main_v53 main_v60 ((fun x i u => Host.scatter scatter_S524288_S16777216x1_S16777216_n_0_0_1 (fun _ b => b) x i u) : (⟨S524288, .f32⟩ : BufTy).Contents (Elt F) → (⟨S16777216x1, .i32⟩ : BufTy).Contents (Elt F) → (⟨S16777216, .f32⟩ : BufTy).Contents (Elt F) → (⟨S524288, .f32⟩ : BufTy).Contents (Elt F)) ]

/-- The second components at their slots. -/
abbrev tailComp1 : List (HloOp τ sig (Elt F)) :=
  [ StableHlo.nullary main_cst_14 (constant S_ .f32 0x00000000#32),
    StableHlo.unary main_cst_14 main_v61 (broadcastInDim S524288 ![] bcast_S_S524288 : (⟨S_, .f32⟩ : BufTy).Contents (Elt F) → (⟨S524288, .f32⟩ : BufTy).Contents (Elt F)),
    StableHlo.unary main_v2_0 main_v62 ((extractStridedSlice S1x4096x4096 ![1, 0, 0] · slices_S3x4096x4096_S1x4096x4096_1_0_0) : (⟨S3x4096x4096, .f32⟩ : BufTy).Contents (Elt F) → (⟨S1x4096x4096, .f32⟩ : BufTy).Contents (Elt F)),
    StableHlo.reshape main_v62 main_v63 rfl shapeCasts_S1x4096x4096_S4096x4096,
    StableHlo.reshape main_v63 main_v64 rfl shapeCasts_S4096x4096_S16777216,
    StableHlo.nullary main_c_15 (constantI S_ 32 0#32),
    StableHlo.unary main_c_15 main_v65 (broadcastInDim S16777216 ![] bcast_S_S16777216 : (⟨S_, .i32⟩ : BufTy).Contents (Elt F) → (⟨S16777216, .i32⟩ : BufTy).Contents (Elt F)),
    StableHlo.binary main_v13 main_v65 main_v66 (cmpi .slt : (⟨S16777216, .i32⟩ : BufTy).Contents (Elt F) → (⟨S16777216, .i32⟩ : BufTy).Contents (Elt F) → (⟨S16777216, .i1⟩ : BufTy).Contents (Elt F)),
    StableHlo.nullary main_c_16 (constantI S_ 32 524288#32),
    StableHlo.unary main_c_16 main_v67 (broadcastInDim S16777216 ![] bcast_S_S16777216 : (⟨S_, .i32⟩ : BufTy).Contents (Elt F) → (⟨S16777216, .i32⟩ : BufTy).Contents (Elt F)),
    StableHlo.binary main_v13 main_v67 main_v68 (addi : (⟨S16777216, .i32⟩ : BufTy).Contents (Elt F) → (⟨S16777216, .i32⟩ : BufTy).Contents (Elt F) → (⟨S16777216, .i32⟩ : BufTy).Contents (Elt F)),
    StableHlo.ternary main_v66 main_v68 main_v13 main_v69 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v69 main_v70 (broadcastInDim S16777216x1 ![0] bcast_S16777216_S16777216x1_0 : (⟨S16777216, .i32⟩ : BufTy).Contents (Elt F) → (⟨S16777216x1, .i32⟩ : BufTy).Contents (Elt F)),
    StableHlo.ternary main_v61 main_v70 main_v64 main_v71 ((fun x i u => Host.scatter scatter_S524288_S16777216x1_S16777216_n_0_0_1 (fun _ b => b) x i u) : (⟨S524288, .f32⟩ : BufTy).Contents (Elt F) → (⟨S16777216x1, .i32⟩ : BufTy).Contents (Elt F) → (⟨S16777216, .f32⟩ : BufTy).Contents (Elt F) → (⟨S524288, .f32⟩ : BufTy).Contents (Elt F)) ]

/-- The third components at their slots. -/
abbrev tailComp2 : List (HloOp τ sig (Elt F)) :=
  [ StableHlo.nullary main_cst_17 (constant S_ .f32 0x00000000#32),
    StableHlo.unary main_cst_17 main_v72 (broadcastInDim S524288 ![] bcast_S_S524288 : (⟨S_, .f32⟩ : BufTy).Contents (Elt F) → (⟨S524288, .f32⟩ : BufTy).Contents (Elt F)),
    StableHlo.unary main_v2_0 main_v73 ((extractStridedSlice S1x4096x4096 ![2, 0, 0] · slices_S3x4096x4096_S1x4096x4096_2_0_0) : (⟨S3x4096x4096, .f32⟩ : BufTy).Contents (Elt F) → (⟨S1x4096x4096, .f32⟩ : BufTy).Contents (Elt F)),
    StableHlo.reshape main_v73 main_v74 rfl shapeCasts_S1x4096x4096_S4096x4096,
    StableHlo.reshape main_v74 main_v75 rfl shapeCasts_S4096x4096_S16777216,
    StableHlo.nullary main_c_18 (constantI S_ 32 0#32),
    StableHlo.unary main_c_18 main_v76 (broadcastInDim S16777216 ![] bcast_S_S16777216 : (⟨S_, .i32⟩ : BufTy).Contents (Elt F) → (⟨S16777216, .i32⟩ : BufTy).Contents (Elt F)),
    StableHlo.binary main_v13 main_v76 main_v77 (cmpi .slt : (⟨S16777216, .i32⟩ : BufTy).Contents (Elt F) → (⟨S16777216, .i32⟩ : BufTy).Contents (Elt F) → (⟨S16777216, .i1⟩ : BufTy).Contents (Elt F)),
    StableHlo.nullary main_c_19 (constantI S_ 32 524288#32),
    StableHlo.unary main_c_19 main_v78 (broadcastInDim S16777216 ![] bcast_S_S16777216 : (⟨S_, .i32⟩ : BufTy).Contents (Elt F) → (⟨S16777216, .i32⟩ : BufTy).Contents (Elt F)),
    StableHlo.binary main_v13 main_v78 main_v79 (addi : (⟨S16777216, .i32⟩ : BufTy).Contents (Elt F) → (⟨S16777216, .i32⟩ : BufTy).Contents (Elt F) → (⟨S16777216, .i32⟩ : BufTy).Contents (Elt F)),
    StableHlo.ternary main_v77 main_v79 main_v13 main_v80 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v80 main_v81 (broadcastInDim S16777216x1 ![0] bcast_S16777216_S16777216x1_0 : (⟨S16777216, .i32⟩ : BufTy).Contents (Elt F) → (⟨S16777216x1, .i32⟩ : BufTy).Contents (Elt F)),
    StableHlo.ternary main_v72 main_v81 main_v75 main_v82 ((fun x i u => Host.scatter scatter_S524288_S16777216x1_S16777216_n_0_0_1 (fun _ b => b) x i u) : (⟨S524288, .f32⟩ : BufTy).Contents (Elt F) → (⟨S16777216x1, .i32⟩ : BufTy).Contents (Elt F) → (⟨S16777216, .f32⟩ : BufTy).Contents (Elt F) → (⟨S524288, .f32⟩ : BufTy).Contents (Elt F)) ]

/-- Each scattered component as a column. -/
abbrev tailCols : List (HloOp τ sig (Elt F)) :=
  [ StableHlo.unary main_v60 main_v83 (broadcastInDim S524288x1 ![0] bcast_S524288_S524288x1_0 : (⟨S524288, .f32⟩ : BufTy).Contents (Elt F) → (⟨S524288x1, .f32⟩ : BufTy).Contents (Elt F)),
    StableHlo.unary main_v71 main_v84 (broadcastInDim S524288x1 ![0] bcast_S524288_S524288x1_0 : (⟨S524288, .f32⟩ : BufTy).Contents (Elt F) → (⟨S524288x1, .f32⟩ : BufTy).Contents (Elt F)),
    StableHlo.unary main_v82 main_v85 (broadcastInDim S524288x1 ![0] bcast_S524288_S524288x1_0 : (⟨S524288, .f32⟩ : BufTy).Contents (Elt F) → (⟨S524288x1, .f32⟩ : BufTy).Contents (Elt F)) ]

/-- The three columns side by side. -/
abbrev tailStack : List (HloOp τ sig (Elt F)) :=
  [ StableHlo.nary ![main_v83, main_v84, main_v85] main_v86 (fun u => concatenate S524288x3 1 [⟨S524288x1, u 0⟩, ⟨S524288x1, u 1⟩, ⟨S524288x1, u 2⟩] concatenates_S524288x1_S524288x1_S524288x1_S524288x3_d1) ]

/-- The stretch is the ten parts in order. -/
theorem hostOps1_4_parts : Gen.hostOps1_4 (F := F)
    = tailNums ++ (tailIndexA ++ (tailIndexB ++ (tailIndexC ++ (tailWeight ++ (tailComp0 ++ (tailComp1 ++ (tailComp2 ++ (tailCols ++ (tailStack))))))))) := rfl

/-! ## What each part computes -/

set_option maxRecDepth 8192 in
/-- The pairs' point numbers. -/
theorem after_tailNums (V : Valuation τ sig (Elt F)) :
    after (tailNums (F := F)) V (main_v17 : DevRef τ sig) = rowNumK
    ∧ after (tailNums (F := F)) V (main_v21 : DevRef τ sig) = colNumK
    ∧ after (tailNums (F := F)) V (main_arg0 : DevRef τ sig) = V (main_arg0 : DevRef τ sig)
    ∧ after (tailNums (F := F)) V (main_arg1 : DevRef τ sig) = V (main_arg1 : DevRef τ sig)
    ∧ after (tailNums (F := F)) V (main_v13 : DevRef τ sig) = V (main_v13 : DevRef τ sig)
    ∧ after (tailNums (F := F)) V (main_v2_0 : DevRef τ sig) = V (main_v2_0 : DevRef τ sig)
    ∧ after (tailNums (F := F)) V (main_v2_1 : DevRef τ sig) = V (main_v2_1 : DevRef τ sig) := by
  refine ⟨?_, ?_, ?_, ?_, ?_, ?_, ?_⟩ <;>
    (after_results_simp <;> rfl)

set_option maxRecDepth 8192 in
/-- The first points' numbers at their slots. -/
theorem after_tailIndexA (V : Valuation τ sig (Elt F)) :
    after (tailIndexA (F := F)) V (main_v29 : DevRef τ sig) = scatterNumK (V (main_v13 : DevRef τ sig)) (V (main_v17 : DevRef τ sig))
    ∧ after (tailIndexA (F := F)) V (main_arg0 : DevRef τ sig) = V (main_arg0 : DevRef τ sig)
    ∧ after (tailIndexA (F := F)) V (main_arg1 : DevRef τ sig) = V (main_arg1 : DevRef τ sig)
    ∧ after (tailIndexA (F := F)) V (main_v13 : DevRef τ sig) = V (main_v13 : DevRef τ sig)
    ∧ after (tailIndexA (F := F)) V (main_v2_0 : DevRef τ sig) = V (main_v2_0 : DevRef τ sig)
    ∧ after (tailIndexA (F := F)) V (main_v2_1 : DevRef τ sig) = V (main_v2_1 : DevRef τ sig)
    ∧ after (tailIndexA (F := F)) V (main_v21 : DevRef τ sig) = V (main_v21 : DevRef τ sig) := by
  refine ⟨?_, ?_, ?_, ?_, ?_, ?_, ?_⟩ <;>
    (after_results_simp <;> rfl)

set_option maxRecDepth 8192 in
/-- The second points' numbers at their slots. -/
theorem after_tailIndexB (V : Valuation τ sig (Elt F)) :
    after (tailIndexB (F := F)) V (main_v37 : DevRef τ sig) = scatterNumK (V (main_v13 : DevRef τ sig)) (V (main_v21 : DevRef τ sig))
    ∧ after (tailIndexB (F := F)) V (main_arg0 : DevRef τ sig) = V (main_arg0 : DevRef τ sig)
    ∧ after (tailIndexB (F := F)) V (main_arg1 : DevRef τ sig) = V (main_arg1 : DevRef τ sig)
    ∧ after (tailIndexB (F := F)) V (main_v13 : DevRef τ sig) = V (main_v13 : DevRef τ sig)
    ∧ after (tailIndexB (F := F)) V (main_v2_0 : DevRef τ sig) = V (main_v2_0 : DevRef τ sig)
    ∧ after (tailIndexB (F := F)) V (main_v2_1 : DevRef τ sig) = V (main_v2_1 : DevRef τ sig)
    ∧ after (tailIndexB (F := F)) V (main_v29 : DevRef τ sig) = V (main_v29 : DevRef τ sig) := by
  refine ⟨?_, ?_, ?_, ?_, ?_, ?_, ?_⟩ <;>
    (after_results_simp <;> rfl)

set_option maxRecDepth 8192 in
/-- The two rows stacked. -/
theorem after_tailIndexC (V : Valuation τ sig (Elt F)) :
    after (tailIndexC (F := F)) V (main_v40 : DevRef τ sig) = concatenate S2x524288 0 [⟨S1x524288, broadcastInDim S1x524288 ![1] bcast_S524288_S1x524288_1 (V (main_v29 : DevRef τ sig))⟩, ⟨S1x524288, broadcastInDim S1x524288 ![1] bcast_S524288_S1x524288_1 (V (main_v37 : DevRef τ sig))⟩] concatenates_S1x524288_S1x524288_S2x524288_d0
    ∧ after (tailIndexC (F := F)) V (main_arg0 : DevRef τ sig) = V (main_arg0 : DevRef τ sig)
    ∧ after (tailIndexC (F := F)) V (main_arg1 : DevRef τ sig) = V (main_arg1 : DevRef τ sig)
    ∧ after (tailIndexC (F := F)) V (main_v13 : DevRef τ sig) = V (main_v13 : DevRef τ sig)
    ∧ after (tailIndexC (F := F)) V (main_v2_0 : DevRef τ sig) = V (main_v2_0 : DevRef τ sig)
    ∧ after (tailIndexC (F := F)) V (main_v2_1 : DevRef τ sig) = V (main_v2_1 : DevRef τ sig) := by
  refine ⟨?_, ?_, ?_, ?_, ?_, ?_⟩ <;>
    (after_results_simp <;> rfl)

set_option maxRecDepth 8192 in
/-- The distances at their slots. -/
theorem after_tailWeight (V : Valuation τ sig (Elt F)) :
    after (tailWeight (F := F)) V (main_v49 : DevRef τ sig) = edgeWeightOfSlotK (V (main_v13 : DevRef τ sig)) (V (main_v2_1 : DevRef τ sig))
    ∧ after (tailWeight (F := F)) V (main_v40 : DevRef τ sig) = V (main_v40 : DevRef τ sig)
    ∧ after (tailWeight (F := F)) V (main_arg0 : DevRef τ sig) = V (main_arg0 : DevRef τ sig)
    ∧ after (tailWeight (F := F)) V (main_arg1 : DevRef τ sig) = V (main_arg1 : DevRef τ sig)
    ∧ after (tailWeight (F := F)) V (main_v13 : DevRef τ sig) = V (main_v13 : DevRef τ sig)
    ∧ after (tailWeight (F := F)) V (main_v2_0 : DevRef τ sig) = V (main_v2_0 : DevRef τ sig) := by
  refine ⟨?_, ?_, ?_, ?_, ?_, ?_⟩ <;>
    (after_results_simp <;> rfl)

set_option maxRecDepth 8192 in
/-- The first components at their slots. -/
theorem after_tailComp0 (V : Valuation τ sig (Elt F)) :
    after (tailComp0 (F := F)) V (main_v60 : DevRef τ sig) = scatterCompK (V (main_v13 : DevRef τ sig)) (extractStridedSlice S1x4096x4096 ![0, 0, 0] (V (main_v2_0 : DevRef τ sig)) slices_S3x4096x4096_S1x4096x4096_0_0_0)
    ∧ after (tailComp0 (F := F)) V (main_v40 : DevRef τ sig) = V (main_v40 : DevRef τ sig)
    ∧ after (tailComp0 (F := F)) V (main_v49 : DevRef τ sig) = V (main_v49 : DevRef τ sig)
    ∧ after (tailComp0 (F := F)) V (main_arg0 : DevRef τ sig) = V (main_arg0 : DevRef τ sig)
    ∧ after (tailComp0 (F := F)) V (main_arg1 : DevRef τ sig) = V (main_arg1 : DevRef τ sig)
    ∧ after (tailComp0 (F := F)) V (main_v13 : DevRef τ sig) = V (main_v13 : DevRef τ sig)
    ∧ after (tailComp0 (F := F)) V (main_v2_0 : DevRef τ sig) = V (main_v2_0 : DevRef τ sig) := by
  refine ⟨?_, ?_, ?_, ?_, ?_, ?_, ?_⟩ <;>
    (after_results_simp <;> rfl)

set_option maxRecDepth 8192 in
/-- The second components at their slots. -/
theorem after_tailComp1 (V : Valuation τ sig (Elt F)) :
    after (tailComp1 (F := F)) V (main_v71 : DevRef τ sig) = scatterCompK (V (main_v13 : DevRef τ sig)) (extractStridedSlice S1x4096x4096 ![1, 0, 0] (V (main_v2_0 : DevRef τ sig)) slices_S3x4096x4096_S1x4096x4096_1_0_0)
    ∧ after (tailComp1 (F := F)) V (main_v40 : DevRef τ sig) = V (main_v40 : DevRef τ sig)
    ∧ after (tailComp1 (F := F)) V (main_v49 : DevRef τ sig) = V (main_v49 : DevRef τ sig)
    ∧ after (tailComp1 (F := F)) V (main_arg0 : DevRef τ sig) = V (main_arg0 : DevRef τ sig)
    ∧ after (tailComp1 (F := F)) V (main_arg1 : DevRef τ sig) = V (main_arg1 : DevRef τ sig)
    ∧ after (tailComp1 (F := F)) V (main_v60 : DevRef τ sig) = V (main_v60 : DevRef τ sig)
    ∧ after (tailComp1 (F := F)) V (main_v13 : DevRef τ sig) = V (main_v13 : DevRef τ sig)
    ∧ after (tailComp1 (F := F)) V (main_v2_0 : DevRef τ sig) = V (main_v2_0 : DevRef τ sig) := by
  refine ⟨?_, ?_, ?_, ?_, ?_, ?_, ?_, ?_⟩ <;>
    (after_results_simp <;> rfl)

set_option maxRecDepth 8192 in
/-- The third components at their slots. -/
theorem after_tailComp2 (V : Valuation τ sig (Elt F)) :
    after (tailComp2 (F := F)) V (main_v82 : DevRef τ sig) = scatterCompK (V (main_v13 : DevRef τ sig)) (extractStridedSlice S1x4096x4096 ![2, 0, 0] (V (main_v2_0 : DevRef τ sig)) slices_S3x4096x4096_S1x4096x4096_2_0_0)
    ∧ after (tailComp2 (F := F)) V (main_v40 : DevRef τ sig) = V (main_v40 : DevRef τ sig)
    ∧ after (tailComp2 (F := F)) V (main_v49 : DevRef τ sig) = V (main_v49 : DevRef τ sig)
    ∧ after (tailComp2 (F := F)) V (main_arg0 : DevRef τ sig) = V (main_arg0 : DevRef τ sig)
    ∧ after (tailComp2 (F := F)) V (main_arg1 : DevRef τ sig) = V (main_arg1 : DevRef τ sig)
    ∧ after (tailComp2 (F := F)) V (main_v60 : DevRef τ sig) = V (main_v60 : DevRef τ sig)
    ∧ after (tailComp2 (F := F)) V (main_v71 : DevRef τ sig) = V (main_v71 : DevRef τ sig) := by
  refine ⟨?_, ?_, ?_, ?_, ?_, ?_, ?_⟩ <;>
    (after_results_simp <;> rfl)

set_option maxRecDepth 8192 in
/-- Each scattered component as a column. -/
theorem after_tailCols (V : Valuation τ sig (Elt F)) :
    after (tailCols (F := F)) V (main_v83 : DevRef τ sig) = broadcastInDim S524288x1 ![0] bcast_S524288_S524288x1_0 (V (main_v60 : DevRef τ sig))
    ∧ after (tailCols (F := F)) V (main_v84 : DevRef τ sig) = broadcastInDim S524288x1 ![0] bcast_S524288_S524288x1_0 (V (main_v71 : DevRef τ sig))
    ∧ after (tailCols (F := F)) V (main_v85 : DevRef τ sig) = broadcastInDim S524288x1 ![0] bcast_S524288_S524288x1_0 (V (main_v82 : DevRef τ sig))
    ∧ after (tailCols (F := F)) V (main_v40 : DevRef τ sig) = V (main_v40 : DevRef τ sig)
    ∧ after (tailCols (F := F)) V (main_v49 : DevRef τ sig) = V (main_v49 : DevRef τ sig)
    ∧ after (tailCols (F := F)) V (main_arg0 : DevRef τ sig) = V (main_arg0 : DevRef τ sig)
    ∧ after (tailCols (F := F)) V (main_arg1 : DevRef τ sig) = V (main_arg1 : DevRef τ sig) := by
  refine ⟨?_, ?_, ?_, ?_, ?_, ?_, ?_⟩ <;>
    (after_results_simp <;> rfl)

set_option maxRecDepth 8192 in
/-- The three columns side by side. -/
theorem after_tailStack (V : Valuation τ sig (Elt F)) :
    after (tailStack (F := F)) V (main_v86 : DevRef τ sig) = concatenate S524288x3 1 [⟨S524288x1, (V (main_v83 : DevRef τ sig))⟩, ⟨S524288x1, (V (main_v84 : DevRef τ sig))⟩, ⟨S524288x1, (V (main_v85 : DevRef τ sig))⟩] concatenates_S524288x1_S524288x1_S524288x1_S524288x3_d1
    ∧ after (tailStack (F := F)) V (main_v40 : DevRef τ sig) = V (main_v40 : DevRef τ sig)
    ∧ after (tailStack (F := F)) V (main_v49 : DevRef τ sig) = V (main_v49 : DevRef τ sig)
    ∧ after (tailStack (F := F)) V (main_arg0 : DevRef τ sig) = V (main_arg0 : DevRef τ sig)
    ∧ after (tailStack (F := F)) V (main_arg1 : DevRef τ sig) = V (main_arg1 : DevRef τ sig) := by
  refine ⟨?_, ?_, ?_, ?_, ?_⟩ <;>
    (after_results_simp <;> rfl)

/-! ## The whole stretch -/

set_option maxRecDepth 8192 in
/-- The fold of the stretch over any contents: the three results are the terms over the slots, the distance and the
    difference vectors the contents hold; the arguments are left as they were. -/
theorem after_ops4 (V : Valuation τ sig (Elt F)) :
    after (Gen.hostOps1_4 (F := F)) V (main_v40 : DevRef τ sig) = edgeIndexOfSlotK (V (main_v13 : DevRef τ sig))
    ∧ after (Gen.hostOps1_4 (F := F)) V (main_v49 : DevRef τ sig) = edgeWeightOfSlotK (V (main_v13 : DevRef τ sig)) (V (main_v2_1 : DevRef τ sig))
    ∧ after (Gen.hostOps1_4 (F := F)) V (main_v86 : DevRef τ sig) = edgeVecOfSlotK (V (main_v13 : DevRef τ sig)) (V (main_v2_0 : DevRef τ sig))
    ∧ after (Gen.hostOps1_4 (F := F)) V (main_arg0 : DevRef τ sig) = V (main_arg0 : DevRef τ sig)
    ∧ after (Gen.hostOps1_4 (F := F)) V (main_arg1 : DevRef τ sig) = V (main_arg1 : DevRef τ sig) := by
  obtain ⟨h0_v17, h0_v21, h0_arg0, h0_arg1, h0_v13, h0_v2_0, h0_v2_1⟩ := after_tailNums V
  obtain ⟨h1_v29, h1_arg0, h1_arg1, h1_v13, h1_v2_0, h1_v2_1, h1_v21⟩ := after_tailIndexA (after (tailNums (F := F)) V)
  obtain ⟨h2_v37, h2_arg0, h2_arg1, h2_v13, h2_v2_0, h2_v2_1, h2_v29⟩ := after_tailIndexB (after (tailIndexA (F := F)) (after (tailNums (F := F)) V))
  obtain ⟨h3_v40, h3_arg0, h3_arg1, h3_v13, h3_v2_0, h3_v2_1⟩ := after_tailIndexC (after (tailIndexB (F := F)) (after (tailIndexA (F := F)) (after (tailNums (F := F)) V)))
  obtain ⟨h4_v49, h4_v40, h4_arg0, h4_arg1, h4_v13, h4_v2_0⟩ := after_tailWeight (after (tailIndexC (F := F)) (after (tailIndexB (F := F)) (after (tailIndexA (F := F)) (after (tailNums (F := F)) V))))
  obtain ⟨h5_v60, h5_v40, h5_v49, h5_arg0, h5_arg1, h5_v13, h5_v2_0⟩ := after_tailComp0 (after (tailWeight (F := F)) (after (tailIndexC (F := F)) (after (tailIndexB (F := F)) (after (tailIndexA (F := F)) (after (tailNums (F := F)) V)))))
  obtain ⟨h6_v71, h6_v40, h6_v49, h6_arg0, h6_arg1, h6_v60, h6_v13, h6_v2_0⟩ := after_tailComp1 (after (tailComp0 (F := F)) (after (tailWeight (F := F)) (after (tailIndexC (F := F)) (after (tailIndexB (F := F)) (after (tailIndexA (F := F)) (after (tailNums (F := F)) V))))))
  obtain ⟨h7_v82, h7_v40, h7_v49, h7_arg0, h7_arg1, h7_v60, h7_v71⟩ := after_tailComp2 (after (tailComp1 (F := F)) (after (tailComp0 (F := F)) (after (tailWeight (F := F)) (after (tailIndexC (F := F)) (after (tailIndexB (F := F)) (after (tailIndexA (F := F)) (after (tailNums (F := F)) V)))))))
  obtain ⟨h8_v83, h8_v84, h8_v85, h8_v40, h8_v49, h8_arg0, h8_arg1⟩ := after_tailCols (after (tailComp2 (F := F)) (after (tailComp1 (F := F)) (after (tailComp0 (F := F)) (after (tailWeight (F := F)) (after (tailIndexC (F := F)) (after (tailIndexB (F := F)) (after (tailIndexA (F := F)) (after (tailNums (F := F)) V))))))))
  obtain ⟨h9_v86, h9_v40, h9_v49, h9_arg0, h9_arg1⟩ := after_tailStack (after (tailCols (F := F)) (after (tailComp2 (F := F)) (after (tailComp1 (F := F)) (after (tailComp0 (F := F)) (after (tailWeight (F := F)) (after (tailIndexC (F := F)) (after (tailIndexB (F := F)) (after (tailIndexA (F := F)) (after (tailNums (F := F)) V)))))))))
  rw [hostOps1_4_parts, after_append, after_append, after_append, after_append, after_append, after_append, after_append, after_append, after_append]
  refine ⟨?_, ?_, ?_, ?_, ?_⟩
  · rw [h9_v40, h8_v40, h7_v40, h6_v40, h5_v40, h4_v40, h3_v40, h2_v29, h2_v37, h1_v29, h1_v13, h1_v21, h0_v13, h0_v17, h0_v21]
    simp only [edgeIndexOfSlotK] <;> rfl
  · rw [h9_v49, h8_v49, h7_v49, h6_v49, h5_v49, h4_v49, h3_v13, h3_v2_1, h2_v13, h2_v2_1, h1_v13, h1_v2_1, h0_v13, h0_v2_1]
  · rw [h9_v86, h8_v83, h8_v84, h8_v85, h7_v60, h7_v71, h7_v82, h6_v60, h6_v71, h6_v13, h6_v2_0, h5_v60, h5_v13, h5_v2_0, h4_v13, h4_v2_0, h3_v13, h3_v2_0, h2_v13, h2_v2_0, h1_v13, h1_v2_0, h0_v13, h0_v2_0]
    simp only [edgeVecOfSlotK] <;> rfl
  · rw [h9_arg0, h8_arg0, h7_arg0, h6_arg0, h5_arg0, h4_arg0, h3_arg0, h2_arg0, h1_arg0, h0_arg0]
  · rw [h9_arg1, h8_arg1, h7_arg1, h6_arg1, h5_arg1, h4_arg1, h3_arg1, h2_arg1, h1_arg1, h0_arg1]

end Cert.KernelIdeal.HandTail

end
-- ==== Proof.LibMaskFlat.lean ====
import Idealize.ShloMosaic.Lib.ValueIdx

/-!
# A one-bit mask widened to 32 bits and compared with zero is the mask

A mask kept as 32-bit words `0` / `1` (the zero-extension of a one-bit mask), reshaped and compared `≠ 0`, is the
reshaped one-bit mask: zero-extension sends the bit `0` to the word `0` and the bit `1` to the word `1`, so
"the word is not zero" is the bit itself. The reshape reads both masks at the same source index.
-/

namespace Idealize.ShloMosaic.MaskFlat

open Idealize.ShloMosaic

/-- "The zero-extension of a bit is not the zero word" is the bit. -/
theorem cmpi_ne_setWidth_zero (b : BitVec 1) : IntOp.cmpi .ne (b.setWidth 32) 0#32 = b := by
  rcases BitVec.eq_zero_or_eq_one b with h | h <;> subst h <;> decide

/-- The reshape of a zero-extended one-bit mask, compared `≠` with a broadcast zero word, is the reshape of the one-bit
    mask (any shapes; `hsc` and `hsc'` are two proofs of the same reshape condition). -/
theorem cmpi_ne_zero_shapeCast_extui {s t s0 : Shape} (mk32 : IVec s 32) (mk1 : IVec s 1) (h : 1 < 32)
    (hmk : mk32 = extui 32 mk1 h) (hsc hsc' : s.ShapeCasts t) (dims : Fin s0.rank → Fin t.rank)
    (hb : s0.BroadcastsInDim t dims) :
    cmpi .ne (shapeCast t mk32 hsc) (broadcastInDim t dims hb (constantI s0 32 0#32)) = shapeCast t mk1 hsc' := by
  subst hmk
  funext i
  exact cmpi_ne_setWidth_zero _

end Idealize.ShloMosaic.MaskFlat
-- ==== Proof.LibScatterLast.lean ====
import Idealize.ShloMosaic.PureOps.ShapeOps
import Mathlib.Data.List.Sort

/-!
# A replacing scatter keeps the last update that lands on an element

`Host.scatter` is a left fold, over the update indices in row-major order, of the step "the update that
lands on an element replaces it; an update that lands outside the operand is dropped". When the body returns
the update (`fun _ b => b`), the fold's value at an element is decided by the LAST update index landing on it:
no uniqueness of the start indices is needed. This file proves that for an arbitrary list of update indices
and an arbitrary landing function, then reads it for `Host.scatter`.
-/

namespace Idealize.ShloMosaic.ScatterLast

open Idealize.ShloMosaic

section Fold
variable {ι κ α : Type} [DecidableEq κ]

/-- One step of a replacing scatter: update `n` overwrites the element it lands on, when it lands. -/
def step (land : ι → Option κ) (upd : ι → α) (r : κ → α) (n : ι) : κ → α :=
  match land n with
  | some i => fun i' => if i' = i then upd n else r i'
  | none => r

/-- A step read at an element: the update if it lands there, the old element otherwise. -/
theorem step_apply (land : ι → Option κ) (upd : ι → α) (r : κ → α) (n : ι) (p : κ) :
    step land upd r n p = if land n = some p then upd n else r p := by
  unfold step
  cases h : land n with
  | none => simp
  | some i =>
    show (if p = i then upd n else r p) = _
    by_cases hp : p = i
    · subst hp; simp
    · have hne : ¬ (some i = some p) := fun e => hp (Option.some.inj e).symm
      rw [if_neg hp, if_neg hne]

/-- If no update of the list lands on `p`, the fold leaves `p`'s element alone. -/
theorem foldl_none (land : ι → Option κ) (upd : ι → α) (p : κ) :
    ∀ (L : List ι) (x : κ → α), (∀ n ∈ L, land n ≠ some p) → L.foldl (step land upd) x p = x p
  | [], _, _ => rfl
  | a :: L, x, h => by
    rw [List.foldl_cons, foldl_none land upd p L _ (fun n hn => h n (List.mem_cons_of_mem _ hn)), step_apply,
      if_neg (h a List.mem_cons_self)]

/-- In a list ordered by `R`, if update `n` lands on `p` and no update after it does, the fold's element
    at `p` is update `n`'s. -/
theorem foldl_last (R : ι → ι → Prop) (land : ι → Option κ) (upd : ι → α) (p : κ) (n : ι) (hn : land n = some p) :
    ∀ (L : List ι) (x : κ → α), L.Pairwise R → n ∈ L → (∀ m ∈ L, R n m → land m ≠ some p) →
      L.foldl (step land upd) x p = upd n
  | [], _, _, hmem, _ => absurd hmem List.not_mem_nil
  | a :: L, x, hP, hmem, hlast => by
    rw [List.foldl_cons]
    rcases List.mem_cons.1 hmem with rfl | hmem'
    · rw [foldl_none land upd p L _ (fun m hm => hlast m (List.mem_cons_of_mem _ hm) ((List.pairwise_cons.1 hP).1 m hm)),
        step_apply, if_pos hn]
    · exact foldl_last R land upd p n hn L _ (List.pairwise_cons.1 hP).2 hmem'
        (fun m hm => hlast m (List.mem_cons_of_mem _ hm))

/-- Over all of `Fin N` in increasing order: the last update landing on `p` decides `p`'s element. -/
theorem foldl_finRange_last {N : Nat} (land : Fin N → Option κ) (upd : Fin N → α) (x : κ → α) (p : κ) (n : Fin N)
    (hn : land n = some p) (hlast : ∀ m, n < m → land m ≠ some p) :
    (List.finRange N).foldl (step land upd) x p = upd n :=
  foldl_last (· < ·) land upd p n hn _ x (List.sortedLT_finRange N).pairwise (List.mem_finRange n)
    (fun m _ h => hlast m h)

/-- Over all of `Fin N`: if nothing lands on `p`, its element is the operand's. -/
theorem foldl_finRange_none {N : Nat} (land : Fin N → Option κ) (upd : Fin N → α) (x : κ → α) (p : κ)
    (h : ∀ m, land m ≠ some p) : (List.finRange N).foldl (step land upd) x p = x p :=
  foldl_none land upd p _ x (fun m _ => h m)

end Fold

section Scatter
variable {s si u : Shape} {α : Type} {w : Nat}

/-- `Host.scatter` with the replacing body is the fold of `step` over the update positions. -/
theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  refine congrArg (fun f => List.foldl f x (List.finRange u.numel)) ?_
  funext r n
  unfold step
  beta_reduce
  cases d.resultIdx? (u.rowMajor.symm n) idx <;> rfl

/-- A replacing scatter read at `p`: if update index `j` lands on `p` and no update index later in row-major
    order does, the result is `j`'s update. The start indices may repeat. -/
theorem scatter_replace_last (d : ScatterDims s si u) (x : s.Idx → α) (idx : IVec si w) (upd : u.Idx → α)
    (p : s.Idx) (j : u.Idx) (hj : d.resultIdx? j idx = some p)
    (hlast : ∀ j' : u.Idx, u.rowMajor j < u.rowMajor j' → d.resultIdx? j' idx ≠ some p) :
    Host.scatter d (fun _ b => b) x idx upd p = upd j := by
  rw [scatter_eq_foldl]
  refine (foldl_finRange_last _ _ x p (u.rowMajor j) (by simpa using hj) (fun m hm => ?_)).trans (by simp)
  exact hlast (u.rowMajor.symm m) (by simpa using hm)

/-- A replacing scatter read at `p`: if no update index lands on `p`, the result is the operand's element. -/
theorem scatter_replace_none (d : ScatterDims s si u) (x : s.Idx → α) (idx : IVec si w) (upd : u.Idx → α)
    (p : s.Idx) (h : ∀ j : u.Idx, d.resultIdx? j idx ≠ some p) :
    Host.scatter d (fun _ b => b) x idx upd p = x p := by
  rw [scatter_eq_foldl]
  exact foldl_finRange_none _ _ x p (fun m => h _)

/-- Either some update index lands on `p` and none later in row-major order does, or none lands on `p`. -/
theorem exists_last_landing (d : ScatterDims s si u) (idx : IVec si w) (p : s.Idx) :
    (∃ j : u.Idx, d.resultIdx? j idx = some p ∧
        ∀ j' : u.Idx, u.rowMajor j < u.rowMajor j' → d.resultIdx? j' idx ≠ some p) ∨
      ∀ j : u.Idx, d.resultIdx? j idx ≠ some p := by
  classical
  by_cases h : ∃ j : u.Idx, d.resultIdx? j idx = some p
  · left
    obtain ⟨j0, hj0⟩ := h
    obtain ⟨j, hj, hmax⟩ := Finset.exists_max_image (Finset.univ.filter fun j : u.Idx => d.resultIdx? j idx = some p)
      (fun j => u.rowMajor j) ⟨j0, by simp [hj0]⟩
    refine ⟨j, (Finset.mem_filter.1 hj).2, fun j' hlt hj' => ?_⟩
    exact absurd (hmax j' (by simp [hj'])) (not_le.2 hlt)
  · right
    exact fun j hj => h ⟨j, hj⟩

end Scatter

end Idealize.ShloMosaic.ScatterLast
-- ==== Proof.LibScatterCols.lean ====
import Idealize.ShloMosaic.Lib.ValueIdx
import proofs.«123107_j75376676045589_2_alg».proof.Proof.LibScatterLast

/-!
# A row scatter of three columns is three flat scatters

Two configurations of a replacing scatter with one start index per update row (`index_vector_dim = 1`, the
operand's axis 0 inserted and scattered):

* flat: operand `[M]`, scatter indices `[E, 1]`, updates `[E]` — update `e` lands on element `start e`;
* rows: operand `[M, 3]`, scatter indices `[E, 1]`, updates `[E, 3]`, window axis 1 — update `(e, c)` lands on
  `(start e, c)`.

`start e` is the scatter indices' element `(e, 0)` read signed; an update whose start is negative or at least `M`
is dropped. Update `(e, c)` comes later in row-major order than `(e', c)` exactly when `e` comes later than `e'`,
so the last update landing on `(s, c)` in the row scatter is `(e, c)` for the last `e` landing on `s` in the flat
scatter: column `c` of the row scatter is the flat scatter of column `c` of the updates. The start indices may
repeat.
-/

namespace Idealize.ShloMosaic.ScatterCols

open Idealize.ShloMosaic ValueIdx ScatterLast

variable {M E : Nat}

/-- An update index lands on `p` exactly when start plus window coordinate is `p`'s coordinate on every axis. -/
theorem resultIdx?_eq_some_iff {s si u : Shape} {w : Nat} (d : ScatterDims s si u) (j : u.Idx) (idx : IVec si w) (p : s.Idx) :
    d.resultIdx? j idx = some p ↔ ∀ a, d.start j idx a + d.window j a = ((p a).val : Int) := by
  unfold ScatterDims.resultIdx?
  split
  · rename_i h
    rw [Option.some.injEq]
    constructor
    · intro hf a
      have h1 := congrArg Fin.val (congrFun hf a)
      have h2 := (h a).1
      simp only at h1
      omega
    · intro hall
      funext a
      apply Fin.ext
      have := hall a
      simp only
      omega
  · rename_i h
    constructor
    · intro hf; cases hf
    · intro hall
      refine absurd (fun a => ?_) h
      rw [hall a]
      exact ⟨Int.natCast_nonneg _, by exact_mod_cast (p a).isLt⟩

/-! ## The row configuration -/

/-- Rows: every update of row `j 0` reads its start at scatter index `(j 0, 0)`. -/
theorem rows_siIdx (wf) (j : (⟨2, ![E, 3]⟩ : Shape).Idx) (c) :
    (⟨[1], [0], [0], 1, wf⟩ : ScatterDims ⟨2, ![M, 3]⟩ ⟨2, ![E, 1]⟩ ⟨2, ![E, 3]⟩).siIdx j c = ix2 (j 0) (0 : Fin 1) := by
  funext b
  match b with
  | ⟨0, _⟩ => rfl
  | ⟨1, _⟩ => exact Fin.ext (show c.val = 0 from Nat.lt_one_iff.1 c.isLt)

/-- Rows: the start on operand axis 0 is the scatter indices' element `(j 0, 0)`, read signed. -/
theorem rows_start0 (wf) (idx : IVec ⟨2, ![E, 1]⟩ 32) (j : (⟨2, ![E, 3]⟩ : Shape).Idx) :
    (⟨[1], [0], [0], 1, wf⟩ : ScatterDims ⟨2, ![M, 3]⟩ ⟨2, ![E, 1]⟩ ⟨2, ![E, 3]⟩).start j idx 0
      = (idx (ix2 (j 0) (0 : Fin 1))).toInt := by
  unfold ScatterDims.start
  rw [dif_pos (List.mem_singleton.2 rfl)]
  exact congrArg (fun k => (idx k).toInt) (rows_siIdx wf j _)

/-- Rows: operand axis 1 is not scattered; its start is 0. -/
theorem rows_start1 (wf) (idx : IVec ⟨2, ![E, 1]⟩ 32) (j : (⟨2, ![E, 3]⟩ : Shape).Idx) :
    (⟨[1], [0], [0], 1, wf⟩ : ScatterDims ⟨2, ![M, 3]⟩ ⟨2, ![E, 1]⟩ ⟨2, ![E, 3]⟩).start j idx 1 = 0 := by
  unfold ScatterDims.start
  rw [dif_neg (by simp)]

/-- Rows: operand axis 0 is inserted; its window coordinate is 0. -/
theorem rows_window0 (wf) (j : (⟨2, ![E, 3]⟩ : Shape).Idx) :
    (⟨[1], [0], [0], 1, wf⟩ : ScatterDims ⟨2, ![M, 3]⟩ ⟨2, ![E, 1]⟩ ⟨2, ![E, 3]⟩).window j 0 = 0 := rfl

/-- Rows: operand axis 1 is the window axis; its window coordinate is the update's column. -/
theorem rows_window1 (wf) (j : (⟨2, ![E, 3]⟩ : Shape).Idx) :
    (⟨[1], [0], [0], 1, wf⟩ : ScatterDims ⟨2, ![M, 3]⟩ ⟨2, ![E, 1]⟩ ⟨2, ![E, 3]⟩).window j 1 = (j 1).val := rfl

/-! ## The flat configuration -/

/-- Flat: update `j 0` reads its start at scatter index `(j 0, 0)`. -/
theorem flat_siIdx (wf) (j : (⟨1, ![E]⟩ : Shape).Idx) (c) :
    (⟨[], [0], [0], 1, wf⟩ : ScatterDims ⟨1, ![M]⟩ ⟨2, ![E, 1]⟩ ⟨1, ![E]⟩).siIdx j c = ix2 (j 0) (0 : Fin 1) := by
  funext b
  match b with
  | ⟨0, _⟩ => rfl
  | ⟨1, _⟩ => exact Fin.ext (show c.val = 0 from Nat.lt_one_iff.1 c.isLt)

/-- Flat: the start is the scatter indices' element `(j 0, 0)`, read signed. -/
theorem flat_start0 (wf) (idx : IVec ⟨2, ![E, 1]⟩ 32) (j : (⟨1, ![E]⟩ : Shape).Idx) :
    (⟨[], [0], [0], 1, wf⟩ : ScatterDims ⟨1, ![M]⟩ ⟨2, ![E, 1]⟩ ⟨1, ![E]⟩).start j idx 0
      = (idx (ix2 (j 0) (0 : Fin 1))).toInt := by
  unfold ScatterDims.start
  rw [dif_pos (List.mem_singleton.2 rfl)]
  exact congrArg (fun k => (idx k).toInt) (flat_siIdx wf j _)

/-- Flat: the operand's one axis is inserted; its window coordinate is 0. -/
theorem flat_window0 (wf) (j : (⟨1, ![E]⟩ : Shape).Idx) :
    (⟨[], [0], [0], 1, wf⟩ : ScatterDims ⟨1, ![M]⟩ ⟨2, ![E, 1]⟩ ⟨1, ![E]⟩).window j 0 = 0 := rfl

/-! ## Where an update lands -/

/-- Rows: update `j` lands on `(s, c)` exactly when its row's start is `s` and its column is `c`. -/
theorem rows_landing (wf) (idx : IVec ⟨2, ![E, 1]⟩ 32) (j : (⟨2, ![E, 3]⟩ : Shape).Idx) (s : Fin M) (c : Fin 3) :
    (⟨[1], [0], [0], 1, wf⟩ : ScatterDims ⟨2, ![M, 3]⟩ ⟨2, ![E, 1]⟩ ⟨2, ![E, 3]⟩).resultIdx? j idx = some (ix2 s c)
      ↔ (idx (ix2 (j 0) (0 : Fin 1))).toInt = s.val ∧ (j 1).val = c.val := by
  rw [resultIdx?_eq_some_iff]
  constructor
  · intro h
    have h0 : _ + _ = ((s.val : Nat) : Int) := h 0
    have h1 : _ + _ = ((c.val : Nat) : Int) := h 1
    rw [rows_start0, rows_window0] at h0
    rw [rows_start1, rows_window1] at h1
    exact ⟨by simpa using h0, by simpa using h1⟩
  · rintro ⟨h0, h1⟩ a
    match a with
    | ⟨0, _⟩ =>
      show ScatterDims.start _ _ _ 0 + ((ScatterDims.window _ _ 0 : Nat) : Int) = ((s.val : Nat) : Int)
      rw [rows_start0, rows_window0]; simpa using h0
    | ⟨1, _⟩ =>
      show ScatterDims.start _ _ _ 1 + ((ScatterDims.window _ _ 1 : Nat) : Int) = ((c.val : Nat) : Int)
      rw [rows_start1, rows_window1]; simpa using h1

/-- Flat: update `j` lands on `s` exactly when its start is `s`. -/
theorem flat_landing (wf) (idx : IVec ⟨2, ![E, 1]⟩ 32) (j : (⟨1, ![E]⟩ : Shape).Idx) (s : Fin M) :
    (⟨[], [0], [0], 1, wf⟩ : ScatterDims ⟨1, ![M]⟩ ⟨2, ![E, 1]⟩ ⟨1, ![E]⟩).resultIdx? j idx = some (ix1 s)
      ↔ (idx (ix2 (j 0) (0 : Fin 1))).toInt = s.val := by
  rw [resultIdx?_eq_some_iff]
  constructor
  · intro h
    have h0 : _ + _ = ((s.val : Nat) : Int) := h 0
    rw [flat_start0, flat_window0] at h0
    simpa using h0
  · intro h0 a
    match a with
    | ⟨0, _⟩ =>
      show ScatterDims.start _ _ _ 0 + ((ScatterDims.window _ _ 0 : Nat) : Int) = ((s.val : Nat) : Int)
      rw [flat_start0, flat_window0]; simpa using h0

/-! ## Column `c` of the row scatter is the flat scatter of column `c` -/

/-- Over a constant operand, the row scatter read at `(s, c)` is the flat scatter of the updates' column `c` read at
    `s`: the two records are any with the two configurations' dimension numbers. -/
theorem scatter_rows_eq_cols (d3 : ScatterDims ⟨2, ![M, 3]⟩ ⟨2, ![E, 1]⟩ ⟨2, ![E, 3]⟩)
    (d1 : ScatterDims ⟨1, ![M]⟩ ⟨2, ![E, 1]⟩ ⟨1, ![E]⟩)
    (h3u : d3.updateWindowDims = [1]) (h3i : d3.insertedWindowDims = [0])
    (h3s : d3.scatterDimsToOperandDims = [0]) (h3v : d3.indexVectorDim = 1)
    (h1u : d1.updateWindowDims = []) (h1i : d1.insertedWindowDims = [0])
    (h1s : d1.scatterDimsToOperandDims = [0]) (h1v : d1.indexVectorDim = 1)
    {α : Type} (z : α) (idx : IVec ⟨2, ![E, 1]⟩ 32) (U : (⟨2, ![E, 3]⟩ : Shape).Idx → α) (s : Fin M) (c : Fin 3) :
    Host.scatter d3 (fun _ b => b) (fun _ => z) idx U (ix2 s c)
      = Host.scatter d1 (fun _ b => b) (fun _ => z) idx (fun e => U (ix2 (e 0) c)) (ix1 s) := by
  obtain ⟨uw3, iw3, sd3, iv3, wf3⟩ := d3
  obtain ⟨uw1, iw1, sd1, iv1, wf1⟩ := d1
  dsimp only at h3u h3i h3s h3v h1u h1i h1s h1v
  subst h3u h3i h3s h3v h1u h1i h1s h1v
  rcases exists_last_landing (⟨[], [0], [0], 1, wf1⟩ : ScatterDims ⟨1, ![M]⟩ ⟨2, ![E, 1]⟩ ⟨1, ![E]⟩) idx (ix1 s)
    with ⟨j, hj, hlast⟩ | hnone
  · rw [scatter_replace_last _ _ idx _ (ix1 s) j hj hlast]
    have hj' := (flat_landing wf1 idx j s).1 hj
    refine scatter_replace_last _ _ idx U (ix2 s c) (ix2 (j 0) c) ((rows_landing wf3 idx _ s c).2 ⟨hj', rfl⟩)
      (fun j' hlt hl => ?_)
    obtain ⟨h0, h1⟩ := (rows_landing wf3 idx j' s c).1 hl
    refine hlast (ix1 (j' 0)) ?_ ((flat_landing wf1 idx _ s).2 h0)
    rw [Fin.lt_def, Shape.rowMajor_val_two, Shape.rowMajor_val_two] at hlt
    rw [Fin.lt_def, Shape.rowMajor_val_one, Shape.rowMajor_val_one]
    have hlt' : (j 0).val * 3 + c.val < (j' 0).val * 3 + (j' 1).val := hlt
    show (j 0).val < (j' 0).val
    omega
  · rw [scatter_replace_none _ _ idx _ (ix1 s) hnone]
    exact scatter_replace_none _ _ idx U (ix2 s c) (fun j' hl =>
      hnone (ix1 (j' 0)) ((flat_landing wf1 idx _ s).2 ((rows_landing wf3 idx j' s c).1 hl).1))

end Idealize.ShloMosaic.ScatterCols
-- ==== Proof.LibEdgeVec.lean ====
import Idealize.ShloMosaic.Lib.ValueIdx
import Idealize.ShloMosaic.Lib.Pipeline.Value
import proofs.«123107_j75376676045589_2_alg».proof.Proof.LibScatterCols

/-!
# Three scattered columns, stacked, are one row scatter

One program keeps a vector field component-major, `vecK : [3, 4096, 4096]`, scatters each component's flattening
`[16777216]` into its own array `[524288]` (replacing scatter, one start index per update, mode drop), and stacks the
three results as the columns of a `[524288, 3]` array. The other keeps the field component-minor,
`vecR : [4096, 4096, 3]`, and scatters the rows of its flattening `[16777216, 3]` into `[524288, 3]` in one row scatter.
With `vecK (c, i, j) = vecR (i, j, c)`, the same start indices and the same fill value, the two arrays are equal:
read at `(s, c)`, the stack is column `c` at row `s`, the flat scatter of component `c`; the row scatter at `(s, c)` is
the flat scatter of column `c` of the rows; and element `n = i * 4096 + j` of component `c`'s flattening is
`vecK (c, i, j)`, element `(n, c)` of the rows is `vecR (i, j, c)`.
-/

namespace Idealize.ShloMosaic.EdgeVec

open Idealize.ShloMosaic ValueIdx

variable {α : Type}

/-- A broadcast scalar is the constant array. -/
theorem broadcastInDim_scalar {t : Shape} (dims : Fin (⟨0, ![]⟩ : Shape).rank → Fin t.rank)
    (hb : (⟨0, ![]⟩ : Shape).BroadcastsInDim t dims) (zero : (⟨0, ![]⟩ : Shape).Idx → α) :
    broadcastInDim t dims hb zero = fun _ => zero ix0 := by
  funext j
  unfold broadcastInDim
  exact congrArg zero (funext fun a => a.elim0)

/-- A vector `[M]` broadcast to a column `[M, 1]` reads, at row `s`, the vector's element `s`. -/
theorem broadcastInDim_col_apply {M : Nat} (hb : (⟨1, ![M]⟩ : Shape).BroadcastsInDim ⟨2, ![M, 1]⟩ ![0])
    (x : (⟨1, ![M]⟩ : Shape).Idx → α) (s : Fin M) (o : Fin 1) :
    broadcastInDim ⟨2, ![M, 1]⟩ ![0] hb x (ix2 s o) = x (ix1 s) := by
  refine broadcastInDim_apply _ hb x (ix2 s o) (ix1 s) (fun a => ?_)
  match a with
  | ⟨0, _⟩ =>
    show s.val = if M = 1 then 0 else s.val
    split
    · have := s.isLt; omega
    · rfl

/-- Three columns `[M, 1]` concatenated along axis 1, read at `(s, c)`: column `c` at row `s`. -/
theorem concatenate_cols3_apply {M : Nat} (x0 x1 x2 : (⟨2, ![M, 1]⟩ : Shape).Idx → α)
    (h : Shape.Concatenates [⟨2, ![M, 1]⟩, ⟨2, ![M, 1]⟩, ⟨2, ![M, 1]⟩] ⟨2, ![M, 3]⟩ 1) (s : Fin M) (c : Fin 3) :
    concatenate ⟨2, ![M, 3]⟩ 1 [⟨⟨2, ![M, 1]⟩, x0⟩, ⟨⟨2, ![M, 1]⟩, x1⟩, ⟨⟨2, ![M, 1]⟩, x2⟩] h (ix2 s c)
      = (match c with | ⟨0, _⟩ => x0 | ⟨1, _⟩ => x1 | ⟨2, _⟩ => x2) (ix2 s (0 : Fin 1)) := by
  have hi : ∀ b : Fin (⟨2, ![M, 1]⟩ : Shape).rank, b.cast (rfl : (⟨2, ![M, 1]⟩ : Shape).rank = (⟨2, ![M, 3]⟩ : Shape).rank) ≠ 1 →
      ((ix2 s (0 : Fin 1)) b).val = ((ix2 s c) (b.cast rfl)).val := fun b hb => by
    match b with
    | ⟨0, _⟩ => rfl
    | ⟨1, _⟩ => exact absurd rfl hb
  match c with
  | ⟨0, _⟩ =>
    exact concatenate_apply_piece (t := ⟨2, ![M, 3]⟩) 1 [⟨⟨2, ![M, 1]⟩, x0⟩, ⟨⟨2, ![M, 1]⟩, x1⟩, ⟨⟨2, ![M, 1]⟩, x2⟩] h
      (ix2 s ⟨0, by omega⟩) 0 (by simp) ⟨2, ![M, 1]⟩ x0 rfl rfl 0 rfl (ix2 s 0) hi rfl
  | ⟨1, _⟩ =>
    exact concatenate_apply_piece (t := ⟨2, ![M, 3]⟩) 1 [⟨⟨2, ![M, 1]⟩, x0⟩, ⟨⟨2, ![M, 1]⟩, x1⟩, ⟨⟨2, ![M, 1]⟩, x2⟩] h
      (ix2 s ⟨1, by omega⟩) 1 (by simp) ⟨2, ![M, 1]⟩ x1 rfl rfl 1 rfl (ix2 s 0) hi rfl
  | ⟨2, _⟩ =>
    exact concatenate_apply_piece (t := ⟨2, ![M, 3]⟩) 1 [⟨⟨2, ![M, 1]⟩, x0⟩, ⟨⟨2, ![M, 1]⟩, x1⟩, ⟨⟨2, ![M, 1]⟩, x2⟩] h
      (ix2 s ⟨2, by omega⟩) 2 (by simp) ⟨2, ![M, 1]⟩ x2 rfl rfl 2 rfl (ix2 s 0) hi rfl

/-- Component `c` of the component-major array `[3, 4096, 4096]`, sliced out, squeezed and flattened, is column `c` of the
    flattened component-minor array `[4096, 4096, 3]` when the two arrays agree element by element. -/
theorem col_updates (o : Nat) (c : Fin 3) (ho : o = c.val)
    (vecK : (⟨3, ![3, 4096, 4096]⟩ : Shape).Idx → α) (vecR : (⟨3, ![4096, 4096, 3]⟩ : Shape).Idx → α)
    (hvec : ∀ i j : Fin 4096, vecK (ix3 c i j) = vecR (ix3 i j c))
    (hsl : (⟨3, ![3, 4096, 4096]⟩ : Shape).Slices ![o, 0, 0] ⟨3, ![1, 4096, 4096]⟩)
    (hsc1 : (⟨3, ![1, 4096, 4096]⟩ : Shape).ShapeCasts ⟨2, ![4096, 4096]⟩)
    (hsc2 : (⟨2, ![4096, 4096]⟩ : Shape).ShapeCasts ⟨1, ![16777216]⟩)
    (hsc3 : (⟨3, ![4096, 4096, 3]⟩ : Shape).ShapeCasts ⟨2, ![16777216, 3]⟩) :
    shapeCast ⟨1, ![16777216]⟩ (shapeCast ⟨2, ![4096, 4096]⟩ (extractStridedSlice ⟨3, ![1, 4096, 4096]⟩ ![o, 0, 0] vecK hsl) hsc1) hsc2
      = fun e => shapeCast ⟨2, ![16777216, 3]⟩ vecR hsc3 (ix2 (e 0) c) := by
  funext e
  obtain ⟨n, rfl⟩ : ∃ n : Fin 16777216, e = ix1 n := ⟨e 0, eq_ix1 e⟩
  have hi : n.val / 4096 < 4096 := by have := n.isLt; omega
  have hj : n.val % 4096 < 4096 := Nat.mod_lt _ (by decide)
  have hn : n.val / 4096 * 4096 + n.val % 4096 = n.val := Nat.div_add_mod' _ _
  generalize hI : (⟨n.val / 4096, hi⟩ : Fin 4096) = i
  generalize hJ : (⟨n.val % 4096, hj⟩ : Fin 4096) = j
  have hij : i.val * 4096 + j.val = n.val := by subst hI hJ; exact hn
  refine (shapeCast_apply _ hsc2 (ix1 n) (ix2 i j) ?_).trans ?_
  · rw [Shape.rowMajor_val_two, Shape.rowMajor_val_one]; exact hij
  refine (shapeCast_apply _ hsc1 (ix2 i j) (ix3 (0 : Fin 1) i j) ?_).trans ?_
  · rw [Shape.rowMajor_val_three, Shape.rowMajor_val_two]
    show (0 * 4096 + i.val) * 4096 + j.val = i.val * 4096 + j.val
    omega
  refine (extractStridedSlice_apply _ vecK hsl (ix3 (0 : Fin 1) i j) (ix3 c i j) (fun a => ?_)).trans ?_
  · match a with
    | ⟨0, _⟩ => show c.val = o + 0; omega
    | ⟨1, _⟩ => show i.val = 0 + i.val; omega
    | ⟨2, _⟩ => show j.val = 0 + j.val; omega
  refine (hvec i j).trans ?_
  symm
  refine shapeCast_apply vecR hsc3 (ix2 n c) (ix3 i j c) ?_
  rw [Shape.rowMajor_val_three, Shape.rowMajor_val_two]
  show (i.val * 4096 + j.val) * 3 + c.val = n.val * 3 + c.val
  omega

/-- The three flat scatters of the components of `vecK : [3, 4096, 4096]`, stacked as columns, are the one row scatter
    of `vecR : [4096, 4096, 3]` flattened to rows, when `vecK (c, i, j) = vecR (i, j, c)` everywhere: both scatter into
    an array filled with the scalar `zero`, at the same start indices `idx`, which may repeat. -/
theorem edge_vec_eq
    (d1 : ScatterDims ⟨1, ![524288]⟩ ⟨2, ![16777216, 1]⟩ ⟨1, ![16777216]⟩)
    (d3 : ScatterDims ⟨2, ![524288, 3]⟩ ⟨2, ![16777216, 1]⟩ ⟨2, ![16777216, 3]⟩)
    (h3u : d3.updateWindowDims = [1]) (h3i : d3.insertedWindowDims = [0])
    (h3s : d3.scatterDimsToOperandDims = [0]) (h3v : d3.indexVectorDim = 1)
    (h1u : d1.updateWindowDims = []) (h1i : d1.insertedWindowDims = [0])
    (h1s : d1.scatterDimsToOperandDims = [0]) (h1v : d1.indexVectorDim = 1)
    (hsl0 : (⟨3, ![3, 4096, 4096]⟩ : Shape).Slices ![0, 0, 0] ⟨3, ![1, 4096, 4096]⟩)
    (hsl1 : (⟨3, ![3, 4096, 4096]⟩ : Shape).Slices ![1, 0, 0] ⟨3, ![1, 4096, 4096]⟩)
    (hsl2 : (⟨3, ![3, 4096, 4096]⟩ : Shape).Slices ![2, 0, 0] ⟨3, ![1, 4096, 4096]⟩)
    (hsc1 : (⟨3, ![1, 4096, 4096]⟩ : Shape).ShapeCasts ⟨2, ![4096, 4096]⟩)
    (hsc2 : (⟨2, ![4096, 4096]⟩ : Shape).ShapeCasts ⟨1, ![16777216]⟩)
    (hb0 : (⟨0, ![]⟩ : Shape).BroadcastsInDim ⟨1, ![524288]⟩ (![] : Fin 0 → Fin (⟨1, ![524288]⟩ : Shape).rank))
    (hb1 : (⟨1, ![524288]⟩ : Shape).BroadcastsInDim ⟨2, ![524288, 1]⟩ (![0] : Fin 1 → Fin (⟨2, ![524288, 1]⟩ : Shape).rank))
    (hcat : Shape.Concatenates [⟨2, ![524288, 1]⟩, ⟨2, ![524288, 1]⟩, ⟨2, ![524288, 1]⟩] ⟨2, ![524288, 3]⟩ 1)
    (hb3 : (⟨0, ![]⟩ : Shape).BroadcastsInDim ⟨2, ![524288, 3]⟩ (![] : Fin 0 → Fin (⟨2, ![524288, 3]⟩ : Shape).rank))
    (hsc3 : (⟨3, ![4096, 4096, 3]⟩ : Shape).ShapeCasts ⟨2, ![16777216, 3]⟩)
    (zero : (⟨0, ![]⟩ : Shape).Idx → α) (idx : IVec ⟨2, ![16777216, 1]⟩ 32)
    (vecK : (⟨3, ![3, 4096, 4096]⟩ : Shape).Idx → α) (vecR : (⟨3, ![4096, 4096, 3]⟩ : Shape).Idx → α)
    (hvec : ∀ (c : Fin 3) (i j : Fin 4096), vecK (ix3 c i j) = vecR (ix3 i j c)) :
    concatenate ⟨2, ![524288, 3]⟩ 1
        [⟨⟨2, ![524288, 1]⟩, broadcastInDim ⟨2, ![524288, 1]⟩ ![0] hb1
          (Host.scatter d1 (fun _ b => b) (broadcastInDim ⟨1, ![524288]⟩ ![] hb0 zero) idx
            (shapeCast ⟨1, ![16777216]⟩ (shapeCast ⟨2, ![4096, 4096]⟩
              (extractStridedSlice ⟨3, ![1, 4096, 4096]⟩ ![0, 0, 0] vecK hsl0) hsc1) hsc2))⟩,
         ⟨⟨2, ![524288, 1]⟩, broadcastInDim ⟨2, ![524288, 1]⟩ ![0] hb1
          (Host.scatter d1 (fun _ b => b) (broadcastInDim ⟨1, ![524288]⟩ ![] hb0 zero) idx
            (shapeCast ⟨1, ![16777216]⟩ (shapeCast ⟨2, ![4096, 4096]⟩
              (extractStridedSlice ⟨3, ![1, 4096, 4096]⟩ ![1, 0, 0] vecK hsl1) hsc1) hsc2))⟩,
         ⟨⟨2, ![524288, 1]⟩, broadcastInDim ⟨2, ![524288, 1]⟩ ![0] hb1
          (Host.scatter d1 (fun _ b => b) (broadcastInDim ⟨1, ![524288]⟩ ![] hb0 zero) idx
            (shapeCast ⟨1, ![16777216]⟩ (shapeCast ⟨2, ![4096, 4096]⟩
              (extractStridedSlice ⟨3, ![1, 4096, 4096]⟩ ![2, 0, 0] vecK hsl2) hsc1) hsc2))⟩] hcat
      = Host.scatter d3 (fun _ b => b) (broadcastInDim ⟨2, ![524288, 3]⟩ ![] hb3 zero) idx
          (shapeCast ⟨2, ![16777216, 3]⟩ vecR hsc3) := by
  funext p
  obtain ⟨s, c, rfl⟩ : ∃ (s : Fin 524288) (c : Fin 3), p = ix2 s c := ⟨p 0, p 1, eq_ix2 p⟩
  rw [broadcastInDim_scalar _ hb3 zero, broadcastInDim_scalar _ hb0 zero]
  refine (concatenate_cols3_apply _ _ _ hcat s c).trans ?_
  refine Eq.trans ?_ (ScatterCols.scatter_rows_eq_cols d3 d1 h3u h3i h3s h3v h1u h1i h1s h1v (zero ix0) idx _ s c).symm
  match c with
  | ⟨0, _⟩ =>
    refine (broadcastInDim_col_apply hb1 _ s 0).trans ?_
    exact congrArg (fun W => Host.scatter d1 (fun _ b => b) (fun _ => zero ix0) idx W (ix1 s))
      (col_updates 0 ⟨0, by omega⟩ rfl vecK vecR (hvec _) hsl0 hsc1 hsc2 hsc3)
  | ⟨1, _⟩ =>
    refine (broadcastInDim_col_apply hb1 _ s 0).trans ?_
    exact congrArg (fun W => Host.scatter d1 (fun _ b => b) (fun _ => zero ix0) idx W (ix1 s))
      (col_updates 1 ⟨1, by omega⟩ rfl vecK vecR (hvec _) hsl1 hsc1 hsc2 hsc3)
  | ⟨2, _⟩ =>
    refine (broadcastInDim_col_apply hb1 _ s 0).trans ?_
    exact congrArg (fun W => Host.scatter d1 (fun _ b => b) (fun _ => zero ix0) idx W (ix1 s))
      (col_updates 2 ⟨2, by omega⟩ rfl vecK vecR (hvec _) hsl2 hsc1 hsc2 hsc3)

end Idealize.ShloMosaic.EdgeVec
-- ==== Proof.KIEq.lean ====
/-
  The kernel program's host terms (KITerms.lean) are the reference's (RefTerms.lean): the slot, the point-number
  rows and the distance scatter are the same operations over the two programs' own side conditions and dimension
  records, which differ in name only; the flat mask of a zero-extended one-bit mask is the one-bit mask's reshape;
  and the three scattered components stacked as columns are the one row scatter of the component-minor vectors.
-/
import proofs.«123107_j75376676045589_2_alg».proof.Proof.RefTerms
import proofs.«123107_j75376676045589_2_alg».proof.Proof.KITerms
import proofs.«123107_j75376676045589_2_alg».proof.Proof.LibMaskFlat
import proofs.«123107_j75376676045589_2_alg».proof.Proof.LibEdgeVec

noncomputable section

namespace Cert.KernelIdeal.HandTail

open Cert.KernelIdeal Idealize.ShloMosaic Idealize.ShloMosaic.ValueIdx
open Cert.KernelIdeal.Facts₀ Cert.KernelIdeal.Facts

variable {F : FTy → Type} [FloatOps F] [Cert.KernelIdeal.Facts] [Cert.ReferenceIdeal.Facts]

-- the folds are never opened: each side of an equation below holds the same applications of them
attribute [local irreducible] Host.scatter Host.reduceWindow

/-- The flat mask of a zero-extended one-bit mask is the reference's flat mask of the one-bit mask. -/
theorem flatMaskK_extui (mk1 : IVec S4096x4096 1) (h : 1 < 32) :
    flatMaskK (extui 32 mk1 h) = Cert.ReferenceIdeal.Hand.flatMaskR mk1 :=
  MaskFlat.cmpi_ne_zero_shapeCast_extui (extui 32 mk1 h) mk1 h rfl _ _ _ _

/-- The slot of a flat mask: the same operations in both programs. -/
theorem slotK_eq (fm : IVec S16777216 1) : slotK fm = Cert.ReferenceIdeal.Hand.slotR fm := rfl

/-- The scatter's index column: the same operations in both programs. -/
theorem slotColK_eq (sl : IVec S16777216 32) : slotColK sl = Cert.ReferenceIdeal.Hand.slotColR sl := rfl

/-- The two rows of point numbers: the same operations in both programs. -/
theorem edgeIndexOfSlotK_eq (sl : IVec S16777216 32) :
    edgeIndexOfSlotK sl = Cert.ReferenceIdeal.Hand.edgeIndexOfSlotR sl := rfl

/-- The scattered distances: the same operations in both programs. -/
theorem edgeWeightOfSlotK_eq (sl : IVec S16777216 32) (d : FVec F S4096x4096 .f32) :
    edgeWeightOfSlotK sl d = Cert.ReferenceIdeal.Hand.edgeWeightOfSlotR sl d := rfl

/-- The scattered difference vectors: three column scatters of the component-major array against one row scatter of
    the component-minor array. -/
theorem edgeVecOfSlotK_eq (sl : IVec S16777216 32) (vK : FVec F S3x4096x4096 .f32)
    (vR : FVec F Cert.ReferenceIdeal.S4096x4096x3 .f32)
    (hvec : ∀ (c : Fin 3) (i j : Fin 4096), vK (ix3 c i j) = vR (ix3 i j c)) :
    edgeVecOfSlotK sl vK = Cert.ReferenceIdeal.Hand.edgeVecOfSlotR sl vR :=
  EdgeVec.edge_vec_eq scatter_S524288_S16777216x1_S16777216_n_0_0_1
    Cert.ReferenceIdeal.scatter_S524288x3_S16777216x1_S16777216x3_1_0_0_1
    rfl rfl rfl rfl rfl rfl rfl rfl
    slices_S3x4096x4096_S1x4096x4096_0_0_0 slices_S3x4096x4096_S1x4096x4096_1_0_0 slices_S3x4096x4096_S1x4096x4096_2_0_0
    shapeCasts_S1x4096x4096_S4096x4096 shapeCasts_S4096x4096_S16777216 bcast_S_S524288 bcast_S524288_S524288x1_0
    concatenates_S524288x1_S524288x1_S524288x1_S524288x3_d1
    Cert.ReferenceIdeal.Facts₀.bcast_S_S524288x3 Cert.ReferenceIdeal.Facts₀.shapeCasts_S4096x4096x3_S16777216x3
    (constant S_ .f32 0x00000000#32) (slotColK sl) vK vR hvec

end Cert.KernelIdeal.HandTail

end
-- ==== Proof.KITail.lean ====
/-
  The kernel program's host lines after its region, assembled: the slot stretch (KISlot.lean) and the result
  stretch (KIReads4.lean) read as the kernel-side terms of KITerms.lean, and those terms are the reference's
  (KIEq.lean).
-/
import proofs.«123107_j75376676045589_2_alg».proof.Proof.Gen.KernelIdeal.Launch
import proofs.«123107_j75376676045589_2_alg».proof.Proof.RefTerms
import proofs.«123107_j75376676045589_2_alg».proof.Proof.KITerms
import proofs.«123107_j75376676045589_2_alg».proof.Proof.KISlot
import proofs.«123107_j75376676045589_2_alg».proof.Proof.KIReads4
import proofs.«123107_j75376676045589_2_alg».proof.Proof.KIEq
import Idealize.ShloMosaic.Lib.StableHlo.Run
import Idealize.ShloMosaic.Lib.ValueIdx

noncomputable section

namespace Cert.KernelIdeal.HandTail

open Cert.KernelIdeal Idealize.ShloMosaic Idealize.ShloMosaic.TcCoe Idealize.SL.Sem Idealize.ShloMosaic.StableHlo
open Idealize.ShloMosaic.ValueIdx
open Cert.KernelIdeal.Facts₀ Cert.KernelIdeal.Facts

variable [Cert.KernelIdeal.Facts] [Cert.ReferenceIdeal.Facts]

/-- The kernel program's host lines after its region, read over ANY contents `W2` of the buffers whose three
    kernel results are a zero-extended one-bit mask `mk1`, a distance array `dK` and difference vectors that agree
    with `vR` component for component: the three results are the reference's terms of `mk1`, `dK`, `vR`, and the two
    arguments are as they were. -/
theorem tail_reads (W2 : Valuation τ sig (Elt Ideal)) (mk1 : IVec S4096x4096 1) (dK : FVec Ideal S4096x4096 .f32)
    (vR : FVec Ideal Cert.ReferenceIdeal.S4096x4096x3 .f32)
    (hmask : W2 (Proc.devRef .tc main_v2_2) = extui 32 mk1 (by decide))
    (hdist : W2 (Proc.devRef .tc main_v2_1) = dK)
    (hvec : ∀ (c : Fin 3) (i j : Fin 4096), (W2 (Proc.devRef .tc main_v2_0) : S3x4096x4096.Idx → Ideal .f32) (ix3 c i j) = vR (ix3 i j c)) :
    after (Gen.hostOps1_4 (F := Ideal)) (after (Gen.hostOps1_3 (F := Ideal)) (after (Gen.hostOps1_2 (F := Ideal)) (after (Gen.hostOps1_1 (F := Ideal)) (after (Gen.hostOps1 (F := Ideal)) W2)))) (Proc.devRef .tc main_v40)
        = Cert.ReferenceIdeal.Hand.edgeIndexR mk1
    ∧ after (Gen.hostOps1_4 (F := Ideal)) (after (Gen.hostOps1_3 (F := Ideal)) (after (Gen.hostOps1_2 (F := Ideal)) (after (Gen.hostOps1_1 (F := Ideal)) (after (Gen.hostOps1 (F := Ideal)) W2)))) (Proc.devRef .tc main_v49)
        = Cert.ReferenceIdeal.Hand.edgeWeightR mk1 dK
    ∧ after (Gen.hostOps1_4 (F := Ideal)) (after (Gen.hostOps1_3 (F := Ideal)) (after (Gen.hostOps1_2 (F := Ideal)) (after (Gen.hostOps1_1 (F := Ideal)) (after (Gen.hostOps1 (F := Ideal)) W2)))) (Proc.devRef .tc main_v86)
        = Cert.ReferenceIdeal.Hand.edgeVecR mk1 vR
    ∧ after (Gen.hostOps1_4 (F := Ideal)) (after (Gen.hostOps1_3 (F := Ideal)) (after (Gen.hostOps1_2 (F := Ideal)) (after (Gen.hostOps1_1 (F := Ideal)) (after (Gen.hostOps1 (F := Ideal)) W2)))) (Proc.devRef .tc main_arg0)
        = W2 (Proc.devRef .tc main_arg0)
    ∧ after (Gen.hostOps1_4 (F := Ideal)) (after (Gen.hostOps1_3 (F := Ideal)) (after (Gen.hostOps1_2 (F := Ideal)) (after (Gen.hostOps1_1 (F := Ideal)) (after (Gen.hostOps1 (F := Ideal)) W2)))) (Proc.devRef .tc main_arg1)
        = W2 (Proc.devRef .tc main_arg1) := by
  obtain ⟨h40, h49, h86, ha0, ha1⟩ := after_ops4 (F := Ideal)
    (after (Gen.hostOps1_3 (F := Ideal)) (after (Gen.hostOps1_2 (F := Ideal)) (after (Gen.hostOps1_1 (F := Ideal)) (after (Gen.hostOps1 (F := Ideal)) W2))))
  obtain ⟨k21, k20, k0, k1⟩ := after_slot_keeps (F := Ideal) W2
  have h13 := after_slot_v13 (F := Ideal) W2
  have hsl : after (Gen.hostOps1_3 (F := Ideal)) (after (Gen.hostOps1_2 (F := Ideal)) (after (Gen.hostOps1_1 (F := Ideal)) (after (Gen.hostOps1 (F := Ideal)) W2))) (main_v13 : DevRef τ sig)
      = Cert.ReferenceIdeal.Hand.slotR (Cert.ReferenceIdeal.Hand.flatMaskR mk1) := by
    rw [h13, hmask, flatMaskK_extui, slotK_eq]
  refine ⟨?_, ?_, ?_, ?_, ?_⟩
  · rw [h40, hsl, edgeIndexOfSlotK_eq]; rfl
  · rw [h49, hsl, k21, hdist, edgeWeightOfSlotK_eq]; rfl
  · rw [h86, hsl, k20, edgeVecOfSlotK_eq _ _ vR hvec]; rfl
  · rw [ha0, k0]
  · rw [ha1, k1]

end Cert.KernelIdeal.HandTail

end
-- ==== Proof.RefAt.lean ====
/-
  The reference's three pairwise arrays at one index. For positions `x` and batch ids `b`, the
  displacement array at `(i, j, c)`, the distance array at `(i, j)` and the mask array at `(i, j)`
  are the specification (`Spec.lean`) at that pair: `vecR_at`, `distR_at`, `maskR_at`. Each
  broadcast reads its operand at the coordinates it keeps; the sum over the last axis is
  `0 + (a₀ + a₁ + a₂)`, which is the specification's association once the zero is dropped; the
  guarded square root and the comparisons are the same scalar expressions; and "not (i + 0 = j)" on
  32-bit words is "i ≠ j" because a point number is below `4096`.
-/
import proofs.«123107_j75376676045589_2_alg».proof.Proof.Spec
import proofs.«123107_j75376676045589_2_alg».proof.ReferenceIdeal
import proofs.«123107_j75376676045589_2_alg».proof.Proof.RefTerms
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

noncomputable section

namespace Cert.ReferenceIdeal.HandAt

open Idealize.ShloMosaic Idealize.ShloMosaic.ValueIdx Cert.Hand.Spec Cert.ReferenceIdeal Cert.ReferenceIdeal.Hand
open scoped BigOperators

variable [Cert.ReferenceIdeal.Facts]

/-! ## The displacement -/

/-- The reference's displacement array at `(i, j, c)` is the specification's component `c`. -/
theorem vecR_at (x : XArr) (i j : Fin 4096) (c : Fin 3) :
    vecR (F := Ideal) x (ix3 i j c) = vecS x c i j := by
  unfold vecR vecS
  rw [subf_apply]
  refine congrArg₂ (fun a b : EReal => a - b) ?_ ?_
  · refine (broadcastInDim_apply _ _ _ (ix3 i j c) (ix3 i (0 : Fin 1) c) fun a => ?_).trans
      (broadcastInDim_apply _ _ _ (ix3 i (0 : Fin 1) c) (ix2 i c) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ (ix3 i j c) (ix3 (0 : Fin 1) j c) fun a => ?_).trans
      (broadcastInDim_apply _ _ _ (ix3 (0 : Fin 1) j c) (ix2 j c) fun a => ?_)
    · match a with
      | ⟨0, _⟩ => rfl
      | ⟨1, _⟩ => rfl
      | ⟨2, _⟩ => rfl
    · match a with
      | ⟨0, _⟩ => rfl
      | ⟨1, _⟩ => rfl

/-! ## The squared distance and the distance -/

/-- The host's square root at an index takes the root of the element. -/
theorem hostSqrt_at {s : Shape} {φ : FTy} (a : FVec Ideal s φ) (i : s.Idx) : Host.sqrt a i = Ideal.sqrt (a i) := rfl

/-- The sum over the last axis of the squared displacement, from the zero constant, is the
    specification's squared distance: `0 + (a₀ + a₁ + a₂)`. -/
theorem d2R_at (x : XArr) (i j : Fin 4096) :
    d2OfR (F := Ideal) (vecR (F := Ideal) x) (ix2 i j) = d2S x i j := by
  unfold d2OfR d2S
  have hR : S4096x4096x3.Reduces [2] S4096x4096 := by decide
  refine (hostReduceAdd_apply _ _ _ _ _).trans ?_
  refine (Ideal.hostReduceAdd_single _ hR _ _ _).trans ?_
  have hl : ∀ k : Fin 3, hR.lift (ix2 i j) k = ix3 i j k := fun k => funext fun a => Fin.ext (by
    match a with
    | ⟨0, _⟩ => rfl
    | ⟨1, _⟩ => rfl
    | ⟨2, _⟩ => rfl)
  show Ideal.ofBits .f32 0x00000000#32
      + ∑ k : Fin 3, mulf (vecR (F := Ideal) x) (vecR (F := Ideal) x) (hR.lift (ix2 i j) k) = _
  rw [Ideal.ofBits_zero_f32, zero_add, Fin.sum_univ_three]
  simp only [hl, mulf_apply, vecR_at]

/-- The reference's distance array at `(i, j)` is the specification's distance. -/
theorem distR_at (x : XArr) (i j : Fin 4096) : distR (F := Ideal) x (ix2 i j) = distS x i j := by
  have e2 := d2R_at x i j
  unfold distR distOfVecR distOfD2R safeOfR distS posS
  simp only [select_apply, cmpf_apply, hostSqrt_at, broadcastInDim_scalar_apply, constant_apply, e2]
  rfl

/-! ## The neighbour bit -/

section Words

/-- An integer sum, conjunction, complement and comparison at an index act on the elements. -/
theorem addi_at {s : Shape} {w : ℕ} (a c : IVec s w) (i : s.Idx) : addi a c i = IntOp.addi (a i) (c i) := rfl
theorem andi_at {s : Shape} {w : ℕ} (a c : IVec s w) (i : s.Idx) : andi a c i = IntOp.andi (a i) (c i) := rfl
theorem noti_at {s : Shape} {w : ℕ} (a : IVec s w) (i : s.Idx) : noti a i = ~~~(a i) := rfl
theorem cmpi_at {s : Shape} {w : ℕ} (pr : CmpIPredicate) (a c : IVec s w) (i : s.Idx) :
    cmpi pr a c i = IntOp.cmpi pr (a i) (c i) := rfl

/-- "Not (row word plus zero equals column word)" is the bit "the two points differ": a point number
    is below `4096`, so its 32-bit word determines it. -/
theorem notSelf_word (i j : Fin 4096) :
    ~~~(IntOp.cmpi .eq (IntOp.addi (BitVec.ofNat 32 i.val) 0#32) (BitVec.ofNat 32 j.val)) = neS i j := by
  unfold neS IntOp.cmpi IntOp.addi
  rw [BitVec.add_zero]
  by_cases h : i = j
  · subst h; simp
  · have hw : BitVec.ofNat 32 i.val ≠ BitVec.ofNat 32 j.val := by
      intro e
      have e' := congrArg BitVec.toNat e
      simp only [BitVec.toNat_ofNat] at e'
      have hi := i.isLt
      have hj := j.isLt
      have hv : i.val ≠ j.val := fun e => h (Fin.ext e)
      omega
    have hb : (BitVec.ofNat 32 i.val == BitVec.ofNat 32 j.val) = false := beq_eq_false_iff_ne.mpr hw
    rw [hb]
    simp [h]

end Words

/-- The batch comparison at `(i, j)` compares the two points' batch words. -/
theorem sameBatchR_at (b : BArr) (i j : Fin 4096) :
    sameBatchR b (ix2 i j) = IntOp.cmpi .eq (b (ix1 i)) (b (ix1 j)) := by
  unfold sameBatchR
  rw [cmpi_at]
  refine congrArg₂ (IntOp.cmpi .eq) ?_ ?_
  · refine (broadcastInDim_apply _ _ _ (ix2 i j) (ix2 i (0 : Fin 1)) fun a => ?_).trans
      (broadcastInDim_apply _ _ _ (ix2 i (0 : Fin 1)) (ix1 i) fun a => ?_)
    · match a with
      | ⟨0, _⟩ => rfl
      | ⟨1, _⟩ => rfl
    · match a with
      | ⟨0, _⟩ => rfl
  · refine (broadcastInDim_apply _ _ _ (ix2 i j) (ix2 (0 : Fin 1) j) fun a => ?_).trans
      (broadcastInDim_apply _ _ _ (ix2 (0 : Fin 1) j) (ix1 j) fun a => ?_)
    · match a with
      | ⟨0, _⟩ => rfl
      | ⟨1, _⟩ => rfl
    · match a with
      | ⟨0, _⟩ => rfl

/-- Off the diagonal: the reference's bit at `(i, j)` is "the two points differ". -/
theorem notSelfR_at (i j : Fin 4096) : notSelfR (ix2 i j) = neS i j := by
  unfold notSelfR
  rw [noti_at, cmpi_at, addi_at, iotaInDim_apply, iotaInDim_apply, broadcastInDim_scalar_apply, constantI_apply]
  exact notSelf_word i j

/-- The reference's mask array at `(i, j)` is the specification's neighbour bit. -/
theorem maskR_at (x : XArr) (b : BArr) (i j : Fin 4096) :
    maskR (F := Ideal) x b (ix2 i j) = maskS x b i j := by
  have ed := distR_at x i j
  have es := sameBatchR_at b i j
  have en := notSelfR_at i j
  unfold maskR maskOfDistR maskS
  simp only [andi_at, cmpf_apply, broadcastInDim_scalar_apply, constant_apply, ed, es, en]
  rfl

end Cert.ReferenceIdeal.HandAt

end
-- ==== Proof.KIFinal.lean ====
/-
  The idealized kernel program's three results as the reference's own result functions of the launch arrays.
  The region leaves the difference planes, the distances and the mask words as whole arrays (each entry one
  function of the positions and batch words); the host lines after it are, operation for operation, the
  reference's compaction applied to those arrays, the mask word tested against zero giving back the mask bit and
  the three per-coordinate scatters stacked giving the row scatter.
-/
import proofs.«123107_j75376676045589_2_alg».proof.Proof.KIRun
import proofs.«123107_j75376676045589_2_alg».proof.Proof.KIValue
import proofs.«123107_j75376676045589_2_alg».proof.Proof.KIPrefix
import proofs.«123107_j75376676045589_2_alg».proof.Proof.KITail
import proofs.«123107_j75376676045589_2_alg».proof.Proof.RefAt
import proofs.«123107_j75376676045589_2_alg».proof.Proof.RefTerms
import proofs.«123107_j75376676045589_2_alg».proof.Proof.Spec
import proofs.«123107_j75376676045589_2_alg».proof.Proof.Gen.ReferenceIdeal

set_option maxRecDepth 16384

noncomputable section

namespace Cert.KernelIdeal.HandFinal

open Idealize.ShloMosaic Idealize.ShloMosaic.TcCoe Idealize.SL.Sem Idealize.ShloMosaic.ValueIdx
open Cert.KernelIdeal Cert.KernelIdeal.Gen Cert.KernelIdeal.Hand Cert.KernelIdeal.HandValue Cert.KernelIdeal.HandTail
open Cert.Hand.Spec Cert.ReferenceIdeal.Hand Cert.ReferenceIdeal.HandAt

variable (m : (ℓ : Loc nD τ sig) → Buf (Elt Ideal) ℓ) (ρ : Dev nD → PrngReg)

/-- The launch arrays on core c, typed as the reference takes them. -/
abbrev xArg (c : Dev nD) : FVec Ideal Cert.ReferenceIdeal.S4096x3 .f32 := m ((c.tc : Thread nD τ).loc main_arg0)
abbrev bArg (c : Dev nD) : IVec Cert.ReferenceIdeal.S4096 32 := m ((c.tc : Thread nD τ).loc main_arg1)

theorem V1_arg0 (c : Dev nD) : V1 m ρ c main_arg0 = m ((c.tc : Thread nD τ).loc main_arg0) :=
  (prefix_reads (W0 m ρ c)).1
theorem V1_col (c : Dev nD) (i : Fin 4096) : (V1 m ρ c main_v0 : S4096x1.Idx → BitVec 32) (ix2 i (0 : Fin 1)) = bArg m c (ix1 i) :=
  (prefix_reads (W0 m ρ c)).2.2.1 i
theorem V1_row (c : Dev nD) (j : Fin 4096) : (V1 m ρ c main_v1 : S1x4096.Idx → BitVec 32) (ix2 (0 : Fin 1) j) = bArg m c (ix1 j) :=
  (prefix_reads (W0 m ρ c)).2.2.2 j

theorem xOf_eq (c : Dev nD) : xOf (V1 m ρ) c = xArg m c := V1_arg0 m ρ c

/-- The mask words the region leaves are the reference's mask bits, zero-extended. -/
theorem mask_eq (c : Dev nD) :
    W2 m ρ c (Proc.devRef .tc main_v2_2) = extui 32 (maskR (F := Ideal) (xArg m c) (bArg m c)) (by decide) := by
  rw [W2_v2_2]
  funext idx
  obtain ⟨i, j, rfl⟩ : ∃ (i j : Fin 4096), idx = ix2 i j := ⟨idx 0, idx 1, eq_ix2 idx⟩
  refine (final6 (V1 m ρ) c (bArg m c) (V1_col m ρ c) (V1_row m ρ c) i j).trans ?_
  rw [xOf_eq, ← maskR_at]
  rfl

/-- The distances the region leaves are the reference's. -/
theorem dist_eq (c : Dev nD) : W2 m ρ c (Proc.devRef .tc main_v2_1) = distR (F := Ideal) (xArg m c) := by
  rw [W2_v2_1]
  funext idx
  obtain ⟨i, j, rfl⟩ : ∃ (i j : Fin 4096), idx = ix2 i j := ⟨idx 0, idx 1, eq_ix2 idx⟩
  refine (final5 (V1 m ρ) c i j).trans ?_
  rw [xOf_eq, ← distR_at]

/-- The difference planes the region leaves are the reference's differences with the coordinate axis moved first. -/
theorem vec_eq (c : Dev nD) (k : Fin 3) (i j : Fin 4096) :
    (W2 m ρ c (Proc.devRef .tc main_v2_0) : S3x4096x4096.Idx → Ideal .f32) (ix3 k i j) = vecR (F := Ideal) (xArg m c) (ix3 i j k) := by
  rw [W2_v2_0]
  refine (final4 (V1 m ρ) c k i j).trans ?_
  rw [xOf_eq, ← vecR_at]

/-- THE RUN, READ: the idealized kernel program ends with its three results at the reference's result functions of
    the launch arrays, the arguments unchanged. -/
theorem results : θ_run defs (onTc (τ := τ) (main (F := Ideal))) ⟨m, fun _ => 0, ρ⟩ (fun r => ∀ c : Dev nD,
      r.2.mem ((c.tc : Thread nD τ).loc main_v40) = edgeIndexR (maskR (F := Ideal) (xArg m c) (bArg m c))
      ∧ r.2.mem ((c.tc : Thread nD τ).loc main_v49) = edgeWeightR (maskR (F := Ideal) (xArg m c) (bArg m c)) (distR (F := Ideal) (xArg m c))
      ∧ r.2.mem ((c.tc : Thread nD τ).loc main_v86) = edgeVecR (maskR (F := Ideal) (xArg m c) (bArg m c)) (vecR (F := Ideal) (xArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h40, h49, h86, -, -⟩ := tail_reads (W2 m ρ c) (maskR (F := Ideal) (xArg m c) (bArg m c)) (distR (F := Ideal) (xArg m c))
      (vecR (F := Ideal) (xArg m c)) (mask_eq m ρ c) (dist_eq m ρ c) (vec_eq m ρ c)
    exact ⟨(h c _ (mem_uc main_v40 (by decide))).trans h40, (h c _ (mem_uc main_v49 (by decide))).trans h49,
      (h c _ (mem_uc main_v86 (by decide))).trans h86,
      (h c _ (mem_uc main_arg0 (by decide))).trans (W7_arg m ρ c main_arg0 (.inl rfl)),
      (h c _ (mem_uc main_arg1 (by decide))).trans (W7_arg m ρ c main_arg1 (.inr rfl))⟩) (run_main (F := Ideal) m ρ)

end Cert.KernelIdeal.HandFinal

end
-- ==== Proof.RefRunA.lean ====
/-
  The reference program's `@main` as a straight line of host operations.  Its two printed windows and
  the four calls it makes (each callee's operations stand at the call, over the call's own buffers)
  are listed as sixteen consecutive stretches; `main` is their concatenation run in order
  (`main_eq`), every operation touches TensorCore buffers only (`ops_sub`), and so every weakly fair
  execution terminates with each buffer at the fold of the operations over its launch contents
  (`run_main`).
-/
import proofs.«123107_j75376676045589_2_alg».proof.ReferenceIdeal
import Idealize.ShloMosaic.Lib.StableHlo.Run
import Idealize.ShloMosaic.Lib.Pipeline.Regions

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The stretches -/

/-- `%0 … %4`: the two broadcasts of the positions and their difference. -/
abbrev opsVec : List (HloOp τ sig (Elt F)) :=
  [ StableHlo.unary main_arg0 main_v0 (broadcastInDim S4096x1x3 ![0, 2] bcast_S4096x3_S4096x1x3_0_2 : (⟨S4096x3, .f32⟩ : BufTy).Contents (Elt F) → (⟨S4096x1x3, .f32⟩ : BufTy).Contents (Elt F)),
    StableHlo.unary main_arg0 main_v1 (broadcastInDim S1x4096x3 ![1, 2] bcast_S4096x3_S1x4096x3_1_2 : (⟨S4096x3, .f32⟩ : BufTy).Contents (Elt F) → (⟨S1x4096x3, .f32⟩ : BufTy).Contents (Elt F)),
    StableHlo.unary main_v0 main_v2 (broadcastInDim S4096x4096x3 ![0, 1, 2] bcast_S4096x1x3_S4096x4096x3_0_1_2 : (⟨S4096x1x3, .f32⟩ : BufTy).Contents (Elt F) → (⟨S4096x4096x3, .f32⟩ : BufTy).Contents (Elt F)),
    StableHlo.unary main_v1 main_v3 (broadcastInDim S4096x4096x3 ![0, 1, 2] bcast_S1x4096x3_S4096x4096x3_0_1_2 : (⟨S1x4096x3, .f32⟩ : BufTy).Contents (Elt F) → (⟨S4096x4096x3, .f32⟩ : BufTy).Contents (Elt F)),
    StableHlo.binary main_v2 main_v3 main_v4 (subf : (⟨S4096x4096x3, .f32⟩ : BufTy).Contents (Elt F) → (⟨S4096x4096x3, .f32⟩ : BufTy).Contents (Elt F) → (⟨S4096x4096x3, .f32⟩ : BufTy).Contents (Elt F)) ]
theorem opsVec_sub : (opsVec : List (HloOp τ sig (Elt F))).Forall fun op => op.bufs ⊆ tcRefs τ sig :=
  ⟨unary_bufs_sub .., unary_bufs_sub .., unary_bufs_sub .., unary_bufs_sub .., binary_bufs_sub ..⟩

/-- `%5 … %8`, `%cst_1`: the squared distance and where it is positive. -/
abbrev opsD2 : List (HloOp τ sig (Elt F)) :=
  [ StableHlo.binary main_v4 main_v4 main_v5 (mulf : (⟨S4096x4096x3, .f32⟩ : BufTy).Contents (Elt F) → (⟨S4096x4096x3, .f32⟩ : BufTy).Contents (Elt F) → (⟨S4096x4096x3, .f32⟩ : BufTy).Contents (Elt F)),
    StableHlo.nullary main_cst (constant S_ .f32 0x00000000#32),
    StableHlo.binary main_v5 main_cst main_v6 ((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)),
    StableHlo.nullary main_cst_0 (constant S_ .f32 0x00000000#32),
    StableHlo.unary main_cst_0 main_v7 (broadcastInDim S4096x4096 ![] bcast_S_S4096x4096 : (⟨S_, .f32⟩ : BufTy).Contents (Elt F) → (⟨S4096x4096, .f32⟩ : BufTy).Contents (Elt F)),
    StableHlo.binary main_v6 main_v7 main_v8 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_1 (constant S_ .f32 0x3F800000#32) ]
theorem opsD2_sub : (opsD2 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub ..⟩

/-- `%9`: the first `where`'s three operations, over the call's own buffers. -/
abbrev opsWhere0 : List (HloOp τ sig (Elt F)) :=
  [ TRef.unary (.of main_cst_1 : TRef sig ⟨S_, .f32⟩) (.of main_call0_v0 : TRef sig ⟨S_, .f32⟩) id,
    TRef.unary (.of main_call0_v0 : TRef sig ⟨S_, .f32⟩) (.of main_call0_v1 : TRef sig ⟨S4096x4096, .f32⟩) (broadcastInDim S4096x4096 ![] bcast_S_S4096x4096),
    TRef.ternary (.of main_v8 : TRef sig ⟨S4096x4096, .i1⟩) (.of main_v6 : TRef sig ⟨S4096x4096, .f32⟩) (.of main_call0_v1 : TRef sig ⟨S4096x4096, .f32⟩) (.of main_v9 : TRef sig ⟨S4096x4096, .f32⟩) select ]
theorem opsWhere0_sub : (opsWhere0 : List (HloOp τ sig (Elt F))).Forall fun op => op.bufs ⊆ tcRefs τ sig :=
  ⟨unary_bufs_sub .., unary_bufs_sub .., ternary_bufs_sub ..⟩

/-- `%10`, `%cst_2`: the square root. -/
abbrev opsSqrt : List (HloOp τ sig (Elt F)) :=
  [ StableHlo.unary main_v9 main_v10 (Host.sqrt : (⟨S4096x4096, .f32⟩ : BufTy).Contents (Elt F) → (⟨S4096x4096, .f32⟩ : BufTy).Contents (Elt F)),
    StableHlo.nullary main_cst_2 (constant S_ .f32 0x00000000#32) ]
theorem opsSqrt_sub : (opsSqrt : List (HloOp τ sig (Elt F))).Forall fun op => op.bufs ⊆ tcRefs τ sig :=
  ⟨unary_bufs_sub .., nullary_bufs_sub ..⟩

/-- `%11`: the second `where`'s three operations. -/
abbrev opsWhere1 : List (HloOp τ sig (Elt F)) :=
  [ TRef.unary (.of main_cst_2 : TRef sig ⟨S_, .f32⟩) (.of main_call1_v0 : TRef sig ⟨S_, .f32⟩) id,
    TRef.unary (.of main_call1_v0 : TRef sig ⟨S_, .f32⟩) (.of main_call1_v1 : TRef sig ⟨S4096x4096, .f32⟩) (broadcastInDim S4096x4096 ![] bcast_S_S4096x4096),
    TRef.ternary (.of main_v8 : TRef sig ⟨S4096x4096, .i1⟩) (.of main_v10 : TRef sig ⟨S4096x4096, .f32⟩) (.of main_call1_v1 : TRef sig ⟨S4096x4096, .f32⟩) (.of main_v11 : TRef sig ⟨S4096x4096, .f32⟩) select ]
theorem opsWhere1_sub : (opsWhere1 : List (HloOp τ sig (Elt F))).Forall fun op => op.bufs ⊆ tcRefs τ sig :=
  ⟨unary_bufs_sub .., unary_bufs_sub .., ternary_bufs_sub ..⟩

/-- `%12 … %29`: the pair mask. -/
abbrev opsMask : List (HloOp τ sig (Elt F)) :=
  [ StableHlo.unary main_arg1 main_v12 (broadcastInDim S4096x1 ![0] bcast_S4096_S4096x1_0 : (⟨S4096, .i32⟩ : BufTy).Contents (Elt F) → (⟨S4096x1, .i32⟩ : BufTy).Contents (Elt F)),
    StableHlo.unary main_arg1 main_v13 (broadcastInDim S1x4096 ![1] bcast_S4096_S1x4096_1 : (⟨S4096, .i32⟩ : BufTy).Contents (Elt F) → (⟨S1x4096, .i32⟩ : BufTy).Contents (Elt F)),
    StableHlo.unary main_v12 main_v14 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v14 main_v15 main_v16 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_v17 (iotaInDim S4096x4096 32 0),
    StableHlo.nullary main_v18 (iotaInDim S4096x4096 32 1),
    StableHlo.nullary main_c (constantI S_ 32 0#32),
    StableHlo.unary main_c main_v19 (broadcastInDim S4096x4096 ![] bcast_S_S4096x4096 : (⟨S_, .i32⟩ : BufTy).Contents (Elt F) → (⟨S4096x4096, .i32⟩ : BufTy).Contents (Elt F)),
    StableHlo.binary main_v17 main_v19 main_v20 (addi : (⟨S4096x4096, .i32⟩ : BufTy).Contents (Elt F) → (⟨S4096x4096, .i32⟩ : BufTy).Contents (Elt F) → (⟨S4096x4096, .i32⟩ : BufTy).Contents (Elt F)),
    StableHlo.binary main_v20 main_v18 main_v21 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v21 main_v22 (noti : (⟨S4096x4096, .i1⟩ : BufTy).Contents (Elt F) → (⟨S4096x4096, .i1⟩ : BufTy).Contents (Elt F)),
    StableHlo.binary main_v16 main_v22 main_v23 (andi : (⟨S4096x4096, .i1⟩ : BufTy).Contents (Elt F) → (⟨S4096x4096, .i1⟩ : BufTy).Contents (Elt F) → (⟨S4096x4096, .i1⟩ : BufTy).Contents (Elt F)),
    StableHlo.nullary main_cst_3 (constant S_ .f32 0x00000000#32),
    StableHlo.unary main_cst_3 main_v24 (broadcastInDim S4096x4096 ![] bcast_S_S4096x4096 : (⟨S_, .f32⟩ : BufTy).Contents (Elt F) → (⟨S4096x4096, .f32⟩ : BufTy).Contents (Elt F)),
    StableHlo.binary main_v11 main_v24 main_v25 (cmpf .oge : (⟨S4096x4096, .f32⟩ : BufTy).Contents (Elt F) → (⟨S4096x4096, .f32⟩ : BufTy).Contents (Elt F) → (⟨S4096x4096, .i1⟩ : BufTy).Contents (Elt F)),
    StableHlo.binary main_v23 main_v25 main_v26 (andi : (⟨S4096x4096, .i1⟩ : BufTy).Contents (Elt F) → (⟨S4096x4096, .i1⟩ : BufTy).Contents (Elt F) → (⟨S4096x4096, .i1⟩ : BufTy).Contents (Elt F)),
    StableHlo.nullary main_cst_4 (constant S_ .f32 0x40A00000#32),
    StableHlo.unary main_cst_4 main_v27 (broadcastInDim S4096x4096 ![] bcast_S_S4096x4096 : (⟨S_, .f32⟩ : BufTy).Contents (Elt F) → (⟨S4096x4096, .f32⟩ : BufTy).Contents (Elt F)),
    StableHlo.binary main_v11 main_v27 main_v28 (cmpf .olt : (⟨S4096x4096, .f32⟩ : BufTy).Contents (Elt F) → (⟨S4096x4096, .f32⟩ : BufTy).Contents (Elt F) → (⟨S4096x4096, .i1⟩ : BufTy).Contents (Elt F)),
    StableHlo.binary main_v26 main_v28 main_v29 (andi : (⟨S4096x4096, .i1⟩ : BufTy).Contents (Elt F) → (⟨S4096x4096, .i1⟩ : BufTy).Contents (Elt F) → (⟨S4096x4096, .i1⟩ : BufTy).Contents (Elt F)) ]
theorem opsMask_sub : (opsMask : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

/-- `%30`, `%31`: the mask in row-major order, and as numbers. -/
abbrev opsFlat : List (HloOp τ sig (Elt F)) :=
  [ StableHlo.reshape main_v29 main_v30 rfl shapeCasts_S4096x4096_S16777216,
    StableHlo.unary main_v30 main_v31 ((extui 32 · natLt_1_32) : (⟨S16777216, .i1⟩ : BufTy).Contents (Elt F) → (⟨S16777216, .i32⟩ : BufTy).Contents (Elt F)) ]
theorem opsFlat_sub : (opsFlat : List (HloOp τ sig (Elt F))).Forall fun op => op.bufs ⊆ tcRefs τ sig :=
  ⟨reshape_bufs_sub .., unary_bufs_sub ..⟩

/-- `%32`: the running sum's three operations. -/
abbrev opsCumsum : List (HloOp τ sig (Elt F)) :=
  [ TRef.nullary (.of main_call2_call0_c : TRef sig ⟨S_, .i32⟩) (constantI S_ 32 0#32),
    TRef.unary (.of main_call2_call0_c : TRef sig ⟨S_, .i32⟩) (.of main_call2_call0_v0 : TRef sig ⟨S_, .i32⟩) (broadcastInDim S_ ![] bcast_S_S_),
    TRef.binary (.of main_v31 : TRef sig ⟨S16777216, .i32⟩) (.of main_call2_call0_v0 : TRef sig ⟨S_, .i32⟩) (.of main_v32 : TRef sig ⟨S16777216, .i32⟩) (fun x v => Host.reduceWindow IntOp.addi ![16777216] ![1] ![16777215] ![0] x v reduceWindows_S16777216_S16777216_w16777216s1p16777215_0 h_S_) ]
theorem opsCumsum_sub : (opsCumsum : List (HloOp τ sig (Elt F))).Forall fun op => op.bufs ⊆ tcRefs τ sig :=
  ⟨nullary_bufs_sub .., unary_bufs_sub .., binary_bufs_sub ..⟩

/-- `%33 … %37`, `%c_7`: the rank, the bound, the mask under the bound. -/
abbrev opsRank : List (HloOp τ sig (Elt F)) :=
  [ StableHlo.nullary main_c_5 (constantI S_ 32 1#32),
    StableHlo.unary main_c_5 main_v33 (broadcastInDim S16777216 ![] bcast_S_S16777216 : (⟨S_, .i32⟩ : BufTy).Contents (Elt F) → (⟨S16777216, .i32⟩ : BufTy).Contents (Elt F)),
    StableHlo.binary main_v32 main_v33 main_v34 (subi : (⟨S16777216, .i32⟩ : BufTy).Contents (Elt F) → (⟨S16777216, .i32⟩ : BufTy).Contents (Elt F) → (⟨S16777216, .i32⟩ : BufTy).Contents (Elt F)),
    StableHlo.nullary main_c_6 (constantI S_ 32 524288#32),
    StableHlo.unary main_c_6 main_v35 (broadcastInDim S16777216 ![] bcast_S_S16777216 : (⟨S_, .i32⟩ : BufTy).Contents (Elt F) → (⟨S16777216, .i32⟩ : BufTy).Contents (Elt F)),
    StableHlo.binary main_v34 main_v35 main_v36 (cmpi .slt : (⟨S16777216, .i32⟩ : BufTy).Contents (Elt F) → (⟨S16777216, .i32⟩ : BufTy).Contents (Elt F) → (⟨S16777216, .i1⟩ : BufTy).Contents (Elt F)),
    StableHlo.binary main_v30 main_v36 main_v37 (andi : (⟨S16777216, .i1⟩ : BufTy).Contents (Elt F) → (⟨S16777216, .i1⟩ : BufTy).Contents (Elt F) → (⟨S16777216, .i1⟩ : BufTy).Contents (Elt F)),
    StableHlo.nullary main_c_7 (constantI S_ 32 524288#32) ]
theorem opsRank_sub : (opsRank : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub ..⟩

/-- `%38`: the third `where`'s three operations. -/
abbrev opsWhere2 : List (HloOp τ sig (Elt F)) :=
  [ TRef.unary (.of main_c_7 : TRef sig ⟨S_, .i32⟩) (.of main_call3_v0 : TRef sig ⟨S_, .i32⟩) id,
    TRef.unary (.of main_call3_v0 : TRef sig ⟨S_, .i32⟩) (.of main_call3_v1 : TRef sig ⟨S16777216, .i32⟩) (broadcastInDim S16777216 ![] bcast_S_S16777216),
    TRef.ternary (.of main_v37 : TRef sig ⟨S16777216, .i1⟩) (.of main_v34 : TRef sig ⟨S16777216, .i32⟩) (.of main_call3_v1 : TRef sig ⟨S16777216, .i32⟩) (.of main_v38 : TRef sig ⟨S16777216, .i32⟩) select ]
theorem opsWhere2_sub : (opsWhere2 : List (HloOp τ sig (Elt F))).Forall fun op => op.bufs ⊆ tcRefs τ sig :=
  ⟨unary_bufs_sub .., unary_bufs_sub .., ternary_bufs_sub ..⟩

/-- `%39 … %47`, `%c_9`: the pairs' point numbers and the fill of the first scatter. -/
abbrev opsNums : List (HloOp τ sig (Elt F)) :=
  [ StableHlo.nullary main_v39 (iotaInDim S4096 32 0),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.unary main_v40 main_v41 (broadcastInDim S4096x4096 ![0, 1] bcast_S4096x1_S4096x4096_0_1 : (⟨S4096x1, .i32⟩ : BufTy).Contents (Elt F) → (⟨S4096x4096, .i32⟩ : BufTy).Contents (Elt F)),
    StableHlo.reshape main_v41 main_v42 rfl shapeCasts_S4096x4096_S16777216,
    StableHlo.nullary main_v43 (iotaInDim S4096 32 0),
    StableHlo.unary main_v43 main_v44 (broadcastInDim S1x4096 ![1] bcast_S4096_S1x4096_1 : (⟨S4096, .i32⟩ : BufTy).Contents (Elt F) → (⟨S1x4096, .i32⟩ : BufTy).Contents (Elt F)),
    StableHlo.unary main_v44 main_v45 (broadcastInDim S4096x4096 ![0, 1] bcast_S1x4096_S4096x4096_0_1 : (⟨S1x4096, .i32⟩ : BufTy).Contents (Elt F) → (⟨S4096x4096, .i32⟩ : BufTy).Contents (Elt F)),
    StableHlo.reshape main_v45 main_v46 rfl shapeCasts_S4096x4096_S16777216,
    StableHlo.nullary main_c_8 (constantI S_ 32 4294967295#32),
    StableHlo.unary main_c_8 main_v47 (broadcastInDim S524288 ![] bcast_S_S524288 : (⟨S_, .i32⟩ : BufTy).Contents (Elt F) → (⟨S524288, .i32⟩ : BufTy).Contents (Elt F)),
    StableHlo.nullary main_c_9 (constantI S_ 32 0#32) ]
theorem opsNums_sub : (opsNums : List (HloOp τ sig (Elt F))).Forall fun op => op.bufs ⊆ tcRefs τ sig :=
  ⟨nullary_bufs_sub .., unary_bufs_sub .., unary_bufs_sub .., reshape_bufs_sub .., nullary_bufs_sub .., unary_bufs_sub .., unary_bufs_sub .., reshape_bufs_sub .., nullary_bufs_sub .., unary_bufs_sub .., nullary_bufs_sub ..⟩

/-- `%48 … %54`: the scatter of the first points' numbers. -/
abbrev opsIndexA : List (HloOp τ sig (Elt F)) :=
  [ StableHlo.unary main_c_9 main_v48 (broadcastInDim S16777216 ![] bcast_S_S16777216 : (⟨S_, .i32⟩ : BufTy).Contents (Elt F) → (⟨S16777216, .i32⟩ : BufTy).Contents (Elt F)),
    StableHlo.binary main_v38 main_v48 main_v49 (cmpi .slt : (⟨S16777216, .i32⟩ : BufTy).Contents (Elt F) → (⟨S16777216, .i32⟩ : BufTy).Contents (Elt F) → (⟨S16777216, .i1⟩ : BufTy).Contents (Elt F)),
    StableHlo.nullary main_c_10 (constantI S_ 32 524288#32),
    StableHlo.unary main_c_10 main_v50 (broadcastInDim S16777216 ![] bcast_S_S16777216 : (⟨S_, .i32⟩ : BufTy).Contents (Elt F) → (⟨S16777216, .i32⟩ : BufTy).Contents (Elt F)),
    StableHlo.binary main_v38 main_v50 main_v51 (addi : (⟨S16777216, .i32⟩ : BufTy).Contents (Elt F) → (⟨S16777216, .i32⟩ : BufTy).Contents (Elt F) → (⟨S16777216, .i32⟩ : BufTy).Contents (Elt F)),
    StableHlo.ternary main_v49 main_v51 main_v38 main_v52 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v52 main_v53 (broadcastInDim S16777216x1 ![0] bcast_S16777216_S16777216x1_0 : (⟨S16777216, .i32⟩ : BufTy).Contents (Elt F) → (⟨S16777216x1, .i32⟩ : BufTy).Contents (Elt F)),
    StableHlo.ternary main_v47 main_v53 main_v42 main_v54 ((fun x i u => Host.scatter scatter_S524288_S16777216x1_S16777216_n_0_0_1 (fun _ b => b) x i u) : (⟨S524288, .i32⟩ : BufTy).Contents (Elt F) → (⟨S16777216x1, .i32⟩ : BufTy).Contents (Elt F) → (⟨S16777216, .i32⟩ : BufTy).Contents (Elt F) → (⟨S524288, .i32⟩ : BufTy).Contents (Elt F)) ]
theorem opsIndexA_sub : (opsIndexA : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub ..⟩

/-- `%55 … %62`: the scatter of the second points' numbers. -/
abbrev opsIndexB : List (HloOp τ sig (Elt F)) :=
  [ StableHlo.nullary main_c_11 (constantI S_ 32 4294967295#32),
    StableHlo.unary main_c_11 main_v55 (broadcastInDim S524288 ![] bcast_S_S524288 : (⟨S_, .i32⟩ : BufTy).Contents (Elt F) → (⟨S524288, .i32⟩ : BufTy).Contents (Elt F)),
    StableHlo.nullary main_c_12 (constantI S_ 32 0#32),
    StableHlo.unary main_c_12 main_v56 (broadcastInDim S16777216 ![] bcast_S_S16777216 : (⟨S_, .i32⟩ : BufTy).Contents (Elt F) → (⟨S16777216, .i32⟩ : BufTy).Contents (Elt F)),
    StableHlo.binary main_v38 main_v56 main_v57 (cmpi .slt : (⟨S16777216, .i32⟩ : BufTy).Contents (Elt F) → (⟨S16777216, .i32⟩ : BufTy).Contents (Elt F) → (⟨S16777216, .i1⟩ : BufTy).Contents (Elt F)),
    StableHlo.nullary main_c_13 (constantI S_ 32 524288#32),
    StableHlo.unary main_c_13 main_v58 (broadcastInDim S16777216 ![] bcast_S_S16777216 : (⟨S_, .i32⟩ : BufTy).Contents (Elt F) → (⟨S16777216, .i32⟩ : BufTy).Contents (Elt F)),
    StableHlo.binary main_v38 main_v58 main_v59 (addi : (⟨S16777216, .i32⟩ : BufTy).Contents (Elt F) → (⟨S16777216, .i32⟩ : BufTy).Contents (Elt F) → (⟨S16777216, .i32⟩ : BufTy).Contents (Elt F)),
    StableHlo.ternary main_v57 main_v59 main_v38 main_v60 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v60 main_v61 (broadcastInDim S16777216x1 ![0] bcast_S16777216_S16777216x1_0 : (⟨S16777216, .i32⟩ : BufTy).Contents (Elt F) → (⟨S16777216x1, .i32⟩ : BufTy).Contents (Elt F)),
    StableHlo.ternary main_v55 main_v61 main_v46 main_v62 ((fun x i u => Host.scatter scatter_S524288_S16777216x1_S16777216_n_0_0_1 (fun _ b => b) x i u) : (⟨S524288, .i32⟩ : BufTy).Contents (Elt F) → (⟨S16777216x1, .i32⟩ : BufTy).Contents (Elt F) → (⟨S16777216, .i32⟩ : BufTy).Contents (Elt F) → (⟨S524288, .i32⟩ : BufTy).Contents (Elt F)) ]
theorem opsIndexB_sub : (opsIndexB : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

/-- `%63 … %65`: the two rows stacked. -/
abbrev opsIndexC : List (HloOp τ sig (Elt F)) :=
  [ StableHlo.unary main_v54 main_v63 (broadcastInDim S1x524288 ![1] bcast_S524288_S1x524288_1 : (⟨S524288, .i32⟩ : BufTy).Contents (Elt F) → (⟨S1x524288, .i32⟩ : BufTy).Contents (Elt F)),
    StableHlo.unary main_v62 main_v64 (broadcastInDim S1x524288 ![1] bcast_S524288_S1x524288_1 : (⟨S524288, .i32⟩ : BufTy).Contents (Elt F) → (⟨S1x524288, .i32⟩ : BufTy).Contents (Elt F)),
    StableHlo.binary main_v63 main_v64 main_v65 ((fun a b => concatenate S2x524288 0 [⟨S1x524288, a⟩, ⟨S1x524288, b⟩] concatenates_S1x524288_S1x524288_S2x524288_d0) : (⟨S1x524288, .i32⟩ : BufTy).Contents (Elt F) → (⟨S1x524288, .i32⟩ : BufTy).Contents (Elt F) → (⟨S2x524288, .i32⟩ : BufTy).Contents (Elt F)) ]
theorem opsIndexC_sub : (opsIndexC : List (HloOp τ sig (Elt F))).Forall fun op => op.bufs ⊆ tcRefs τ sig :=
  ⟨unary_bufs_sub .., unary_bufs_sub .., binary_bufs_sub ..⟩

/-- `%66 … %74`: the scatter of distances. -/
abbrev opsWeight : List (HloOp τ sig (Elt F)) :=
  [ StableHlo.nullary main_cst_14 (constant S_ .f32 0x00000000#32),
    StableHlo.unary main_cst_14 main_v66 (broadcastInDim S524288 ![] bcast_S_S524288 : (⟨S_, .f32⟩ : BufTy).Contents (Elt F) → (⟨S524288, .f32⟩ : BufTy).Contents (Elt F)),
    StableHlo.reshape main_v11 main_v67 rfl shapeCasts_S4096x4096_S16777216,
    StableHlo.nullary main_c_15 (constantI S_ 32 0#32),
    StableHlo.unary main_c_15 main_v68 (broadcastInDim S16777216 ![] bcast_S_S16777216 : (⟨S_, .i32⟩ : BufTy).Contents (Elt F) → (⟨S16777216, .i32⟩ : BufTy).Contents (Elt F)),
    StableHlo.binary main_v38 main_v68 main_v69 (cmpi .slt : (⟨S16777216, .i32⟩ : BufTy).Contents (Elt F) → (⟨S16777216, .i32⟩ : BufTy).Contents (Elt F) → (⟨S16777216, .i1⟩ : BufTy).Contents (Elt F)),
    StableHlo.nullary main_c_16 (constantI S_ 32 524288#32),
    StableHlo.unary main_c_16 main_v70 (broadcastInDim S16777216 ![] bcast_S_S16777216 : (⟨S_, .i32⟩ : BufTy).Contents (Elt F) → (⟨S16777216, .i32⟩ : BufTy).Contents (Elt F)),
    StableHlo.binary main_v38 main_v70 main_v71 (addi : (⟨S16777216, .i32⟩ : BufTy).Contents (Elt F) → (⟨S16777216, .i32⟩ : BufTy).Contents (Elt F) → (⟨S16777216, .i32⟩ : BufTy).Contents (Elt F)),
    StableHlo.ternary main_v69 main_v71 main_v38 main_v72 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v72 main_v73 (broadcastInDim S16777216x1 ![0] bcast_S16777216_S16777216x1_0 : (⟨S16777216, .i32⟩ : BufTy).Contents (Elt F) → (⟨S16777216x1, .i32⟩ : BufTy).Contents (Elt F)),
    StableHlo.ternary main_v66 main_v73 main_v67 main_v74 ((fun x i u => Host.scatter scatter_S524288_S16777216x1_S16777216_n_0_0_1 (fun _ b => b) x i u) : (⟨S524288, .f32⟩ : BufTy).Contents (Elt F) → (⟨S16777216x1, .i32⟩ : BufTy).Contents (Elt F) → (⟨S16777216, .f32⟩ : BufTy).Contents (Elt F) → (⟨S524288, .f32⟩ : BufTy).Contents (Elt F)) ]
theorem opsWeight_sub : (opsWeight : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩

/-- `%75 … %83`: the scatter of difference vectors. -/
abbrev opsVecOut : List (HloOp τ sig (Elt F)) :=
  [ StableHlo.nullary main_cst_17 (constant S_ .f32 0x00000000#32),
    StableHlo.unary main_cst_17 main_v75 (broadcastInDim S524288x3 ![] bcast_S_S524288x3 : (⟨S_, .f32⟩ : BufTy).Contents (Elt F) → (⟨S524288x3, .f32⟩ : BufTy).Contents (Elt F)),
    StableHlo.reshape main_v4 main_v76 rfl shapeCasts_S4096x4096x3_S16777216x3,
    StableHlo.nullary main_c_18 (constantI S_ 32 0#32),
    StableHlo.unary main_c_18 main_v77 (broadcastInDim S16777216 ![] bcast_S_S16777216 : (⟨S_, .i32⟩ : BufTy).Contents (Elt F) → (⟨S16777216, .i32⟩ : BufTy).Contents (Elt F)),
    StableHlo.binary main_v38 main_v77 main_v78 (cmpi .slt : (⟨S16777216, .i32⟩ : BufTy).Contents (Elt F) → (⟨S16777216, .i32⟩ : BufTy).Contents (Elt F) → (⟨S16777216, .i1⟩ : BufTy).Contents (Elt F)),
    StableHlo.nullary main_c_19 (constantI S_ 32 524288#32),
    StableHlo.unary main_c_19 main_v79 (broadcastInDim S16777216 ![] bcast_S_S16777216 : (⟨S_, .i32⟩ : BufTy).Contents (Elt F) → (⟨S16777216, .i32⟩ : BufTy).Contents (Elt F)),
    StableHlo.binary main_v38 main_v79 main_v80 (addi : (⟨S16777216, .i32⟩ : BufTy).Contents (Elt F) → (⟨S16777216, .i32⟩ : BufTy).Contents (Elt F) → (⟨S16777216, .i32⟩ : BufTy).Contents (Elt F)),
    StableHlo.ternary main_v78 main_v80 main_v38 main_v81 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v81 main_v82 (broadcastInDim S16777216x1 ![0] bcast_S16777216_S16777216x1_0 : (⟨S16777216, .i32⟩ : BufTy).Contents (Elt F) → (⟨S16777216x1, .i32⟩ : BufTy).Contents (Elt F)),
    StableHlo.ternary main_v75 main_v82 main_v76 main_v83 ((fun x i u => Host.scatter scatter_S524288x3_S16777216x1_S16777216x3_1_0_0_1 (fun _ b => b) x i u) : (⟨S524288x3, .f32⟩ : BufTy).Contents (Elt F) → (⟨S16777216x1, .i32⟩ : BufTy).Contents (Elt F) → (⟨S16777216x3, .f32⟩ : BufTy).Contents (Elt F) → (⟨S524288x3, .f32⟩ : BufTy).Contents (Elt F)) ]
theorem opsVecOut_sub : (opsVecOut : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub ..⟩

/-! ## `@main` is the stretches in order -/

/-- The first window is its eleven stretches, the last in tail position: both sides unfold to the same
    sequence of steps. -/
theorem main_part0_chain (c : Dev nD) : main_part0 (F := F) c = (Pipeline.chainK
    [ seq opsVec, seq opsD2, seq opsWhere0, seq opsSqrt, seq opsWhere1, seq opsMask, seq opsFlat, seq opsCumsum, seq opsRank, seq opsWhere2 ]
    (seq opsNums) : Prog (TpuEff nD τ sig (Elt F) (Pipeline.Sig Λ₀ (Fin 0) fun p => (pcfgs (F := F) p).Adm) .tc) PUnit) := by
  chain_rfl

/-- The second window is its five stretches. -/
theorem main_part1_chain (c : Dev nD) : main_part1 (F := F) c = (Pipeline.chain
    [ seq opsIndexA, seq opsIndexB, seq opsIndexC, seq opsWeight, seq opsVecOut ] : Prog (TpuEff nD τ sig (Elt F) (Pipeline.Sig Λ₀ (Fin 0) fun p => (pcfgs (F := F) p).Adm) .tc) PUnit) := by
  chain_rfl

/-- Every operation of `@main`, in order. -/
abbrev ops : List (HloOp τ sig (Elt F)) :=
  opsVec ++ (opsD2 ++ (opsWhere0 ++ (opsSqrt ++ (opsWhere1 ++ (opsMask ++ (opsFlat ++ (opsCumsum ++ (opsRank ++ (opsWhere2 ++ (opsNums ++ (opsIndexA ++ (opsIndexB ++ (opsIndexC ++ (opsWeight ++ (opsVecOut)))))))))))))))

/-- Stretches run one after the other are their concatenation run as one line. -/
theorem chain_seqs {nD : Nat} {τ : Topo} {sig : RefSig} {Val : EltTy → Type} {Λ : Labels} :
    ∀ (ls : List (List (HloOp τ sig Val))) (l : List (HloOp τ sig Val)),
      (Pipeline.chain (ls.map seq ++ [seq l]) : Prog (TpuEff nD τ sig Val Λ .tc) PUnit) = seq (ls.foldr (· ++ ·) l)
  | [], l => by
    show (seq l >>= fun _ => seq []) = seq l
    rw [← seq_append, List.append_nil]
  | a :: ls, l => by
    show (seq a >>= fun _ => Pipeline.chain (ls.map seq ++ [seq l])) = seq (a ++ ls.foldr (· ++ ·) l)
    rw [chain_seqs ls l, seq_append]

/-- `@main` is that straight line. -/
theorem main_eq (c : Dev nD) : main (F := F) c = seq ops := by
  show (main_part0 (F := F) c >>= fun _ => main_part1 (F := F) c) = _
  rewrite [main_part1_chain, main_part0_chain, Pipeline.chainK_bind_chain]
  exact chain_seqs [opsVec, opsD2, opsWhere0, opsSqrt, opsWhere1, opsMask, opsFlat, opsCumsum, opsRank, opsWhere2, opsNums, opsIndexA, opsIndexB, opsIndexC, opsWeight] opsVecOut

theorem scopedRefs_eq : (Finset.univ.filter fun b : Ref sig .tc => b.isScoped) = ∅ := by decide
theorem scopedSems_eq : (Finset.univ.filter fun sm : SemLoc sig => sm.isScoped .tc) = ∅ := by decide

/-- The fold over a concatenation is the folds in turn. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append opsVec_sub (forall_append opsD2_sub (forall_append opsWhere0_sub (forall_append opsSqrt_sub (forall_append opsWhere1_sub (forall_append opsMask_sub (forall_append opsFlat_sub (forall_append opsCumsum_sub (forall_append opsRank_sub (forall_append opsWhere2_sub (forall_append opsNums_sub (forall_append opsIndexA_sub (forall_append opsIndexB_sub (forall_append opsIndexC_sub (forall_append opsWeight_sub (opsVecOut_sub)))))))))))))))

/-- Every operation determines its results: none allocates. -/
theorem ops_fresh : ∀ op ∈ (ops : List (HloOp τ sig (Elt F))), op.fresh = ∅ := by
  intro op h
  simp only [ops, List.mem_append] at h
  rcases h with h | h | h | h | h | h | h | h | h | h | h | h | h | h | h | h <;>
    ((repeat (cases h with | head => rfl | tail _ h => ?_)); exact nomatch h)

/-- On every device, from any memory with zero counters: every weakly fair execution of `@main` terminates, and
    every final state has each TensorCore buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefRunB.lean ====
/-
  What each part of the reference's straight line computes, read off the fold of its operations over
  ANY contents `V` of the device's buffers: the value the part produces is the corresponding term of
  RefTerms.lean over the values it reads, and the values later parts read are left as they were.
-/
import proofs.«123107_j75376676045589_2_alg».proof.Proof.RefTerms
import proofs.«123107_j75376676045589_2_alg».proof.Proof.RefRunA

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- the folds and searches inside these are never opened: each side of an equation below holds the same applications of them
attribute [local irreducible] Host.scatter Host.reduceWindow Host.reduceAdd

set_option maxRecDepth 8192 in
/-- The difference vectors from the positions. -/
theorem after_opsVec (V : Valuation τ sig (Elt F)) :
    after (opsVec (F := F)) V (main_v4 : DevRef τ sig) = vecR (V (main_arg0 : DevRef τ sig))
    ∧ after (opsVec (F := F)) V (main_arg0 : DevRef τ sig) = V (main_arg0 : DevRef τ sig)
    ∧ after (opsVec (F := F)) V (main_arg1 : DevRef τ sig) = V (main_arg1 : DevRef τ sig) := by
  refine ⟨?_, ?_, ?_⟩ <;>
    ((try simp only [after_append]); after_results_simp <;> rfl)

set_option maxRecDepth 8192 in
/-- The distance from the difference vectors. -/
theorem after_opsDist (V : Valuation τ sig (Elt F)) :
    after (opsD2 (F := F) ++ (opsWhere0 ++ (opsSqrt ++ opsWhere1))) V (main_v11 : DevRef τ sig) = distOfVecR (V (main_v4 : DevRef τ sig))
    ∧ after (opsD2 (F := F) ++ (opsWhere0 ++ (opsSqrt ++ opsWhere1))) V (main_arg0 : DevRef τ sig) = V (main_arg0 : DevRef τ sig)
    ∧ after (opsD2 (F := F) ++ (opsWhere0 ++ (opsSqrt ++ opsWhere1))) V (main_arg1 : DevRef τ sig) = V (main_arg1 : DevRef τ sig)
    ∧ after (opsD2 (F := F) ++ (opsWhere0 ++ (opsSqrt ++ opsWhere1))) V (main_v4 : DevRef τ sig) = V (main_v4 : DevRef τ sig) := by
  refine ⟨?_, ?_, ?_, ?_⟩ <;>
    ((try simp only [after_append]); after_results_simp <;> rfl)

set_option maxRecDepth 8192 in
/-- The mask from the distance and the batch labels. -/
theorem after_opsMask (V : Valuation τ sig (Elt F)) :
    after (opsMask (F := F)) V (main_v29 : DevRef τ sig) = maskOfDistR (V (main_v11 : DevRef τ sig)) (V (main_arg1 : DevRef τ sig))
    ∧ after (opsMask (F := F)) V (main_arg0 : DevRef τ sig) = V (main_arg0 : DevRef τ sig)
    ∧ after (opsMask (F := F)) V (main_arg1 : DevRef τ sig) = V (main_arg1 : DevRef τ sig)
    ∧ after (opsMask (F := F)) V (main_v4 : DevRef τ sig) = V (main_v4 : DevRef τ sig)
    ∧ after (opsMask (F := F)) V (main_v11 : DevRef τ sig) = V (main_v11 : DevRef τ sig) := by
  refine ⟨?_, ?_, ?_, ?_, ?_⟩ <;>
    ((try simp only [after_append]); after_results_simp <;> rfl)

set_option maxRecDepth 8192 in
/-- The mask in row-major order, and as numbers. -/
theorem after_opsFlat (V : Valuation τ sig (Elt F)) :
    after (opsFlat (F := F)) V (main_v30 : DevRef τ sig) = flatMaskR (V (main_v29 : DevRef τ sig))
    ∧ after (opsFlat (F := F)) V (main_v31 : DevRef τ sig) = extui 32 (flatMaskR (V (main_v29 : DevRef τ sig))) natLt_1_32
    ∧ after (opsFlat (F := F)) V (main_arg0 : DevRef τ sig) = V (main_arg0 : DevRef τ sig)
    ∧ after (opsFlat (F := F)) V (main_arg1 : DevRef τ sig) = V (main_arg1 : DevRef τ sig)
    ∧ after (opsFlat (F := F)) V (main_v4 : DevRef τ sig) = V (main_v4 : DevRef τ sig)
    ∧ after (opsFlat (F := F)) V (main_v11 : DevRef τ sig) = V (main_v11 : DevRef τ sig) := by
  refine ⟨?_, ?_, ?_, ?_, ?_, ?_⟩ <;>
    ((try simp only [after_append]); after_results_simp <;> rfl)

set_option maxRecDepth 8192 in
/-- The running count. -/
theorem after_opsCumsum (V : Valuation τ sig (Elt F)) :
    after (opsCumsum (F := F)) V (main_v32 : DevRef τ sig) = Host.reduceWindow IntOp.addi ![16777216] ![1] ![16777215] ![0] (V (main_v31 : DevRef τ sig)) (broadcastInDim S_ ![] bcast_S_S_ (constantI S_ 32 0#32)) reduceWindows_S16777216_S16777216_w16777216s1p16777215_0 h_S_
    ∧ after (opsCumsum (F := F)) V (main_arg0 : DevRef τ sig) = V (main_arg0 : DevRef τ sig)
    ∧ after (opsCumsum (F := F)) V (main_arg1 : DevRef τ sig) = V (main_arg1 : DevRef τ sig)
    ∧ after (opsCumsum (F := F)) V (main_v4 : DevRef τ sig) = V (main_v4 : DevRef τ sig)
    ∧ after (opsCumsum (F := F)) V (main_v11 : DevRef τ sig) = V (main_v11 : DevRef τ sig)
    ∧ after (opsCumsum (F := F)) V (main_v30 : DevRef τ sig) = V (main_v30 : DevRef τ sig) := by
  refine ⟨?_, ?_, ?_, ?_, ?_, ?_⟩ <;>
    ((try simp only [after_append]); after_results_simp <;> rfl)

set_option maxRecDepth 8192 in
/-- The slots from the flat mask and the running count. -/
theorem after_opsSlot (V : Valuation τ sig (Elt F)) :
    after (opsRank (F := F) ++ opsWhere2) V (main_v38 : DevRef τ sig) = select (andi (V (main_v30 : DevRef τ sig)) (cmpi .slt (subi (V (main_v32 : DevRef τ sig)) (broadcastInDim S16777216 ![] bcast_S_S16777216 (constantI S_ 32 1#32))) (broadcastInDim S16777216 ![] bcast_S_S16777216 (constantI S_ 32 524288#32)))) (subi (V (main_v32 : DevRef τ sig)) (broadcastInDim S16777216 ![] bcast_S_S16777216 (constantI S_ 32 1#32))) (broadcastInDim S16777216 ![] bcast_S_S16777216 (constantI S_ 32 524288#32))
    ∧ after (opsRank (F := F) ++ opsWhere2) V (main_arg0 : DevRef τ sig) = V (main_arg0 : DevRef τ sig)
    ∧ after (opsRank (F := F) ++ opsWhere2) V (main_arg1 : DevRef τ sig) = V (main_arg1 : DevRef τ sig)
    ∧ after (opsRank (F := F) ++ opsWhere2) V (main_v4 : DevRef τ sig) = V (main_v4 : DevRef τ sig)
    ∧ after (opsRank (F := F) ++ opsWhere2) V (main_v11 : DevRef τ sig) = V (main_v11 : DevRef τ sig) := by
  refine ⟨?_, ?_, ?_, ?_, ?_⟩ <;>
    ((try simp only [after_append]); after_results_simp <;> rfl)

set_option maxRecDepth 8192 in
/-- The pairs' point numbers and the fill. -/
theorem after_opsNums (V : Valuation τ sig (Elt F)) :
    after (opsNums (F := F)) V (main_v42 : DevRef τ sig) = rowNumR
    ∧ after (opsNums (F := F)) V (main_v46 : DevRef τ sig) = colNumR
    ∧ after (opsNums (F := F)) V (main_v47 : DevRef τ sig) = broadcastInDim S524288 ![] bcast_S_S524288 (constantI S_ 32 4294967295#32)
    ∧ after (opsNums (F := F)) V (main_c_9 : DevRef τ sig) = constantI S_ 32 0#32
    ∧ after (opsNums (F := F)) V (main_arg0 : DevRef τ sig) = V (main_arg0 : DevRef τ sig)
    ∧ after (opsNums (F := F)) V (main_arg1 : DevRef τ sig) = V (main_arg1 : DevRef τ sig)
    ∧ after (opsNums (F := F)) V (main_v38 : DevRef τ sig) = V (main_v38 : DevRef τ sig)
    ∧ after (opsNums (F := F)) V (main_v4 : DevRef τ sig) = V (main_v4 : DevRef τ sig)
    ∧ after (opsNums (F := F)) V (main_v11 : DevRef τ sig) = V (main_v11 : DevRef τ sig) := by
  refine ⟨?_, ?_, ?_, ?_, ?_, ?_, ?_, ?_, ?_⟩ <;>
    ((try simp only [after_append]); after_results_simp <;> rfl)

set_option maxRecDepth 8192 in
/-- The first points' numbers at their slots. -/
theorem after_opsIndexA (V : Valuation τ sig (Elt F)) :
    after (opsIndexA (F := F)) V (main_v54 : DevRef τ sig) = Host.scatter scatter_S524288_S16777216x1_S16777216_n_0_0_1 (fun _ b => b) (V (main_v47 : DevRef τ sig)) (broadcastInDim S16777216x1 ![0] bcast_S16777216_S16777216x1_0 (select (cmpi .slt (V (main_v38 : DevRef τ sig)) (broadcastInDim S16777216 ![] bcast_S_S16777216 (V (main_c_9 : DevRef τ sig)))) (addi (V (main_v38 : DevRef τ sig)) (broadcastInDim S16777216 ![] bcast_S_S16777216 (constantI S_ 32 524288#32))) (V (main_v38 : DevRef τ sig)))) (V (main_v42 : DevRef τ sig))
    ∧ after (opsIndexA (F := F)) V (main_arg0 : DevRef τ sig) = V (main_arg0 : DevRef τ sig)
    ∧ after (opsIndexA (F := F)) V (main_arg1 : DevRef τ sig) = V (main_arg1 : DevRef τ sig)
    ∧ after (opsIndexA (F := F)) V (main_v38 : DevRef τ sig) = V (main_v38 : DevRef τ sig)
    ∧ after (opsIndexA (F := F)) V (main_v4 : DevRef τ sig) = V (main_v4 : DevRef τ sig)
    ∧ after (opsIndexA (F := F)) V (main_v11 : DevRef τ sig) = V (main_v11 : DevRef τ sig)
    ∧ after (opsIndexA (F := F)) V (main_v46 : DevRef τ sig) = V (main_v46 : DevRef τ sig) := by
  refine ⟨?_, ?_, ?_, ?_, ?_, ?_, ?_⟩ <;>
    ((try simp only [after_append]); after_results_simp <;> rfl)

set_option maxRecDepth 8192 in
/-- The second points' numbers at their slots. -/
theorem after_opsIndexB (V : Valuation τ sig (Elt F)) :
    after (opsIndexB (F := F)) V (main_v62 : DevRef τ sig) = Host.scatter scatter_S524288_S16777216x1_S16777216_n_0_0_1 (fun _ b => b) (broadcastInDim S524288 ![] bcast_S_S524288 (constantI S_ 32 4294967295#32)) (slotColR (V (main_v38 : DevRef τ sig))) (V (main_v46 : DevRef τ sig))
    ∧ after (opsIndexB (F := F)) V (main_arg0 : DevRef τ sig) = V (main_arg0 : DevRef τ sig)
    ∧ after (opsIndexB (F := F)) V (main_arg1 : DevRef τ sig) = V (main_arg1 : DevRef τ sig)
    ∧ after (opsIndexB (F := F)) V (main_v38 : DevRef τ sig) = V (main_v38 : DevRef τ sig)
    ∧ after (opsIndexB (F := F)) V (main_v4 : DevRef τ sig) = V (main_v4 : DevRef τ sig)
    ∧ after (opsIndexB (F := F)) V (main_v11 : DevRef τ sig) = V (main_v11 : DevRef τ sig)
    ∧ after (opsIndexB (F := F)) V (main_v54 : DevRef τ sig) = V (main_v54 : DevRef τ sig) := by
  refine ⟨?_, ?_, ?_, ?_, ?_, ?_, ?_⟩ <;>
    ((try simp only [after_append]); after_results_simp <;> rfl)

set_option maxRecDepth 8192 in
/-- The two rows stacked. -/
theorem after_opsIndexC (V : Valuation τ sig (Elt F)) :
    after (opsIndexC (F := F)) V (main_v65 : DevRef τ sig) = concatenate S2x524288 0 [⟨S1x524288, broadcastInDim S1x524288 ![1] bcast_S524288_S1x524288_1 (V (main_v54 : DevRef τ sig))⟩, ⟨S1x524288, broadcastInDim S1x524288 ![1] bcast_S524288_S1x524288_1 (V (main_v62 : DevRef τ sig))⟩] concatenates_S1x524288_S1x524288_S2x524288_d0
    ∧ after (opsIndexC (F := F)) V (main_arg0 : DevRef τ sig) = V (main_arg0 : DevRef τ sig)
    ∧ after (opsIndexC (F := F)) V (main_arg1 : DevRef τ sig) = V (main_arg1 : DevRef τ sig)
    ∧ after (opsIndexC (F := F)) V (main_v38 : DevRef τ sig) = V (main_v38 : DevRef τ sig)
    ∧ after (opsIndexC (F := F)) V (main_v4 : DevRef τ sig) = V (main_v4 : DevRef τ sig)
    ∧ after (opsIndexC (F := F)) V (main_v11 : DevRef τ sig) = V (main_v11 : DevRef τ sig) := by
  refine ⟨?_, ?_, ?_, ?_, ?_, ?_⟩ <;>
    ((try simp only [after_append]); after_results_simp <;> rfl)

set_option maxRecDepth 8192 in
/-- The second result from the slots and the distance. -/
theorem after_opsWeight (V : Valuation τ sig (Elt F)) :
    after (opsWeight (F := F)) V (main_v74 : DevRef τ sig) = edgeWeightOfSlotR (V (main_v38 : DevRef τ sig)) (V (main_v11 : DevRef τ sig))
    ∧ after (opsWeight (F := F)) V (main_v65 : DevRef τ sig) = V (main_v65 : DevRef τ sig)
    ∧ after (opsWeight (F := F)) V (main_arg0 : DevRef τ sig) = V (main_arg0 : DevRef τ sig)
    ∧ after (opsWeight (F := F)) V (main_arg1 : DevRef τ sig) = V (main_arg1 : DevRef τ sig)
    ∧ after (opsWeight (F := F)) V (main_v38 : DevRef τ sig) = V (main_v38 : DevRef τ sig)
    ∧ after (opsWeight (F := F)) V (main_v4 : DevRef τ sig) = V (main_v4 : DevRef τ sig) := by
  refine ⟨?_, ?_, ?_, ?_, ?_, ?_⟩ <;>
    ((try simp only [after_append]); after_results_simp <;> rfl)

set_option maxRecDepth 8192 in
/-- The third result from the slots and the difference vectors. -/
theorem after_opsVecOut (V : Valuation τ sig (Elt F)) :
    after (opsVecOut (F := F)) V (main_v83 : DevRef τ sig) = edgeVecOfSlotR (V (main_v38 : DevRef τ sig)) (V (main_v4 : DevRef τ sig))
    ∧ after (opsVecOut (F := F)) V (main_v65 : DevRef τ sig) = V (main_v65 : DevRef τ sig)
    ∧ after (opsVecOut (F := F)) V (main_v74 : DevRef τ sig) = V (main_v74 : DevRef τ sig)
    ∧ after (opsVecOut (F := F)) V (main_arg0 : DevRef τ sig) = V (main_arg0 : DevRef τ sig)
    ∧ after (opsVecOut (F := F)) V (main_arg1 : DevRef τ sig) = V (main_arg1 : DevRef τ sig) := by
  refine ⟨?_, ?_, ?_, ?_, ?_⟩ <;>
    ((try simp only [after_append]); after_results_simp <;> rfl)

end Cert.ReferenceIdeal.Hand

end
-- ==== Proof.RefRun.lean ====
/-
  The reference's run: every weakly fair execution of `@main` terminates with its three results at the terms of
  RefTerms.lean over the two argument arrays, and the arguments unchanged.  The straight line is read part by
  part (RefRunB.lean): each part's fold is taken over the contents the parts before it leave.
-/
import proofs.«123107_j75376676045589_2_alg».proof.Proof.RefRunB

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The straight line as its twelve parts. -/
theorem ops_parts : (ops : List (HloOp τ sig (Elt F)))
    = opsVec ++ ((opsD2 (F := F) ++ (opsWhere0 ++ (opsSqrt ++ opsWhere1))) ++ (opsMask ++ (opsFlat ++ (opsCumsum ++ ((opsRank (F := F) ++ opsWhere2) ++ (opsNums ++ (opsIndexA ++ (opsIndexB ++ (opsIndexC ++ (opsWeight ++ (opsVecOut))))))))))) := by
  simp only [ops, List.append_assoc]

set_option maxRecDepth 8192 in
/-- The fold of the whole line over any contents: the three results are the terms over the contents of the two
    arguments, which are left as they were.  Each part's account (RefRunB.lean) is taken at the contents the parts
    before it leave; the equations then chain from the results back to the arguments. -/
theorem after_ops (V : Valuation τ sig (Elt F)) :
    after ops V (main_v65 : DevRef τ sig) = edgeIndexR (maskR (V (main_arg0 : DevRef τ sig)) (V (main_arg1 : DevRef τ sig)))
    ∧ after ops V (main_v74 : DevRef τ sig) = edgeWeightR (maskR (V (main_arg0 : DevRef τ sig)) (V (main_arg1 : DevRef τ sig))) (distR (V (main_arg0 : DevRef τ sig)))
    ∧ after ops V (main_v83 : DevRef τ sig) = edgeVecR (maskR (V (main_arg0 : DevRef τ sig)) (V (main_arg1 : DevRef τ sig))) (vecR (V (main_arg0 : DevRef τ sig)))
    ∧ after ops V (main_arg0 : DevRef τ sig) = V (main_arg0 : DevRef τ sig)
    ∧ after ops V (main_arg1 : DevRef τ sig) = V (main_arg1 : DevRef τ sig) := by
  obtain ⟨h0_v4, h0_arg0, h0_arg1⟩ := after_opsVec V
  obtain ⟨h1_v11, h1_arg0, h1_arg1, h1_v4⟩ := after_opsDist (after (opsVec (F := F)) V)
  obtain ⟨h2_v29, h2_arg0, h2_arg1, h2_v4, h2_v11⟩ := after_opsMask (after (opsD2 (F := F) ++ (opsWhere0 ++ (opsSqrt ++ opsWhere1))) (after (opsVec (F := F)) V))
  obtain ⟨h3_v30, h3_v31, h3_arg0, h3_arg1, h3_v4, h3_v11⟩ := after_opsFlat (after (opsMask (F := F)) (after (opsD2 (F := F) ++ (opsWhere0 ++ (opsSqrt ++ opsWhere1))) (after (opsVec (F := F)) V)))
  obtain ⟨h4_v32, h4_arg0, h4_arg1, h4_v4, h4_v11, h4_v30⟩ := after_opsCumsum (after (opsFlat (F := F)) (after (opsMask (F := F)) (after (opsD2 (F := F) ++ (opsWhere0 ++ (opsSqrt ++ opsWhere1))) (after (opsVec (F := F)) V))))
  obtain ⟨h5_v38, h5_arg0, h5_arg1, h5_v4, h5_v11⟩ := after_opsSlot (after (opsCumsum (F := F)) (after (opsFlat (F := F)) (after (opsMask (F := F)) (after (opsD2 (F := F) ++ (opsWhere0 ++ (opsSqrt ++ opsWhere1))) (after (opsVec (F := F)) V)))))
  obtain ⟨h6_v42, h6_v46, h6_v47, h6_c_9, h6_arg0, h6_arg1, h6_v38, h6_v4, h6_v11⟩ := after_opsNums (after (opsRank (F := F) ++ opsWhere2) (after (opsCumsum (F := F)) (after (opsFlat (F := F)) (after (opsMask (F := F)) (after (opsD2 (F := F) ++ (opsWhere0 ++ (opsSqrt ++ opsWhere1))) (after (opsVec (F := F)) V))))))
  obtain ⟨h7_v54, h7_arg0, h7_arg1, h7_v38, h7_v4, h7_v11, h7_v46⟩ := after_opsIndexA (after (opsNums (F := F)) (after (opsRank (F := F) ++ opsWhere2) (after (opsCumsum (F := F)) (after (opsFlat (F := F)) (after (opsMask (F := F)) (after (opsD2 (F := F) ++ (opsWhere0 ++ (opsSqrt ++ opsWhere1))) (after (opsVec (F := F)) V)))))))
  obtain ⟨h8_v62, h8_arg0, h8_arg1, h8_v38, h8_v4, h8_v11, h8_v54⟩ := after_opsIndexB (after (opsIndexA (F := F)) (after (opsNums (F := F)) (after (opsRank (F := F) ++ opsWhere2) (after (opsCumsum (F := F)) (after (opsFlat (F := F)) (after (opsMask (F := F)) (after (opsD2 (F := F) ++ (opsWhere0 ++ (opsSqrt ++ opsWhere1))) (after (opsVec (F := F)) V))))))))
  obtain ⟨h9_v65, h9_arg0, h9_arg1, h9_v38, h9_v4, h9_v11⟩ := after_opsIndexC (after (opsIndexB (F := F)) (after (opsIndexA (F := F)) (after (opsNums (F := F)) (after (opsRank (F := F) ++ opsWhere2) (after (opsCumsum (F := F)) (after (opsFlat (F := F)) (after (opsMask (F := F)) (after (opsD2 (F := F) ++ (opsWhere0 ++ (opsSqrt ++ opsWhere1))) (after (opsVec (F := F)) V)))))))))
  obtain ⟨h10_v74, h10_v65, h10_arg0, h10_arg1, h10_v38, h10_v4⟩ := after_opsWeight (after (opsIndexC (F := F)) (after (opsIndexB (F := F)) (after (opsIndexA (F := F)) (after (opsNums (F := F)) (after (opsRank (F := F) ++ opsWhere2) (after (opsCumsum (F := F)) (after (opsFlat (F := F)) (after (opsMask (F := F)) (after (opsD2 (F := F) ++ (opsWhere0 ++ (opsSqrt ++ opsWhere1))) (after (opsVec (F := F)) V))))))))))
  obtain ⟨h11_v83, h11_v65, h11_v74, h11_arg0, h11_arg1⟩ := after_opsVecOut (after (opsWeight (F := F)) (after (opsIndexC (F := F)) (after (opsIndexB (F := F)) (after (opsIndexA (F := F)) (after (opsNums (F := F)) (after (opsRank (F := F) ++ opsWhere2) (after (opsCumsum (F := F)) (after (opsFlat (F := F)) (after (opsMask (F := F)) (after (opsD2 (F := F) ++ (opsWhere0 ++ (opsSqrt ++ opsWhere1))) (after (opsVec (F := F)) V)))))))))))
  rw [ops_parts, after_append, after_append, after_append, after_append, after_append, after_append, after_append, after_append, after_append, after_append, after_append]
  refine ⟨?_, ?_, ?_, ?_, ?_⟩
  · rw [h11_v65, h10_v65, h9_v65, h8_v54, h8_v62, h7_v54, h7_v38, h7_v46, h6_v47, h6_v38, h6_c_9, h6_v42, h6_v46, h5_v38, h4_v30, h4_v32, h3_v30, h3_v31, h2_v29, h1_v11, h1_arg1, h0_v4, h0_arg1]
    simp only [edgeIndexR, edgeIndexOfSlotR, scatterNumR, slotColR, slotR, rankR, cumsumR, maskR, distR] <;> rfl
  · rw [h11_v74, h10_v74, h9_v38, h9_v11, h8_v38, h8_v11, h7_v38, h7_v11, h6_v38, h6_v11, h5_v38, h5_v11, h4_v30, h4_v32, h4_v11, h3_v30, h3_v31, h3_v11, h2_v29, h2_v11, h1_v11, h1_arg1, h0_v4, h0_arg1]
    simp only [edgeWeightR, slotR, rankR, cumsumR, maskR, distR] <;> rfl
  · rw [h11_v83, h10_v38, h10_v4, h9_v38, h9_v4, h8_v38, h8_v4, h7_v38, h7_v4, h6_v38, h6_v4, h5_v38, h5_v4, h4_v30, h4_v32, h4_v4, h3_v30, h3_v31, h3_v4, h2_v29, h2_v4, h1_v11, h1_arg1, h1_v4, h0_v4, h0_arg1]
    simp only [edgeVecR, slotR, rankR, cumsumR, maskR, distR] <;> rfl
  · rw [h11_arg0, h10_arg0, h9_arg0, h8_arg0, h7_arg0, h6_arg0, h5_arg0, h4_arg0, h3_arg0, h2_arg0, h1_arg0, h0_arg0]
  · rw [h11_arg1, h10_arg1, h9_arg1, h8_arg1, h7_arg1, h6_arg1, h5_arg1, h4_arg1, h3_arg1, h2_arg1, h1_arg1, h0_arg1]

/-- On every device, for any float values, from any memory with zero counters: every weakly fair execution of
    `@main` terminates with the pairs' point numbers, distances and difference vectors, compacted in row-major order,
    in the three result buffers — each the term of RefTerms.lean over the argument arrays — and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v65) = edgeIndexR (maskR (m ((c.tc : Thread nD τ).loc main_arg0)) (m ((c.tc : Thread nD τ).loc main_arg1)))
      ∧ r.2.mem ((c.tc : Thread nD τ).loc main_v74) = edgeWeightR (maskR (m ((c.tc : Thread nD τ).loc main_arg0)) (m ((c.tc : Thread nD τ).loc main_arg1))) (distR (m ((c.tc : Thread nD τ).loc main_arg0)))
      ∧ r.2.mem ((c.tc : Thread nD τ).loc main_v83) = edgeVecR (maskR (m ((c.tc : Thread nD τ).loc main_arg0)) (m ((c.tc : Thread nD τ).loc main_arg1))) (vecR (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v65).trans (after_ops (launchContents m c)).1,
       (h c main_v74).trans (after_ops (launchContents m c)).2.1,
       (h c main_v83).trans (after_ops (launchContents m c)).2.2.1,
       (h c main_arg0).trans (after_ops (launchContents m c)).2.2.2.1,
       (h c main_arg1).trans (after_ops (launchContents m c)).2.2.2.2⟩)
    (run_main m ρ)

end Cert.ReferenceIdeal.Hand

end
-- ==== Proof.lean ====
/-
  The certificate of a brute-force neighbour list: for n = 4096 points in space with a batch word each, every
  ordered pair (i, j) of the same batch, i ≠ j, at distance 0 ≤ d < 5 is kept, in row-major order, in arrays of
  128·n slots (pair indices, distances, difference vectors); later pairs are dropped.

  The kernel program computes, tile by tile over an 8 × 8 grid, the three difference planes x_i[k] − x_j[k], the
  distances sqrt((dx² + dy²) + dz²) guarded at zero, and the mask as 0/1 words; then, on the host, it tests the
  mask words against zero, ranks the kept pairs by a running sum, and scatters row numbers, column numbers,
  distances and each difference plane to the ranks, stacking the three planes' results. The reference computes the
  differences as [n, n, 3], sums the squares over the last axis, keeps the mask as bits, and scatters whole rows.

  At the exact instance the two agree entry by entry with no appeal to finiteness: the sum of three squares read
  from zero is the same sum in another grouping (addition on the extended reals is commutative and associative),
  a 0/1 word is nonzero exactly when its bit is set, the global row and column numbers of a tile do not wrap as
  32-bit words, and a row scatter reads, at (s, k), the last update row landing on s at column k — which is what the
  flat scatter of column k reads at s. Everything after the mask, the distances and the differences is the same
  host computation on both sides and is never opened.

  The three frames: the kernel program's run is written against the pipeline library's segments (its positions
  array feeds two input windows, so its ownership is halved at the region's entry and joined at the exit), at any
  float instance; the reference's run is its host operations in order.
-/
import proofs.«123107_j75376676045589_2_alg».proof.Defs
import proofs.«123107_j75376676045589_2_alg».proof.Proof.Gen.Kernel
import proofs.«123107_j75376676045589_2_alg».proof.Proof.Gen.KernelIdeal
import proofs.«123107_j75376676045589_2_alg».proof.Proof.Gen.ReferenceIdeal
import proofs.«123107_j75376676045589_2_alg».proof.Proof.Gen.Pre_finite_inputs
import proofs.«123107_j75376676045589_2_alg».proof.Proof.KBRun
import proofs.«123107_j75376676045589_2_alg».proof.Proof.KIRun
import proofs.«123107_j75376676045589_2_alg».proof.Proof.KIFinal
import proofs.«123107_j75376676045589_2_alg».proof.Proof.RefRun

noncomputable section

namespace Cert.Proof

open Idealize.ShloMosaic Idealize.SL.Sem

/-- The word-level kernel program runs to the end and leaves its arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's run, its results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.Hand.run (F := Ideal) m ρ)

/-- The ideal pass rewrote nothing. -/
theorem preserves : Cert.preserves_Kernel_KernelIdeal := trivial

/-- From memories agreeing on the arguments both programs end with the reference's result functions of those
    arguments. -/
theorem algebraic : Cert.algebraic_KernelIdeal_ReferenceIdeal := by
  intro m ρ m' ρ' _ hagree
  refine ⟨_, _, _, Cert.KernelIdeal.HandFinal.results m ρ, ?_⟩
  refine (θ_run Cert.ReferenceIdeal.defs _ _).mono (fun _ h c => ?_) (Cert.ReferenceIdeal.Hand.run (F := Ideal) m' ρ')
  obtain ⟨h65, h74, h83, ha0, ha1⟩ := h c
  rw [(hagree c).1, (hagree c).2] at h65 h74 h83
  exact ⟨h65, h74, h83, ha0, ha1⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
